-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4x2048 : Shape := ⟨3, ![4096, 4, 2048]⟩
abbrev S4096x4x1024 : Shape := ⟨3, ![4096, 4, 1024]⟩
abbrev S4096x512 : Shape := ⟨2, ![4096, 512]⟩
abbrev S2048x3072 : Shape := ⟨2, ![2048, 3072]⟩
abbrev S2048x512 : Shape := ⟨2, ![2048, 512]⟩
abbrev S2048 : Shape := ⟨1, ![2048]⟩
abbrev S512x512 : Shape := ⟨2, ![512, 512]⟩
abbrev S512 : Shape := ⟨1, ![512]⟩
abbrev S_ : Shape := ⟨0, ![]⟩

class Facts : Prop where
  bcast_S_S4096x4x2048 : S_.BroadcastsInDim S4096x4x2048 (![] : Fin 0 → Fin S4096x4x2048.rank)
  reducesTo_S4096x4x2048_S_d0_1_2 : S4096x4x2048.ReducesTo [0, 1, 2] S_
  h_S_ : 0 < S_.numel
  bcast_S_S4096x4x1024 : S_.BroadcastsInDim S4096x4x1024 (![] : Fin 0 → Fin S4096x4x1024.rank)
  reducesTo_S4096x4x1024_S_d0_1_2 : S4096x4x1024.ReducesTo [0, 1, 2] S_
  bcast_S_S4096x512 : S_.BroadcastsInDim S4096x512 (![] : Fin 0 → Fin S4096x512.rank)
  reducesTo_S4096x512_S_d0_1 : S4096x512.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part6 {F : FTy → Type} [FloatOps F] (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  main_v103

def fn_part5 {F : FTy → Type} [FloatOps F] (main_arg18 : FVec F S2048 .f32) (main_arg19 : FVec F S512x512 .f32) (main_arg20 : FVec F S512 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_v98 main_v101 main_c_39

def fn_part4 {F : FTy → Type} [FloatOps F] (main_arg14 : FVec F S2048 .f32) (main_arg15 : FVec F S2048x512 .f32) (main_arg16 : FVec F S2048x512 .f32) (main_arg17 : FVec F S2048 .f32) (main_arg18 : FVec F S2048 .f32) (main_arg19 : FVec F S512x512 .f32) (main_arg20 : FVec F S512 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x512 .f32 := Host.absf main_arg15
  let main_cst_28 : FVec F S_ .f32 := constant S_ .f32 0x7F800000#32
  let main_v75 : FVec F S2048x512 .f32 := broadcastInDim S2048x512 ![] bcast_S_S2048x512 main_cst_28
  let main_v76 : IVec S2048x512 1 := cmpf .olt main_v74 main_v75
  let main_c_29 : IVec S_ 1 := constantI S_ 1 1#1
  let main_v77 : IVec S_ 1 := (fun x v => Host.reduce IntOp.andi x v reducesTo_S2048x512_S_d0_1 h_S_) main_v76 main_c_29
  let main_v78 : IVec S_ 1 := andi main_v73 main_v77
  let main_v79 : FVec F S2048x512 .f32 := Host.absf main_arg16
  let main_cst_30 : FVec F S_ .f32 := constant S_ .f32 0x7F800000#32
  let main_v80 : FVec F S2048x512 .f32 := broadcastInDim S2048x512 ![] bcast_S_S2048x512 main_cst_30
  let main_v81 : IVec S2048x512 1 := cmpf .olt main_v79 main_v80
  let main_c_31 : IVec S_ 1 := constantI S_ 1 1#1
  let main_v82 : IVec S_ 1 := (fun x v => Host.reduce IntOp.andi x v reducesTo_S2048x512_S_d0_1 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S2048x512 .f32) (main_arg12 : FVec F S2048x512 .f32) (main_arg13 : FVec F S2048 .f32) (main_arg14 : FVec F S2048 .f32) (main_arg15 : FVec F S2048x512 .f32) (main_arg16 : FVec F S2048x512 .f32) (main_arg17 : FVec F S2048 .f32) (main_arg18 : FVec F S2048 .f32) (main_arg19 : FVec F S512x512 .f32) (main_arg20 : FVec F S512 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x512 .f32 := Host.absf main_arg11
  let main_cst_20 : FVec F S_ .f32 := constant S_ .f32 0x7F800000#32
  let main_v55 : FVec F S2048x512 .f32 := broadcastInDim S2048x512 ![] bcast_S_S2048x512 main_cst_20
  let main_v56 : IVec S2048x512 1 := cmpf .olt main_v54 main_v55
  let main_c_21 : IVec S_ 1 := constantI S_ 1 1#1
  let main_v57 : IVec S_ 1 := (fun x v => Host.reduce IntOp.andi x v reducesTo_S2048x512_S_d0_1 h_S_) main_v56 main_c_21
  let main_v58 : IVec S_ 1 := andi main_v53 main_v57
  let main_v59 : FVec F S2048x512 .f32 := Host.absf main_arg12
  let main_cst_22 : FVec F S_ .f32 := constant S_ .f32 0x7F800000#32
  let main_v60 : FVec F S2048x512 .f32 := broadcastInDim S2048x512 ![] bcast_S_S2048x512 main_cst_22
  let main_v61 : IVec S2048x512 1 := cmpf .olt main_v59 main_v60
  let main_c_23 : IVec S_ 1 := constantI S_ 1 1#1
  let main_v62 : IVec S_ 1 := (fun x v => Host.reduce IntOp.andi x v reducesTo_S2048x512_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_arg20 main_v63 main_v67

def fn_part2 {F : FTy → Type} [FloatOps F] (main_arg7 : FVec F S2048x512 .f32) (main_arg8 : FVec F S2048x512 .f32) (main_arg9 : FVec F S2048 .f32) (main_arg10 : FVec F S2048 .f32) (main_arg11 : FVec F S2048x512 .f32) (main_arg12 : FVec F S2048x512 .f32) (main_arg13 : FVec F S2048 .f32) (main_arg14 : FVec F S2048 .f32) (main_arg15 : FVec F S2048x512 .f32) (main_arg16 : FVec F S2048x512 .f32) (main_arg17 : FVec F S2048 .f32) (main_arg18 : FVec F S2048 .f32) (main_arg19 : FVec F S512x512 .f32) (main_arg20 : FVec F S512 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) (main_arg11 : FVec F S2048x512 .f32) (main_arg12 : FVec F S2048x512 .f32) (main_arg13 : FVec F S2048 .f32) (main_arg14 : FVec F S2048 .f32) (main_arg15 : FVec F S2048x512 .f32) (main_arg16 : FVec F S2048x512 .f32) (main_arg17 : FVec F S2048 .f32) (main_arg18 : FVec F S2048 .f32) (main_arg19 : FVec F S512x512 .f32) (main_arg20 : FVec F S512 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x4x2048 .f32) (main_arg1 : FVec F S4096x4x1024 .f32) (main_arg2 : FVec F S4096x512 .f32) (main_arg3 : FVec F S2048x3072 .f32) (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) (main_arg11 : FVec F S2048x512 .f32) (main_arg12 : FVec F S2048x512 .f32) (main_arg13 : FVec F S2048 .f32) (main_arg14 : FVec F S2048 .f32) (main_arg15 : FVec F S2048x512 .f32) (main_arg16 : FVec F S2048x512 .f32) (main_arg17 : FVec F S2048 .f32) (main_arg18 : FVec F S2048 .f32) (main_arg19 : FVec F S512x512 .f32) (main_arg20 : FVec F S512 .f32) : IVec S_ 1 :=
  let main_v0 : FVec F S4096x4x2048 .f32 := Host.absf main_arg0
  let main_cst : FVec F S_ .f32 := constant S_ .f32 0x7F800000#32
  let main_v1 : FVec F S4096x4x2048 .f32 := broadcastInDim S4096x4x2048 ![] bcast_S_S4096x4x2048 main_cst
  let main_v2 : IVec S4096x4x2048 1 := cmpf .olt main_v0 main_v1
  let main_c : IVec S_ 1 := constantI S_ 1 1#1
  let main_v3 : IVec S_ 1 := (fun x v => Host.reduce IntOp.andi x v reducesTo_S4096x4x2048_S_d0_1_2 h_S_) main_v2 main_c
  let main_v4 : FVec F S4096x4x1024 .f32 := Host.absf main_arg1
  let main_cst_0 : FVec F S_ .f32 := constant S_ .f32 0x7F800000#32
  let main_v5 : FVec F S4096x4x1024 .f32 := broadcastInDim S4096x4x1024 ![] bcast_S_S4096x4x1024 main_cst_0
  let main_v6 : IVec S4096x4x1024 1 := cmpf .olt main_v4 main_v5
  let main_c_1 : IVec S_ 1 := constantI S_ 1 1#1
  let main_v7 : IVec S_ 1 := (fun x v => Host.reduce IntOp.andi x v reducesTo_S4096x4x1024_S_d0_1_2 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x4x2048 : Shape := ⟨3, ![4096, 4, 2048]⟩
abbrev S4096x4x1024 : Shape := ⟨3, ![4096, 4, 1024]⟩
abbrev S4096x512 : Shape := ⟨2, ![4096, 512]⟩
abbrev S2048x3072 : Shape := ⟨2, ![2048, 3072]⟩
abbrev S2048x512 : Shape := ⟨2, ![2048, 512]⟩
abbrev S2048 : Shape := ⟨1, ![2048]⟩
abbrev S512x512 : Shape := ⟨2, ![512, 512]⟩
abbrev S512 : Shape := ⟨1, ![512]⟩
abbrev S2048x2048 : Shape := ⟨2, ![2048, 2048]⟩
abbrev S2048x1024 : Shape := ⟨2, ![2048, 1024]⟩
abbrev S1024x2048 : Shape := ⟨2, ![1024, 2048]⟩
abbrev S512x2048 : Shape := ⟨2, ![512, 2048]⟩
abbrev S64x4x2048 : Shape := ⟨3, ![64, 4, 2048]⟩
abbrev S64x4x1024 : Shape := ⟨3, ![64, 4, 1024]⟩
abbrev S64x512 : Shape := ⟨2, ![64, 512]⟩
abbrev S64x1x2048 : Shape := ⟨3, ![64, 1, 2048]⟩
abbrev S64x2048 : Shape := ⟨2, ![64, 2048]⟩
abbrev S64x1x1024 : Shape := ⟨3, ![64, 1, 1024]⟩
abbrev S64x1024 : Shape := ⟨2, ![64, 1024]⟩
abbrev S256x2048 : Shape := ⟨2, ![256, 2048]⟩
abbrev S256x1024 : Shape := ⟨2, ![256, 1024]⟩
abbrev S1x2048 : Shape := ⟨2, ![1, 2048]⟩
abbrev S1x512 : Shape := ⟨2, ![1, 512]⟩

abbrev nBuf : Space → Nat
  | .hbm => 47
  | .vmem => 23
  | .smem => 0
  | _ => 0

abbrev bufTy : (tb : Table) → Fin (tcTables nBuf tb) → BufTy
  | .hbm, ⟨0, _⟩ => ⟨S4096x4x2048, .f32⟩
  | .hbm, ⟨1, _⟩ => ⟨S4096x4x1024, .f32⟩
  | .hbm, ⟨2, _⟩ => ⟨S4096x512, .f32⟩
  | .hbm, ⟨3, _⟩ => ⟨S2048x3072, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S2048x512, .f32⟩
  | .hbm, ⟨12, _⟩ => ⟨S2048x512, .f32⟩
  | .hbm, ⟨13, _⟩ => ⟨S2048, .f32⟩
  | .hbm, ⟨14, _⟩ => ⟨S2048, .f32⟩
  | .hbm, ⟨15, _⟩ => ⟨S2048x512, .f32⟩
  | .hbm, ⟨16, _⟩ => ⟨S2048x512, .f32⟩
  | .hbm, ⟨17, _⟩ => ⟨S2048, .f32⟩
  | .hbm, ⟨18, _⟩ => ⟨S2048, .f32⟩
  | .hbm, ⟨19, _⟩ => ⟨S512x512, .f32⟩
  | .hbm, ⟨20, _⟩ => ⟨S512, .f32⟩
  | .hbm, ⟨21, _⟩ => ⟨S2048x2048, .f32⟩
  | .hbm, ⟨22, _⟩ => ⟨S2048x2048, .f32⟩
  | .hbm, ⟨23, _⟩ => ⟨S2048x2048, .bf16⟩
  | .hbm, ⟨24, _⟩ => ⟨S2048x1024, .f32⟩
  | .hbm, ⟨25, _⟩ => ⟨S1024x2048, .f32⟩
  | .hbm, ⟨26, _⟩ => ⟨S1024x2048, .bf16⟩
  | .hbm, ⟨27, _⟩ => ⟨S512x2048, .f32⟩
  | .hbm, ⟨28, _⟩ => ⟨S512x2048, .bf16⟩
  | .hbm, ⟨29, _⟩ => ⟨S2048, .f32⟩
  | .hbm, ⟨30, _⟩ => ⟨S512x2048, .f32⟩
  | .hbm, ⟨31, _⟩ => ⟨S512x2048, .bf16⟩
  | .hbm, ⟨32, _⟩ => ⟨S512x2048, .f32⟩
  | .hbm, ⟨33, _⟩ => ⟨S512x2048, .bf16⟩
  | .hbm, ⟨34, _⟩ => ⟨S2048, .f32⟩
  | .hbm, ⟨35, _⟩ => ⟨S512x2048, .f32⟩
  | .hbm, ⟨36, _⟩ => ⟨S512x2048, .bf16⟩
  | .hbm, ⟨37, _⟩ => ⟨S512x2048, .f32⟩
  | .hbm, ⟨38, _⟩ => ⟨S512x2048, .bf16⟩
  | .hbm, ⟨39, _⟩ => ⟨S2048, .f32⟩
  | .hbm, ⟨40, _⟩ => ⟨S512x2048, .f32⟩
  | .hbm, ⟨41, _⟩ => ⟨S512x2048, .bf16⟩
  | .hbm, ⟨42, _⟩ => ⟨S512x2048, .f32⟩
  | .hbm, ⟨43, _⟩ => ⟨S512x2048, .bf16⟩
  | .hbm, ⟨44, _⟩ => ⟨S2048, .f32⟩
  | .hbm, ⟨45, _⟩ => ⟨S512x512, .f32⟩
  | .hbm, ⟨46, _⟩ => ⟨S4096x512, .f32⟩
  | .local _ .vmem, ⟨0, _⟩ => ⟨S64x4x2048, .f32⟩
  | .local _ .vmem, ⟨1, _⟩ => ⟨S64x4x2048, .f32⟩
  | .local _ .vmem, ⟨2, _⟩ => ⟨S64x4x1024, .f32⟩
  | .local _ .vmem, ⟨3, _⟩ => ⟨S64x4x1024, .f32⟩
  | .local _ .vmem, ⟨4, _⟩ => ⟨S64x512, .f32⟩
  | .local _ .vmem, ⟨5, _⟩ => ⟨S64x512, .f32⟩
  | .local _ .vmem, ⟨6, _⟩ => ⟨S2048x2048, .bf16⟩
  | .local _ .vmem, ⟨7, _⟩ => ⟨S1024x2048, .bf16⟩
  | .local _ .vmem, ⟨8, _⟩ => ⟨S512x2048, .bf16⟩
  | .local _ .vmem, ⟨9, _⟩ => ⟨S2048, .f32⟩
  | .local _ .vmem, ⟨10, _⟩ => ⟨S512x2048, .bf16⟩
  | .local _ .vmem, ⟨11, _⟩ => ⟨S512x2048, .bf16⟩
  | .local _ .vmem, ⟨12, _⟩ => ⟨S2048, .f32⟩
  | .local _ .vmem, ⟨13, _⟩ => ⟨S512x2048, .bf16⟩
  | .local _ .vmem, ⟨14, _⟩ => ⟨S512x2048, .bf16⟩
  | .local _ .vmem, ⟨15, _⟩ => ⟨S2048, .f32⟩
  | .local _ .vmem, ⟨16, _⟩ => ⟨S512x2048, .bf16⟩
  | .local _ .vmem, ⟨17, _⟩ => ⟨S512x2048, .bf16⟩
  | .local _ .vmem, ⟨18, _⟩ => ⟨S2048, .f32⟩
  | .local _ .vmem, ⟨19, _⟩ => ⟨S512x512, .f32⟩
  | .local _ .vmem, ⟨20, _⟩ => ⟨S512, .f32⟩
  | .local _ .vmem, ⟨21, _⟩ => ⟨S64x512, .f32⟩
  | .local _ .vmem, ⟨22, _⟩ => ⟨S64x512, .f32⟩
  | _, _ => ⟨S4096x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S2048x3072_S2048x2048_0_0 : S2048x3072.Slices ![0, 0] S2048x2048
  transposes_S2048x2048_S2048x2048_1_0 : S2048x2048.Transposes [1, 0] S2048x2048
  bitsLt_bf16_f32 : FTy.bits .bf16 < FTy.bits .f32
  slices_S2048x3072_S2048x1024_0_2048 : S2048x3072.Slices ![0, 2048] S2048x1024
  transposes_S2048x1024_S1024x2048_1_0 : S2048x1024.Transposes [1, 0] S1024x2048
  transposes_S2048x512_S512x2048_1_0 : S2048x512.Transposes [1, 0] S512x2048
  transposes_S512x512_S512x512_1_0 : S512x512.Transposes [1, 0] S512x512
  inb_S64x4x2048_S64x4x2048_0_0_0 : ∀ a, (![0, 0, 0] : Fin 3 → Nat) a + S64x4x2048.size a ≤ S64x4x2048.size a
  h_S64x4x2048 : 0 < S64x4x2048.numel
  inb_S64x4x1024_S64x4x1024_0_0_0 : ∀ a, (![0, 0, 0] : Fin 3 → Nat) a + S64x4x1024.size a ≤ S64x4x1024.size a
  h_S64x4x1024 : 0 < S64x4x1024.numel
  slices_S64x4x2048_o0_0_0_S64x1x2048 : S64x4x2048.Slices ![0, 0, 0] S64x1x2048
  shapeCasts_S64x1x2048_S64x2048 : S64x1x2048.ShapeCasts S64x2048
  slices_S64x4x2048_o0_1_0_S64x1x2048 : S64x4x2048.Slices ![0, 1, 0] S64x1x2048
  slices_S64x4x2048_o0_2_0_S64x1x2048 : S64x4x2048.Slices ![0, 2, 0] S64x1x2048
  slices_S64x4x2048_o0_3_0_S64x1x2048 : S64x4x2048.Slices ![0, 3, 0] S64x1x2048
  slices_S64x4x1024_o0_0_0_S64x1x1024 : S64x4x1024.Slices ![0, 0, 0] S64x1x1024
  shapeCasts_S64x1x1024_S64x1024 : S64x1x1024.ShapeCasts S64x1024
  slices_S64x4x1024_o0_1_0_S64x1x1024 : S64x4x1024.Slices ![0, 1, 0] S64x1x1024
  slices_S64x4x1024_o0_2_0_S64x1x1024 : S64x4x1024.Slices ![0, 2, 0] S64x1x1024
  slices_S64x4x1024_o0_3_0_S64x1x1024 : S64x4x1024.Slices ![0, 3, 0] S64x1x1024
  concatenates_S64x2048_S64x2048_S64x2048_S64x2048_S256x2048_d0 : Shape.Concatenates [S64x2048, S64x2048, S64x2048, S64x2048] S256x2048 0
  concatenates_S64x1024_S64x1024_S64x1024_S64x1024_S256x1024_d0 : Shape.Concatenates [S64x1024, S64x1024, S64x1024, S64x1024] S256x1024 0
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x2048_o0_0_S64x2048 : S256x2048.Slices ![0, 0] S64x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S64x2048 : S1x2048.Broadcasts S64x2048
  slices_S64x2048_o0_0_S64x512 : S64x2048.Slices ![0, 0] S64x512
  slices_S64x2048_o0_512_S64x512 : S64x2048.Slices ![0, 512] S64x512
  slices_S64x2048_o0_1024_S64x512 : S64x2048.Slices ![0, 1024] S64x512
  slices_S64x2048_o0_1536_S64x512 : S64x2048.Slices ![0, 1536] S64x512
  slices_S256x2048_o64_0_S64x2048 : S256x2048.Slices ![64, 0] S64x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  natLt_1_32 : 1 < 32
  dot_S256x2048_S2048x2048_S256x2048_1_0_0_1_n_n_wf : DotDims.WF S256x2048 S2048x2048 S256x2048 [1] [0] [0] [1] [] []
  dot_S256x1024_S1024x2048_S256x2048_1_0_0_1_n_n_wf : DotDims.WF S256x1024 S1024x2048 S256x2048 [1] [0] [0] [1] [] []
  dot_S64x512_S512x2048_S64x2048_1_0_0_1_n_n_wf : DotDims.WF S64x512 S512x2048 S64x2048 [1] [0] [0] [1] [] []
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4x2048.size a ≤ S4096x4x2048.size a
  hwx0_0 : ∀ i : grid0.Coords, EltTy.bits .f32 = 32 ∨ (Rect.block (s := S4096x4x2048) S64x4x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4x1024.size a ≤ S4096x4x1024.size a
  hwx0_1 : ∀ i : grid0.Coords, EltTy.bits .f32 = 32 ∨ (Rect.block (s := S4096x4x1024) S64x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S4096x512.size a
  hwx0_2 : ∀ i : grid0.Coords, EltTy.bits .f32 = 32 ∨ (Rect.block (s := S4096x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S512x2048.size a
  hwx0_8 : ∀ i : grid0.Coords, EltTy.bits .bf16 = 32 ∨ (Rect.block (s := S512x2048) S512x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S512x2048.size a
  hwx0_10 : ∀ i : grid0.Coords, EltTy.bits .bf16 = 32 ∨ (Rect.block (s := S512x2048) S512x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S512x2048.size a
  hwx0_11 : ∀ i : grid0.Coords, EltTy.bits .bf16 = 32 ∨ (Rect.block (s := S512x2048) S512x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S2048.size a
  hwx0_12 : ∀ i : grid0.Coords, EltTy.bits .f32 = 32 ∨ (Rect.block (s := S2048) S2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x2048.size a ≤ S512x2048.size a
  hwx0_13 : ∀ i : grid0.Coords, EltTy.bits .bf16 = 32 ∨ (Rect.block (s := S512x2048) S512x2048.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x2048.size a ≤ S512x2048.size a
  hwx0_14 : ∀ i : grid0.Coords, EltTy.bits .bf16 = 32 ∨ (Rect.block (s := S512x2048) S512x2048.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048.size a ≤ S2048.size a
  hwx0_15 : ∀ i : grid0.Coords, EltTy.bits .f32 = 32 ∨ (Rect.block (s := S2048) S2048.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .f32 = 32 ∨ (Rect.block (s := S512x512) S512x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x512.size a ≤ S4096x512.size a
  hwx0_18 : ∀ i : grid0.Coords, EltTy.bits .f32 = 32 ∨ (Rect.block (s := S4096x512) S64x512.size (cc0_transform_18 i) (hinb0_18 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_arg0) S64x4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S512x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S512x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S512x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S512x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S512x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v23) S2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v24) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg20) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v25) S64x512.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4096x4x2048 : Shape := ⟨3, ![4096, 4, 2048]⟩
abbrev S4096x4x1024 : Shape := ⟨3, ![4096, 4, 1024]⟩
abbrev S4096x512 : Shape := ⟨2, ![4096, 512]⟩
abbrev S2048x3072 : Shape := ⟨2, ![2048, 3072]⟩
abbrev S2048x512 : Shape := ⟨2, ![2048, 512]⟩
abbrev S2048 : Shape := ⟨1, ![2048]⟩
abbrev S512x512 : Shape := ⟨2, ![512, 512]⟩
abbrev S512 : Shape := ⟨1, ![512]⟩
abbrev S4096x4x3072 : Shape := ⟨3, ![4096, 4, 3072]⟩
abbrev S_ : Shape := ⟨0, ![]⟩
abbrev S4096x1x3072 : Shape := ⟨3, ![4096, 1, 3072]⟩
abbrev S4096x3072 : Shape := ⟨2, ![4096, 3072]⟩
abbrev S3072x2048 : Shape := ⟨2, ![3072, 2048]⟩
abbrev S4096x2048 : Shape := ⟨2, ![4096, 2048]⟩
abbrev S512x2048 : Shape := ⟨2, ![512, 2048]⟩
abbrev S1x2048 : Shape := ⟨2, ![1, 2048]⟩
abbrev S1x512 : Shape := ⟨2, ![1, 512]⟩

abbrev nBuf : Space → Nat
  | .hbm => 385
  | .vmem => 0
  | .smem => 0
  | _ => 0

abbrev hbmTy0_0 (i : Nat) : BufTy := match i % 128 with
  | 0 => ⟨S4096x4x2048, .f32⟩
  | 1 => ⟨S4096x4x1024, .f32⟩
  | 2 => ⟨S4096x512, .f32⟩
  | 3 => ⟨S2048x3072, .f32⟩
  | 4 => ⟨S2048x512, .f32⟩
  | 5 => ⟨S2048, .f32⟩
  | 6 => ⟨S2048, .f32⟩
  | 7 => ⟨S2048x512, .f32⟩
  | 8 => ⟨S2048x512, .f32⟩
  | 9 => ⟨S2048, .f32⟩
  | 10 => ⟨S2048, .f32⟩
  | 11 => ⟨S2048x512, .f32⟩
  | 12 => ⟨S2048x512, .f32⟩
  | 13 => ⟨S2048, .f32⟩
  | 14 => ⟨S2048, .f32⟩
  | 15 => ⟨S2048x512, .f32⟩
  | 16 => ⟨S2048x512, .f32⟩
  | 17 => ⟨S2048, .f32⟩
  | 18 => ⟨S2048, .f32⟩
  | 19 => ⟨S512x512, .f32⟩
  | 20 => ⟨S512, .f32⟩
  | 21 => ⟨S4096x4x3072, .f32⟩
  | 22 => ⟨S_, .f32⟩
  | 23 => ⟨S4096x512, .f32⟩
  | 24 => ⟨S4096x1x3072, .f32⟩
  | 25 => ⟨S4096x3072, .f32⟩
  | 26 => ⟨S3072x2048, .f32⟩
  | 27 => ⟨S4096x2048, .f32⟩
  | 28 => ⟨S512x2048, .f32⟩
  | 29 => ⟨S4096x2048, .f32⟩
  | 30 => ⟨S4096x2048, .f32⟩
  | 31 => ⟨S2048, .f32⟩
  | 32 => ⟨S1x2048, .f32⟩
  | 33 => ⟨S4096x2048, .f32⟩
  | 34 => ⟨S4096x2048, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x1x3072, .f32⟩
  | 76 => ⟨S4096x3072, .f32⟩
  | 77 => ⟨S3072x2048, .f32⟩
  | 78 => ⟨S4096x2048, .f32⟩
  | 79 => ⟨S512x2048, .f32⟩
  | 80 => ⟨S4096x2048, .f32⟩
  | 81 => ⟨S4096x2048, .f32⟩
  | 82 => ⟨S2048, .f32⟩
  | 83 => ⟨S1x2048, .f32⟩
  | 84 => ⟨S4096x2048, .f32⟩
  | 85 => ⟨S4096x2048, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S_, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S4096x512, .f32⟩
  | 119 => ⟨S4096x512, .f32⟩
  | 120 => ⟨S_, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S512x2048, .f32⟩
  | 127 => ⟨S4096x2048, .f32⟩
  | _ => ⟨S4096x4x2048, .f32⟩

abbrev hbmTy0_1 (i : Nat) : BufTy := match i % 128 with
  | 0 => ⟨S512x2048, .f32⟩
  | 1 => ⟨S4096x2048, .f32⟩
  | 2 => ⟨S4096x2048, .f32⟩
  | 3 => ⟨S2048, .f32⟩
  | 4 => ⟨S1x2048, .f32⟩
  | 5 => ⟨S4096x2048, .f32⟩
  | 6 => ⟨S4096x2048, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x1x3072, .f32⟩
  | 48 => ⟨S4096x3072, .f32⟩
  | 49 => ⟨S3072x2048, .f32⟩
  | 50 => ⟨S4096x2048, .f32⟩
  | 51 => ⟨S512x2048, .f32⟩
  | 52 => ⟨S4096x2048, .f32⟩
  | 53 => ⟨S4096x2048, .f32⟩
  | 54 => ⟨S2048, .f32⟩
  | 55 => ⟨S1x2048, .f32⟩
  | 56 => ⟨S4096x2048, .f32⟩
  | 57 => ⟨S4096x2048, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S512x2048, .f32⟩
  | 99 => ⟨S4096x2048, .f32⟩
  | 100 => ⟨S512x2048, .f32⟩
  | 101 => ⟨S4096x2048, .f32⟩
  | 102 => ⟨S4096x2048, .f32⟩
  | 103 => ⟨S2048, .f32⟩
  | 104 => ⟨S1x2048, .f32⟩
  | 105 => ⟨S4096x2048, .f32⟩
  | 106 => ⟨S4096x2048, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x4x2048, .f32⟩

abbrev hbmTy0_2 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S_, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x1x3072, .f32⟩
  | 20 => ⟨S4096x3072, .f32⟩
  | 21 => ⟨S3072x2048, .f32⟩
  | 22 => ⟨S4096x2048, .f32⟩
  | 23 => ⟨S512x2048, .f32⟩
  | 24 => ⟨S4096x2048, .f32⟩
  | 25 => ⟨S4096x2048, .f32⟩
  | 26 => ⟨S2048, .f32⟩
  | 27 => ⟨S1x2048, .f32⟩
  | 28 => ⟨S4096x2048, .f32⟩
  | 29 => ⟨S4096x2048, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S512x2048, .f32⟩
  | 71 => ⟨S4096x2048, .f32⟩
  | 72 => ⟨S512x2048, .f32⟩
  | 73 => ⟨S4096x2048, .f32⟩
  | 74 => ⟨S4096x2048, .f32⟩
  | 75 => ⟨S2048, .f32⟩
  | 76 => ⟨S1x2048, .f32⟩
  | 77 => ⟨S4096x2048, .f32⟩
  | 78 => ⟨S4096x2048, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S512x512, .f32⟩
  | 120 => ⟨S4096x512, .f32⟩
  | 121 => ⟨S1x512, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S4096x512, .i1⟩
  | _ => ⟨S4096x4x2048, .f32⟩

abbrev hbmTy0_3 (i : Nat) : BufTy := match i % 128 with
  | 0 => ⟨S4096x512, .f32⟩
  | _ => ⟨S4096x4x2048, .f32⟩

abbrev hbmTy (i : Nat) : BufTy := match i / 128 with
  | 0 => hbmTy0_0 i
  | 1 => hbmTy0_1 i
  | 2 => hbmTy0_2 i
  | 3 => hbmTy0_3 i
  | _ => ⟨S4096x4x2048, .f32⟩

abbrev bufTy : (tb : Table) → Fin (tcTables nBuf tb) → BufTy
  | .hbm, ⟨i, _⟩ => hbmTy i
  | _, _ => ⟨S4096x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call0_cst : Ref sig .tc := ⟨.hbm, 69, rfl⟩
abbrev main_call0_v0 : Ref sig .tc := ⟨.hbm, 70, rfl⟩
abbrev main_v41 : Ref sig .tc := ⟨.hbm, 71, rfl⟩
abbrev main_call1_cst : Ref sig .tc := ⟨.hbm, 72, rfl⟩
abbrev main_call1_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_cst_7 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_8 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_10 : Ref sig .tc := ⟨.hbm, 112, rfl⟩
abbrev main_v76 : Ref sig .tc := ⟨.hbm, 113, rfl⟩
abbrev main_v77 : Ref sig .tc := ⟨.hbm, 114, rfl⟩
abbrev main_cst_11 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call2_cst : Ref sig .tc := ⟨.hbm, 120, rfl⟩
abbrev main_call2_v0 : Ref sig .tc := ⟨.hbm, 121, rfl⟩
abbrev main_v82 : Ref sig .tc := ⟨.hbm, 122, rfl⟩
abbrev main_call3_cst : Ref sig .tc := ⟨.hbm, 123, rfl⟩
abbrev main_call3_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_12 : Ref sig .tc := ⟨.hbm, 141, rfl⟩
abbrev main_v99 : Ref sig .tc := ⟨.hbm, 142, rfl⟩
abbrev main_v100 : Ref sig .tc := ⟨.hbm, 143, rfl⟩
abbrev main_cst_13 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_14 : Ref sig .tc := ⟨.hbm, 150, rfl⟩
abbrev main_v106 : Ref sig .tc := ⟨.hbm, 151, rfl⟩
abbrev main_v107 : Ref sig .tc := ⟨.hbm, 152, rfl⟩
abbrev main_cst_15 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_16 : Ref sig .tc := ⟨.hbm, 161, rfl⟩
abbrev main_v115 : Ref sig .tc := ⟨.hbm, 162, rfl⟩
abbrev main_v116 : Ref sig .tc := ⟨.hbm, 163, rfl⟩
abbrev main_cst_17 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_call4_cst : Ref sig .tc := ⟨.hbm, 169, rfl⟩
abbrev main_call4_v0 : Ref sig .tc := ⟨.hbm, 170, rfl⟩
abbrev main_v121 : Ref sig .tc := ⟨.hbm, 171, rfl⟩
abbrev main_call5_cst : Ref sig .tc := ⟨.hbm, 172, rfl⟩
abbrev main_call5_v0 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_18 : Ref sig .tc := ⟨.hbm, 192, rfl⟩
abbrev main_v140 : Ref sig .tc := ⟨.hbm, 193, rfl⟩
abbrev main_v141 : Ref sig .tc := ⟨.hbm, 194, rfl⟩
abbrev main_cst_19 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_20 : Ref sig .tc := ⟨.hbm, 201, rfl⟩
abbrev main_v147 : Ref sig .tc := ⟨.hbm, 202, rfl⟩
abbrev main_v148 : Ref sig .tc := ⟨.hbm, 203, rfl⟩
abbrev main_cst_21 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_22 : Ref sig .tc := ⟨.hbm, 212, rfl⟩
abbrev main_v156 : Ref sig .tc := ⟨.hbm, 213, rfl⟩
abbrev main_v157 : Ref sig .tc := ⟨.hbm, 214, rfl⟩
abbrev main_cst_23 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_call6_cst : Ref sig .tc := ⟨.hbm, 220, rfl⟩
abbrev main_call6_v0 : Ref sig .tc := ⟨.hbm, 221, rfl⟩
abbrev main_v162 : Ref sig .tc := ⟨.hbm, 222, rfl⟩
abbrev main_call7_cst : Ref sig .tc := ⟨.hbm, 223, rfl⟩
abbrev main_call7_v0 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_24 : Ref sig .tc := ⟨.hbm, 241, rfl⟩
abbrev main_v179 : Ref sig .tc := ⟨.hbm, 242, rfl⟩
abbrev main_v180 : Ref sig .tc := ⟨.hbm, 243, rfl⟩
abbrev main_cst_25 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_26 : Ref sig .tc := ⟨.hbm, 250, rfl⟩
abbrev main_v186 : Ref sig .tc := ⟨.hbm, 251, rfl⟩
abbrev main_v187 : Ref sig .tc := ⟨.hbm, 252, rfl⟩
abbrev main_cst_27 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_cst_28 : Ref sig .tc := ⟨.hbm, 261, rfl⟩
abbrev main_v195 : Ref sig .tc := ⟨.hbm, 262, rfl⟩
abbrev main_v196 : Ref sig .tc := ⟨.hbm, 263, rfl⟩
abbrev main_cst_29 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_call8_cst : Ref sig .tc := ⟨.hbm, 269, rfl⟩
abbrev main_call8_v0 : Ref sig .tc := ⟨.hbm, 270, rfl⟩
abbrev main_v201 : Ref sig .tc := ⟨.hbm, 271, rfl⟩
abbrev main_call9_cst : Ref sig .tc := ⟨.hbm, 272, rfl⟩
abbrev main_call9_v0 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_30 : Ref sig .tc := ⟨.hbm, 292, rfl⟩
abbrev main_v220 : Ref sig .tc := ⟨.hbm, 293, rfl⟩
abbrev main_v221 : Ref sig .tc := ⟨.hbm, 294, rfl⟩
abbrev main_cst_31 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_cst_32 : Ref sig .tc := ⟨.hbm, 301, rfl⟩
abbrev main_v227 : Ref sig .tc := ⟨.hbm, 302, rfl⟩
abbrev main_v228 : Ref sig .tc := ⟨.hbm, 303, rfl⟩
abbrev main_cst_33 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_cst_34 : Ref sig .tc := ⟨.hbm, 312, rfl⟩
abbrev main_v236 : Ref sig .tc := ⟨.hbm, 313, rfl⟩
abbrev main_v237 : Ref sig .tc := ⟨.hbm, 314, rfl⟩
abbrev main_cst_35 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_call10_cst : Ref sig .tc := ⟨.hbm, 320, rfl⟩
abbrev main_call10_v0 : Ref sig .tc := ⟨.hbm, 321, rfl⟩
abbrev main_v242 : Ref sig .tc := ⟨.hbm, 322, rfl⟩
abbrev main_call11_cst : Ref sig .tc := ⟨.hbm, 323, rfl⟩
abbrev main_call11_v0 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_cst_36 : Ref sig .tc := ⟨.hbm, 341, rfl⟩
abbrev main_v259 : Ref sig .tc := ⟨.hbm, 342, rfl⟩
abbrev main_v260 : Ref sig .tc := ⟨.hbm, 343, rfl⟩
abbrev main_cst_37 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_cst_38 : Ref sig .tc := ⟨.hbm, 350, rfl⟩
abbrev main_v266 : Ref sig .tc := ⟨.hbm, 351, rfl⟩
abbrev main_v267 : Ref sig .tc := ⟨.hbm, 352, rfl⟩
abbrev main_cst_39 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_cst_40 : Ref sig .tc := ⟨.hbm, 361, rfl⟩
abbrev main_v275 : Ref sig .tc := ⟨.hbm, 362, rfl⟩
abbrev main_v276 : Ref sig .tc := ⟨.hbm, 363, rfl⟩
abbrev main_cst_41 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_call12_cst : Ref sig .tc := ⟨.hbm, 369, rfl⟩
abbrev main_call12_v0 : Ref sig .tc := ⟨.hbm, 370, rfl⟩
abbrev main_v281 : Ref sig .tc := ⟨.hbm, 371, rfl⟩
abbrev main_call13_cst : Ref sig .tc := ⟨.hbm, 372, rfl⟩
abbrev main_call13_v0 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_call14_cst : Ref sig .tc := ⟨.hbm, 380, rfl⟩
abbrev main_call14_v0 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩

abbrev nD : Nat := 1
abbrev τ : Topo := Topo.v7x

variable {F : FTy → Type} [FloatOps F]

class Facts₀ : Prop where
  concatenates_S4096x4x2048_S4096x4x1024_S4096x4x3072_d2 : Shape.Concatenates [S4096x4x2048, S4096x4x1024] S4096x4x3072 2
  bcast_S_S4096x512 : S_.BroadcastsInDim S4096x512 (![] : Fin 0 → Fin S4096x512.rank)
  slices_S4096x4x3072_S4096x1x3072_0_0_0 : S4096x4x3072.Slices ![0, 0, 0] S4096x1x3072
  shapeCasts_S4096x1x3072_S4096x3072 : S4096x1x3072.ShapeCasts S4096x3072
  transposes_S2048x3072_S3072x2048_1_0 : S2048x3072.Transposes [1, 0] S3072x2048
  transposes_S2048x512_S512x2048_1_0 : S2048x512.Transposes [1, 0] S512x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S4096x2048_S4096x512_0_0 : S4096x2048.Slices ![0, 0] S4096x512
  slices_S4096x2048_S4096x512_0_512 : S4096x2048.Slices ![0, 512] S4096x512
  slices_S4096x2048_S4096x512_0_1024 : S4096x2048.Slices ![0, 1024] S4096x512
  slices_S4096x2048_S4096x512_0_1536 : S4096x2048.Slices ![0, 1536] S4096x512
  slices_S4096x4x3072_S4096x1x3072_0_1_0 : S4096x4x3072.Slices ![0, 1, 0] S4096x1x3072
  slices_S4096x4x3072_S4096x1x3072_0_2_0 : S4096x4x3072.Slices ![0, 2, 0] S4096x1x3072
  slices_S4096x4x3072_S4096x1x3072_0_3_0 : S4096x4x3072.Slices ![0, 3, 0] S4096x1x3072
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x3072_S3072x2048_S4096x2048_1_0_0_1_n_n_wf : DotDims.WF S4096x3072 S3072x2048 S4096x2048 [1] [0] [0] [1] [] []
  dot_S4096x512_S512x2048_S4096x2048_1_0_0_1_n_n_wf : DotDims.WF S4096x512 S512x2048 S4096x2048 [1] [0] [0] [1] [] []
  dot_S4096x512_S512x512_S4096x512_1_0_0_1_n_n_wf : DotDims.WF S4096x512 S512x512 S4096x512 [1] [0] [0] [1] [] []

variable [Facts₀]

def dot_S4096x3072_S3072x2048_S4096x2048_1_0_0_1_n_n : DotDims S4096x3072 S3072x2048 S4096x2048 where
  lhsContracting := [1]
  rhsContracting := [0]
  lhsNonContracting := [0]
  rhsNonContracting := [1]
  lhsBatch := []
  rhsBatch := []
  wf := dot_S4096x3072_S3072x2048_S4096x2048_1_0_0_1_n_n_wf
def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  The mathematics of the stacked LSTM step, one batch row at a time, on the extended reals.

  A row carries four time slices of a state vector (2048 entries) and of a goal vector (1024 entries). The first
  cell sees, at time `τ`, the concatenation `x_τ = [state_τ ; goal_τ]` (3072 entries); its input projection
  `x_τ · Wihᵀ` is written here with the contraction already split where the two pieces meet,
  `∑_{k<2048} state_τ k · Wih j k + ∑_{k<1024} goal_τ k · Wih j (2048 + k)`; `sum_split` is the law that says this
  is the one sum over all 3072 entries (additive commutative monoid only: it holds at the infinities too).
  A cell's pre-activations are `(xdot + h · Whhᵀ) + b` with `b = bih + bhh`; its four gates are the four quarters of that row
  (input, forget, candidate, output); the new carry is `σ(f)·c + σ(i)·tanh g`, the new hidden row `σ(o)·tanh c'`,
  and both pass through `max · 0`.  Only the part of the recurrence the result depends on is here: the first cell
  at times 0 and 1, then the second, third and fourth cells once each from zero state, the output layer
  `max (h₄ · Woutᵀ + bout) 0`, and the threshold `u < p` read as 0 or 1.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- A row of `n` extended reals. -/
abbrev Row (n : Nat) := Fin n → EReal

/-- The linear map of a weight matrix `W` (outputs × inputs) on a row: `(x · Wᵀ) j = ∑ k, x k · W j k`. -/
def lin {n d : Nat} (W : Fin d → Fin n → EReal) (x : Row n) : Row d := fun j => ∑ k, x k * W j k

/-- The first cell's input projection of `[s ; g]`, the contraction split at entry 2048: `Ws` is the weight
    matrix's first 2048 columns and `Wg` its last 1024. -/
def xproj (Ws : Fin 2048 → Fin 2048 → EReal) (Wg : Fin 2048 → Fin 1024 → EReal) (s : Row 2048) (g : Row 1024) :
    Row 2048 := fun j => lin Ws s j + lin Wg g j

/-- A sum over 3072 entries is the sum over the first 2048 plus the sum over the last 1024. -/
theorem sum_split (f : Fin 3072 → EReal) :
    ∑ k, f k = (∑ k : Fin 2048, f ⟨k.val, by omega⟩) + ∑ k : Fin 1024, f ⟨2048 + k.val, by omega⟩ := by
  have h := Fin.sum_univ_add (a := 2048) (b := 1024) (fun k : Fin (2048 + 1024) => f ⟨k.val, by omega⟩)
  simpa [Fin.castAdd, Fin.natAdd] using h

/-- The pre-activations `(xdot + h · Whhᵀ) + b`, where `b` is the sum of the cell's two bias rows. -/
def gates (xdot : Row 2048) (h : Row 512) (Whh : Fin 2048 → Fin 512 → EReal) (b : Row 2048) : Row 2048 :=
  fun j => (xdot j + lin Whh h j) + b j

/-- The four quarters of a pre-activation row: input, forget, candidate and output gate. -/
def gI (g : Row 2048) : Row 512 := fun j => g ⟨j.val, by omega⟩
def gF (g : Row 2048) : Row 512 := fun j => g ⟨512 + j.val, by omega⟩
def gG (g : Row 2048) : Row 512 := fun j => g ⟨1024 + j.val, by omega⟩
def gO (g : Row 2048) : Row 512 := fun j => g ⟨1536 + j.val, by omega⟩

/-- The new carry `σ(f)·c + σ(i)·tanh g`. -/
def cNew (g : Row 2048) (c : Row 512) : Row 512 := fun j =>
  Ideal.logistic (gF g j) * c j + Ideal.logistic (gI g j) * Ideal.tanh (gG g j)

/-- The new hidden row `σ(o)·tanh c'`. -/
def hNew (g : Row 2048) (c : Row 512) : Row 512 := fun j => Ideal.logistic (gO g j) * Ideal.tanh (cNew g c j)

/-- The hidden row and the carry a cell hands on: both clamped below at 0. -/
def hOut (g : Row 2048) (c : Row 512) : Row 512 := fun j => max (hNew g c j) 0
def cOut (g : Row 2048) (c : Row 512) : Row 512 := fun j => max (cNew g c j) 0

/-- The zero row. -/
def zrow : Row 512 := fun _ => 0

/-- The threshold `u < p` as the number 0 or 1. -/
def bern (u p : EReal) : EReal := (((Ideal.cmp .olt u p).toNat : ℝ) : EReal)

/-- The fourth cell's hidden row, from one batch row's inputs: the first cell at times 0 and 1, then the second,
    third and fourth cells from zero state. -/
def h4 (s0 s1 : Row 2048) (g0 g1 : Row 1024)
    (Ws : Fin 2048 → Fin 2048 → EReal) (Wg : Fin 2048 → Fin 1024 → EReal) (Whh1 : Fin 2048 → Fin 512 → EReal) (b1 : Row 2048)
    (Wih2 Whh2 : Fin 2048 → Fin 512 → EReal) (b2 : Row 2048)
    (Wih3 Whh3 : Fin 2048 → Fin 512 → EReal) (b3 : Row 2048)
    (Wih4 Whh4 : Fin 2048 → Fin 512 → EReal) (b4 : Row 2048) : Row 512 :=
  let a0 := gates (xproj Ws Wg s0 g0) zrow Whh1 b1
  let a1 := gates (xproj Ws Wg s1 g1) (hOut a0 zrow) Whh1 b1
  let a2 := gates (lin Wih2 (hOut a1 (cOut a0 zrow))) zrow Whh2 b2
  let a3 := gates (lin Wih3 (hOut a2 zrow)) zrow Whh3 b3
  let a4 := gates (lin Wih4 (hOut a3 zrow)) zrow Whh4 b4
  hOut a4 zrow

/-- One batch row's result: `u j < max ((h₄ · Woutᵀ) j + bout j) 0` as 0 or 1. -/
def rowOut (h : Row 512) (u : Row 512) (Wout : Fin 512 → Fin 512 → EReal) (bout : Row 512) : Row 512 := fun j =>
  bern (u j) (max (lin Wout h j + bout j) 0)

/-! ## The whole result array -/

abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

/-- A matrix array as a function of its two coordinates; a vector array of its one. -/
def mat {a b : Nat} (W : A2 a b) : Fin a → Fin b → EReal := fun j k => W (ix2 j k)
def vec {a : Nat} (v : A1 a) : Row a := fun j => v (ix1 j)
/-- The transposed reading of a matrix array: `matT W j k = W (k, j)`. -/
def matT {a b : Nat} (W : A2 a b) : Fin b → Fin a → EReal := fun j k => W (ix2 k j)
/-- The first 2048 and the last 1024 columns of the first cell's input weights. -/
def colsLo (W : A2 2048 3072) : Fin 2048 → Fin 2048 → EReal := fun j k => W (ix2 j ⟨k.val, by omega⟩)
def colsHi (W : A2 2048 3072) : Fin 2048 → Fin 1024 → EReal := fun j k => W (ix2 j ⟨2048 + k.val, by omega⟩)
/-- The sum of two bias vectors, as a row. -/
def badd {a : Nat} (x y : A1 a) : Row a := fun j => x (ix1 j) + y (ix1 j)
/-- Row `b` of a rank-2 array; time slice `τ` of row `b` of a rank-3 array. -/
def row2 {a n : Nat} (x : A2 a n) (b : Fin a) : Row n := fun k => x (ix2 b k)
def row3 {a T n : Nat} (x : A3 a T n) (b : Fin a) (τ : Fin T) : Row n := fun k => x (ix3 b τ k)

/-- The result array, index by index: entry `(b, j)` is row `b`'s result at `j`. The number of batch rows `B` is
    a parameter so that the same function describes the whole array and one block of rows. -/
def G {B : Nat} (state : A3 B 4 2048) (goal : A3 B 4 1024) (u : A2 B 512)
    (Wih1 : A2 2048 3072) (Whh1 : A2 2048 512) (bih1 bhh1 : A1 2048)
    (Wih2 Whh2 : A2 2048 512) (bih2 bhh2 : A1 2048)
    (Wih3 Whh3 : A2 2048 512) (bih3 bhh3 : A1 2048)
    (Wih4 Whh4 : A2 2048 512) (bih4 bhh4 : A1 2048)
    (Wout : A2 512 512) (bout : A1 512) : A2 B 512 := fun i =>
  rowOut (h4 (row3 state (i 0) 0) (row3 state (i 0) 1) (row3 goal (i 0) 0) (row3 goal (i 0) 1)
      (colsLo Wih1) (colsHi Wih1) (mat Whh1) (badd bih1 bhh1) (mat Wih2) (mat Whh2) (badd bih2 bhh2)
      (mat Wih3) (mat Whh3) (badd bih3 bhh3) (mat Wih4) (mat Whh4) (badd bih4 bhh4))
    (row2 u (i 0)) (mat Wout) (vec bout) (i 1)

/-- The same result for a block of `B` rows as a kernel body sees its operands: every weight matrix arrives
    transposed (inputs × outputs), the first cell's input weights as the two matrices of `xproj`, and each cell's two
    bias vectors already added. -/
def Gblk {B : Nat} (state : A3 B 4 2048) (goal : A3 B 4 1024) (u : A2 B 512)
    (WsT : A2 2048 2048) (WgT : A2 1024 2048) (Whh1T : A2 512 2048) (b1 : A1 2048)
    (Wih2T Whh2T : A2 512 2048) (b2 : A1 2048)
    (Wih3T Whh3T : A2 512 2048) (b3 : A1 2048)
    (Wih4T Whh4T : A2 512 2048) (b4 : A1 2048)
    (WoutT : A2 512 512) (bout : A1 512) : A2 B 512 := fun i =>
  rowOut (h4 (row3 state (i 0) 0) (row3 state (i 0) 1) (row3 goal (i 0) 0) (row3 goal (i 0) 1)
      (matT WsT) (matT WgT) (matT Whh1T) (vec b1) (matT Wih2T) (matT Whh2T) (vec b2)
      (matT Wih3T) (matT Whh3T) (vec b3) (matT Wih4T) (matT Whh4T) (vec b4))
    (row2 u (i 0)) (matT WoutT) (vec bout) (i 1)

end Cert.Lstm

end
-- ==== Proof.KOps.lean ====
/-
  The kernel body's vector operations read at one entry `(p, j)` of a block, on the extended reals: a matrix product
  into a zero accumulator is the plain sum over the shared axis; a bias vector broadcast over the rows reads its entry
  `j`; a column (row) slice reads the source at the shifted column (row); the pointwise operations read through.
-/
import proofs.«126124_j10505490006716_2_alg».proof.Proof.Gen.KernelIdeal.Skeleton
import proofs.«126124_j10505490006716_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Lstm

/-! ## The matrix products -/

theorem mm_h_lhs0 (i : S64x2048.Idx) (q : dot_S64x512_S512x2048_S64x2048_1_0_0_1_n_n.contr.Idx) : (dot_S64x512_S512x2048_S64x2048_1_0_0_1_n_n.lhsIdx i q 0).val = (i 0).val := by
  unfold DotDims.lhsIdx
  rw [dif_neg (show ¬(0 : Fin S64x512.rank) ∈ dot_S64x512_S512x2048_S64x2048_1_0_0_1_n_n.lhsBatch by decide), dif_pos (show (0 : Fin S64x512.rank) ∈ dot_S64x512_S512x2048_S64x2048_1_0_0_1_n_n.lhsNonContracting by decide)]
  rfl
theorem mm_h_rhs1 (i : S64x2048.Idx) (q : dot_S64x512_S512x2048_S64x2048_1_0_0_1_n_n.contr.Idx) : (dot_S64x512_S512x2048_S64x2048_1_0_0_1_n_n.rhsIdx i q 1).val = (i 1).val := by
  unfold DotDims.rhsIdx
  rw [dif_neg (show ¬(1 : Fin S512x2048.rank) ∈ dot_S64x512_S512x2048_S64x2048_1_0_0_1_n_n.rhsBatch by decide), dif_pos (show (1 : Fin S512x2048.rank) ∈ dot_S64x512_S512x2048_S64x2048_1_0_0_1_n_n.rhsNonContracting by decide)]
  rfl
/-- Entry `(p, j)` of the product of a `64×512` block and a `512×2048` matrix into a zero accumulator is the sum over the
    shared axis of row `p` times column `j`. -/
theorem mm_h {φ₁ φ₂ : FTy} (prec : Option ContractPrecision) (a : FVec Ideal S64x512 φ₁) (b : FVec Ideal S512x2048 φ₂) (p : Fin 64) (j : Fin 2048) :
    matmul dot_S64x512_S512x2048_S64x2048_1_0_0_1_n_n prec a b (constant S64x2048 .f32 0x00000000#32) (ix2 p j) = ∑ k : Fin 512, a (ix2 p k) * b (ix2 k j) := by
  refine (Ideal.matmul_constant_zero_apply dot_S64x512_S512x2048_S64x2048_1_0_0_1_n_n prec a b (ix2 p j)).trans ?_
  rw [← Equiv.sum_comp (contrEquiv1 dot_S64x512_S512x2048_S64x2048_1_0_0_1_n_n 512 rfl rfl).symm]
  refine Finset.sum_congr rfl fun k _ => ?_
  have hk := contrEquiv1_symm_val dot_S64x512_S512x2048_S64x2048_1_0_0_1_n_n 512 rfl rfl k
  have el : dot_S64x512_S512x2048_S64x2048_1_0_0_1_n_n.lhsIdx (ix2 p j) ((contrEquiv1 dot_S64x512_S512x2048_S64x2048_1_0_0_1_n_n 512 rfl rfl).symm k) = ix2 p k := funext fun c => Fin.ext (by
    match c with
    | ⟨0, _⟩ => exact mm_h_lhs0 _ _
    | ⟨1, _⟩ => exact (dot_S64x512_S512x2048_S64x2048_1_0_0_1_n_n.lhsIdx_val_of_single rfl _ _).trans hk)
  have er : dot_S64x512_S512x2048_S64x2048_1_0_0_1_n_n.rhsIdx (ix2 p j) ((contrEquiv1 dot_S64x512_S512x2048_S64x2048_1_0_0_1_n_n 512 rfl rfl).symm k) = ix2 k j := funext fun c => Fin.ext (by
    match c with
    | ⟨0, _⟩ => exact (dot_S64x512_S512x2048_S64x2048_1_0_0_1_n_n.rhsIdx_val_of_single rfl _ _).trans hk
    | ⟨1, _⟩ => exact mm_h_rhs1 _ _)
  rw [el, er]

theorem mm_out_lhs0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem mm_out_rhs1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl
/-- Entry `(p, j)` of the product of a `64×512` block and a `512×512` matrix into a zero accumulator is the sum over the
    shared axis of row `p` times column `j`. -/
theorem mm_out {φ₁ φ₂ : FTy} (prec : Option ContractPrecision) (a : FVec Ideal S64x512 φ₁) (b : FVec Ideal S512x512 φ₂) (p : Fin 64) (j : Fin 512) :
    matmul dot_S64x512_S512x512_S64x512_1_0_0_1_n_n prec a b (constant S64x512 .f32 0x00000000#32) (ix2 p j) = ∑ k : Fin 512, a (ix2 p k) * b (ix2 k j) := by
  refine (Ideal.matmul_constant_zero_apply dot_S64x512_S512x512_S64x512_1_0_0_1_n_n prec a b (ix2 p j)).trans ?_
  rw [← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 p j) ((contrEquiv1 dot_S64x512_S512x512_S64x512_1_0_0_1_n_n 512 rfl rfl).symm k) = ix2 p k := funext fun c => Fin.ext (by
    match c with
    | ⟨0, _⟩ => exact mm_out_lhs0 _ _
    | ⟨1, _⟩ => exact (dot_S64x512_S512x512_S64x512_1_0_0_1_n_n.lhsIdx_val_of_single rfl _ _).trans hk)
  have er : dot_S64x512_S512x512_S64x512_1_0_0_1_n_n.rhsIdx (ix2 p j) ((contrEquiv1 dot_S64x512_S512x512_S64x512_1_0_0_1_n_n 512 rfl rfl).symm k) = ix2 k j := funext fun c => Fin.ext (by
    match c with
    | ⟨0, _⟩ => exact (dot_S64x512_S512x512_S64x512_1_0_0_1_n_n.rhsIdx_val_of_single rfl _ _).trans hk
    | ⟨1, _⟩ => exact mm_out_rhs1 _ _)
  rw [el, er]

theorem mm_state_lhs0 (i : S256x2048.Idx) (q : dot_S256x2048_S2048x2048_S256x2048_1_0_0_1_n_n.contr.Idx) : (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem mm_state_rhs1 (i : S256x2048.Idx) (q : dot_S256x2048_S2048x2048_S256x2048_1_0_0_1_n_n.contr.Idx) : (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl
/-- Entry `(p, j)` of the product of a `256×2048` block and a `2048×2048` matrix into a zero accumulator is the sum over the
    shared axis of row `p` times column `j`. -/
theorem mm_state {φ₁ φ₂ : FTy} (prec : Option ContractPrecision) (a : FVec Ideal S256x2048 φ₁) (b : FVec Ideal S2048x2048 φ₂) (p : Fin 256) (j : Fin 2048) :
    matmul dot_S256x2048_S2048x2048_S256x2048_1_0_0_1_n_n prec a b (constant S256x2048 .f32 0x00000000#32) (ix2 p j) = ∑ k : Fin 2048, a (ix2 p k) * b (ix2 k j) := by
  refine (Ideal.matmul_constant_zero_apply dot_S256x2048_S2048x2048_S256x2048_1_0_0_1_n_n prec a b (ix2 p j)).trans ?_
  rw [← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p j) ((contrEquiv1 dot_S256x2048_S2048x2048_S256x2048_1_0_0_1_n_n 2048 rfl rfl).symm k) = ix2 p k := funext fun c => Fin.ext (by
    match c with
    | ⟨0, _⟩ => exact mm_state_lhs0 _ _
    | ⟨1, _⟩ => exact (dot_S256x2048_S2048x2048_S256x2048_1_0_0_1_n_n.lhsIdx_val_of_single rfl _ _).trans hk)
  have er : dot_S256x2048_S2048x2048_S256x2048_1_0_0_1_n_n.rhsIdx (ix2 p j) ((contrEquiv1 dot_S256x2048_S2048x2048_S256x2048_1_0_0_1_n_n 2048 rfl rfl).symm k) = ix2 k j := funext fun c => Fin.ext (by
    match c with
    | ⟨0, _⟩ => exact (dot_S256x2048_S2048x2048_S256x2048_1_0_0_1_n_n.rhsIdx_val_of_single rfl _ _).trans hk
    | ⟨1, _⟩ => exact mm_state_rhs1 _ _)
  rw [el, er]

theorem mm_goal_lhs0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem mm_goal_rhs1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl
/-- Entry `(p, j)` of the product of a `256×1024` block and a `1024×2048` matrix into a zero accumulator is the sum over the
    shared axis of row `p` times column `j`. -/
theorem mm_goal {φ₁ φ₂ : FTy} (prec : Option ContractPrecision) (a : FVec Ideal S256x1024 φ₁) (b : FVec Ideal S1024x2048 φ₂) (p : Fin 256) (j : Fin 2048) :
    matmul dot_S256x1024_S1024x2048_S256x2048_1_0_0_1_n_n prec a b (constant S256x2048 .f32 0x00000000#32) (ix2 p j) = ∑ k : Fin 1024, a (ix2 p k) * b (ix2 k j) := by
  refine (Ideal.matmul_constant_zero_apply dot_S256x1024_S1024x2048_S256x2048_1_0_0_1_n_n prec a b (ix2 p j)).trans ?_
  rw [← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p j) ((contrEquiv1 dot_S256x1024_S1024x2048_S256x2048_1_0_0_1_n_n 1024 rfl rfl).symm k) = ix2 p k := funext fun c => Fin.ext (by
    match c with
    | ⟨0, _⟩ => exact mm_goal_lhs0 _ _
    | ⟨1, _⟩ => exact (dot_S256x1024_S1024x2048_S256x2048_1_0_0_1_n_n.lhsIdx_val_of_single rfl _ _).trans hk)
  have er : dot_S256x1024_S1024x2048_S256x2048_1_0_0_1_n_n.rhsIdx (ix2 p j) ((contrEquiv1 dot_S256x1024_S1024x2048_S256x2048_1_0_0_1_n_n 1024 rfl rfl).symm k) = ix2 k j := funext fun c => Fin.ext (by
    match c with
    | ⟨0, _⟩ => exact (dot_S256x1024_S1024x2048_S256x2048_1_0_0_1_n_n.rhsIdx_val_of_single rfl _ _).trans hk
    | ⟨1, _⟩ => exact mm_goal_rhs1 _ _)
  rw [el, er]

/-! ## Pointwise operations the index library does not list -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
/-- The zero word, splat as a scalar, is the extended real 0. -/
theorem zero_word : (Scalar.ofBits .f32 0x00000000#32 : Ideal .f32) = 0 := Ideal.ofBits_zero_f32

/-! ## A bias vector broadcast over the rows -/

theorem bias2048_apply (b : FVec Ideal S2048 .f32) (h2 : S2048.ShapeCasts S1x2048)
    (h3 : S1x2048.Broadcasts S64x2048) (p : Fin 64) (j : Fin 2048) :
    broadcastTo S64x2048 (shapeCast S1x2048 b h2) h3 (ix2 p j) = b (ix1 j) := by
  rw [broadcastTo_1b_ab_apply, shapeCast_a_1a_apply]

theorem bias512_apply (b : FVec Ideal S512 .f32) (h2 : S512.ShapeCasts S1x512)
    (h3 : S1x512.Broadcasts S64x512) (p : Fin 64) (j : Fin 512) :
    broadcastTo S64x512 (shapeCast S1x512 b h2) h3 (ix2 p j) = b (ix1 j) := by
  rw [broadcastTo_1b_ab_apply, shapeCast_a_1a_apply]

/-! ## Slices: the four quarters of a pre-activation block, and the two time steps' rows of the stacked block -/

theorem quarterI (v : FVec Ideal S64x2048 .f32) (h : S64x2048.Slices ![0, 0] S64x512) (p : Fin 64) (j : Fin 512) :
    extractStridedSlice S64x512 ![0, 0] v h (ix2 p j) = v (ix2 p ⟨j.val, by omega⟩) :=
  slice2_axis1_apply 0 v h p j _ (by show j.val = 0 + j.val; omega)
theorem quarterF (v : FVec Ideal S64x2048 .f32) (h : S64x2048.Slices ![0, 512] S64x512) (p : Fin 64) (j : Fin 512) :
    extractStridedSlice S64x512 ![0, 512] v h (ix2 p j) = v (ix2 p ⟨512 + j.val, by omega⟩) :=
  slice2_axis1_apply 512 v h p j _ rfl
theorem quarterG (v : FVec Ideal S64x2048 .f32) (h : S64x2048.Slices ![0, 1024] S64x512) (p : Fin 64) (j : Fin 512) :
    extractStridedSlice S64x512 ![0, 1024] v h (ix2 p j) = v (ix2 p ⟨1024 + j.val, by omega⟩) :=
  slice2_axis1_apply 1024 v h p j _ rfl
theorem quarterO (v : FVec Ideal S64x2048 .f32) (h : S64x2048.Slices ![0, 1536] S64x512) (p : Fin 64) (j : Fin 512) :
    extractStridedSlice S64x512 ![0, 1536] v h (ix2 p j) = v (ix2 p ⟨1536 + j.val, by omega⟩) :=
  slice2_axis1_apply 1536 v h p j _ rfl

theorem rows0 (v : FVec Ideal S256x2048 .f32) (h : S256x2048.Slices ![0, 0] S64x2048) (p : Fin 64) (j : Fin 2048) :
    extractStridedSlice S64x2048 ![0, 0] v h (ix2 p j) = v (ix2 ⟨p.val, by omega⟩ j) :=
  slice2_axis0_apply 0 v h p j _ (by show p.val = 0 + p.val; omega)
theorem rows1 (v : FVec Ideal S256x2048 .f32) (h : S256x2048.Slices ![64, 0] S64x2048) (p : Fin 64) (j : Fin 2048) :
    extractStridedSlice S64x2048 ![64, 0] v h (ix2 p j) = v (ix2 ⟨64 + p.val, by omega⟩ j) :=
  slice2_axis0_apply 64 v h p j _ rfl

/-! ## One time step of the state / goal block as a matrix, and the four steps stacked along the rows -/

theorem state_step (v0 : FVec Ideal S64x4x2048 .f32) (o : Nat) (τ : Fin 4) (hτ : τ.val = o)
    (hs : S64x4x2048.Slices ![0, o, 0] S64x1x2048) (hc : S64x1x2048.ShapeCasts S64x2048) (hb : FTy.bf16.bits < FTy.f32.bits)
    (p : Fin 64) (k : Fin 2048) :
    truncf .bf16 (shapeCast S64x2048 (extractStridedSlice S64x1x2048 ![0, o, 0] v0 hs) hc) hb (ix2 p k) = v0 (ix3 p τ k) := by
  rw [truncf_apply, shapeCast_apply _ hc (ix2 p k) (ix3 p (0 : Fin 1) k) (by
        rw [Shape.rowMajor_val_three, Shape.rowMajor_val_two]
        show (p.val * 1 + 0) * 2048 + k.val = p.val * 2048 + k.val
        omega),
      slice3_axis1_apply o v0 hs p 0 k τ (by show τ.val = o + 0; omega)]

theorem goal_step (v1 : FVec Ideal S64x4x1024 .f32) (o : Nat) (τ : Fin 4) (hτ : τ.val = o)
    (hs : S64x4x1024.Slices ![0, o, 0] S64x1x1024) (hc : S64x1x1024.ShapeCasts S64x1024) (hb : FTy.bf16.bits < FTy.f32.bits)
    (p : Fin 64) (k : Fin 1024) :
    truncf .bf16 (shapeCast S64x1024 (extractStridedSlice S64x1x1024 ![0, o, 0] v1 hs) hc) hb (ix2 p k) = v1 (ix3 p τ k) := by
  rw [truncf_apply, shapeCast_apply _ hc (ix2 p k) (ix3 p (0 : Fin 1) k) (by
        rw [Shape.rowMajor_val_three, Shape.rowMajor_val_two]
        show (p.val * 1 + 0) * 1024 + k.val = p.val * 1024 + k.val
        omega),
      slice3_axis1_apply o v1 hs p 0 k τ (by show τ.val = o + 0; omega)]

theorem stack_state0 (a0 a1 a2 a3 : FVec Ideal S64x2048 .bf16) (p : Fin 64) (k : Fin 2048) :
    concatenate S256x2048 0 [⟨S64x2048, a0⟩, ⟨S64x2048, a1⟩, ⟨S64x2048, a2⟩, ⟨S64x2048, a3⟩]
      concatenates_S64x2048_S64x2048_S64x2048_S64x2048_S256x2048_d0 (ix2 ⟨p.val, by omega⟩ k) = a0 (ix2 p k) :=
  concatenate_apply_piece (0 : Fin S256x2048.rank) _ _ _ 0 (by show (0 : Nat) < 4; omega) S64x2048 a0 rfl rfl 0 rfl (ix2 p k)
    (fun b hb => by match b with | ⟨0, _⟩ => exact absurd rfl hb | ⟨1, _⟩ => rfl) (Nat.zero_add _)
theorem stack_state1 (a0 a1 a2 a3 : FVec Ideal S64x2048 .bf16) (p : Fin 64) (k : Fin 2048) :
    concatenate S256x2048 0 [⟨S64x2048, a0⟩, ⟨S64x2048, a1⟩, ⟨S64x2048, a2⟩, ⟨S64x2048, a3⟩]
      concatenates_S64x2048_S64x2048_S64x2048_S64x2048_S256x2048_d0 (ix2 ⟨64 + p.val, by omega⟩ k) = a1 (ix2 p k) :=
  concatenate_apply_piece (0 : Fin S256x2048.rank) _ _ _ 1 (by show (1 : Nat) < 4; omega) S64x2048 a1 rfl rfl 64 rfl (ix2 p k)
    (fun b hb => by match b with | ⟨0, _⟩ => exact absurd rfl hb | ⟨1, _⟩ => rfl) rfl
theorem stack_goal0 (a0 a1 a2 a3 : FVec Ideal S64x1024 .bf16) (p : Fin 64) (k : Fin 1024) :
    concatenate S256x1024 0 [⟨S64x1024, a0⟩, ⟨S64x1024, a1⟩, ⟨S64x1024, a2⟩, ⟨S64x1024, a3⟩]
      concatenates_S64x1024_S64x1024_S64x1024_S64x1024_S256x1024_d0 (ix2 ⟨p.val, by omega⟩ k) = a0 (ix2 p k) :=
  concatenate_apply_piece (0 : Fin S256x1024.rank) _ _ _ 0 (by show (0 : Nat) < 4; omega) S64x1024 a0 rfl rfl 0 rfl (ix2 p k)
    (fun b hb => by match b with | ⟨0, _⟩ => exact absurd rfl hb | ⟨1, _⟩ => rfl) (Nat.zero_add _)
theorem stack_goal1 (a0 a1 a2 a3 : FVec Ideal S64x1024 .bf16) (p : Fin 64) (k : Fin 1024) :
    concatenate S256x1024 0 [⟨S64x1024, a0⟩, ⟨S64x1024, a1⟩, ⟨S64x1024, a2⟩, ⟨S64x1024, a3⟩]
      concatenates_S64x1024_S64x1024_S64x1024_S64x1024_S256x1024_d0 (ix2 ⟨64 + p.val, by omega⟩ k) = a1 (ix2 p k) :=
  concatenate_apply_piece (0 : Fin S256x1024.rank) _ _ _ 1 (by show (1 : Nat) < 4; omega) S64x1024 a1 rfl rfl 64 rfl (ix2 p k)
    (fun b hb => by match b with | ⟨0, _⟩ => exact absurd rfl hb | ⟨1, _⟩ => rfl) rfl

/-! ## The body's payloads at one entry of the block

Each is stated over variables for the values it reads, with the right side in the specification's vocabulary: `row2 v p`
is row `p` of a block, `matT W` a weight block read transposed, `vec b` a bias vector. -/

/-- The zero block the cells start from. -/
theorem pay3_at (p : Fin 64) (j : Fin 512) : k0_pay3 (F := Ideal) (ix2 p j) = zrow j := zero_word

/-- The stacked input projection: rows `0..63` are time step 0, rows `64..127` time step 1. -/
theorem pay2_at0 (v0 : FVec Ideal S64x4x2048 .f32) (v1 : FVec Ideal S64x4x1024 .f32) (v28 : FVec Ideal S2048x2048 .bf16) (v31 : FVec Ideal S1024x2048 .bf16) (p : Fin 64) (j : Fin 2048) :
    k0_pay2 (F := Ideal) v0 v1 v28 v31 (ix2 ⟨p.val, by omega⟩ j) = xproj (matT v28) (matT v31) (row3 v0 p 0) (row3 v1 p 0) j := by
  unfold k0_pay2
  simp only [addf_apply, mm_state, mm_goal, stack_state0, stack_goal0, state_step _ 0 0 rfl, goal_step _ 0 0 rfl, shapeCast_self]
  rfl
theorem pay2_at1 (v0 : FVec Ideal S64x4x2048 .f32) (v1 : FVec Ideal S64x4x1024 .f32) (v28 : FVec Ideal S2048x2048 .bf16) (v31 : FVec Ideal S1024x2048 .bf16) (p : Fin 64) (j : Fin 2048) :
    k0_pay2 (F := Ideal) v0 v1 v28 v31 (ix2 ⟨64 + p.val, by omega⟩ j) = xproj (matT v28) (matT v31) (row3 v0 p 1) (row3 v1 p 1) j := by
  unfold k0_pay2
  simp only [addf_apply, mm_state, mm_goal, stack_state1, stack_goal1, state_step _ 1 1 rfl, goal_step _ 1 1 rfl, shapeCast_self]
  rfl

/-- The first cell's pre-activations at time 0, before the bias. -/
theorem pay4_at (v0 : FVec Ideal S64x4x2048 .f32) (v1 : FVec Ideal S64x4x1024 .f32) (v28 : FVec Ideal S2048x2048 .bf16) (v31 : FVec Ideal S1024x2048 .bf16) (v38 : FVec Ideal S512x2048 .bf16) (p : Fin 64) (j : Fin 2048) :
    k0_pay4 (F := Ideal) v0 v1 v28 v31 v38 (ix2 p j)
      = xproj (matT v28) (matT v31) (row3 v0 p 0) (row3 v1 p 0) j + lin (matT v38) zrow j := by
  unfold k0_pay4
  simp only [addf_apply, rows0, pay2_at0, mm_h, truncf_apply, pay3_at, shapeCast_self]
  rfl

/-- The first cell at times 0 and 1: the hidden row after time 1. -/
theorem pay5_at (v34 : FVec Ideal S256x2048 .f32) (v35 : FVec Ideal S64x512 .f32) (v41 : FVec Ideal S64x2048 .f32) (v42 : FVec Ideal S2048 .f32) (v66 : FVec Ideal S512x2048 .bf16) (v70 : FVec Ideal S2048 .f32) (p : Fin 64) (j : Fin 512) :
    k0_pay5 v34 v35 v41 v42 v66 v70 (ix2 p j)
      = hOut (gates (row2 v34 ⟨64 + p.val, by omega⟩) (hOut (fun x => v41 (ix2 p x) + v42 (ix1 x)) (row2 v35 p)) (matT v66) (vec v70))
          (cOut (fun x => v41 (ix2 p x) + v42 (ix1 x)) (row2 v35 p)) j := by
  unfold k0_pay5
  simp only [truncf_apply, maximumf_apply, mulf_apply, addf_apply, logistic_apply, tanh_apply, broadcast_apply, zero_word,
    quarterI, quarterF, quarterG, quarterO, rows0, rows1, mm_h, mm_out, bias2048_apply, bias512_apply, shapeCast_self]
  rfl

theorem pay6_eq (v91 : FVec Ideal S512x2048 .bf16) : k0_pay6 v91 = v91 := by
  unfold k0_pay6
  exact shapeCast_self _ _

/-- The second cell, then the third cell's pre-activations. -/
theorem pay7_at (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) (j : Fin 2048) :
    k0_pay7 v35 v90 v92 v95 v99 v120 v124 v128 (ix2 p j)
      = gates (lin (matT v120) (hOut (gates (lin (matT v92) (row2 v90 p)) (row2 v35 p) (matT v95) (vec v99)) (row2 v35 p)))
          (row2 v35 p) (matT v124) (vec v128) j := by
  unfold k0_pay7
  simp only [truncf_apply, maximumf_apply, mulf_apply, addf_apply, logistic_apply, tanh_apply, broadcast_apply, zero_word,
    quarterI, quarterF, quarterG, quarterO, rows0, rows1, mm_h, mm_out, bias2048_apply, bias512_apply, shapeCast_self]
  rfl

theorem pay8_at (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) (j : Fin 512) :
    k0_pay8 v35 v90 v92 v95 v99 v120 v124 v128 (ix2 p j) = k0_pay7 v35 v90 v92 v95 v99 v120 v124 v128 (ix2 p ⟨1024 + j.val, by omega⟩) := by
  unfold k0_pay8
  exact quarterG _ _ p j
theorem pay9_at (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) (j : Fin 512) :
    k0_pay9 v35 v90 v92 v95 v99 v120 v124 v128 (ix2 p j) = k0_pay7 v35 v90 v92 v95 v99 v120 v124 v128 (ix2 p ⟨1536 + j.val, by omega⟩) := by
  unfold k0_pay9
  exact quarterO _ _ p j
theorem pay10_at (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) (j : Fin 512) :
    k0_pay10 v35 v90 v92 v95 v99 v120 v124 v128 (ix2 p j) = Ideal.logistic (k0_pay7 v35 v90 v92 v95 v99 v120 v124 v128 (ix2 p ⟨512 + j.val, by omega⟩)) * v35 (ix2 p j) := by
  unfold k0_pay10
  simp only [mulf_apply, logistic_apply, quarterF]
theorem pay11_at (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) (j : Fin 512) :
    k0_pay11 v35 v90 v92 v95 v99 v120 v124 v128 (ix2 p j) = Ideal.logistic (k0_pay7 v35 v90 v92 v95 v99 v120 v124 v128 (ix2 p ⟨j.val, by omega⟩)) := by
  unfold k0_pay11
  simp only [logistic_apply, quarterI]

/-- The third cell's hidden row from its gate pieces, the fourth cell, and the output layer. -/
theorem pay12_at (v35 : FVec Ideal S64x512 .f32) (v135 : FVec Ideal S64x512 .f32) (v136 : FVec Ideal S64x512 .f32) (v138 : FVec Ideal S64x512 .f32) (v139 : FVec Ideal S64x512 .f32) (v149 : FVec Ideal S512x2048 .bf16) (v153 : FVec Ideal S512x2048 .bf16) (v157 : FVec Ideal S2048 .f32) (v177 : FVec Ideal S512x512 .f32) (v180 : FVec Ideal S512 .f32) (p : Fin 64) (j : Fin 512) :
    k0_pay12 v35 v135 v136 v138 v139 v149 v153 v157 v177 v180 (ix2 p j)
      = max (lin (matT v177) (hOut (gates (lin (matT v149) (fun x => max (Ideal.logistic (v136 (ix2 p x))
              * Ideal.tanh (v138 (ix2 p x) + v139 (ix2 p x) * Ideal.tanh (v135 (ix2 p x)))) 0))
            (row2 v35 p) (matT v153) (vec v157)) (row2 v35 p)) j + v180 (ix1 j)) 0 := by
  unfold k0_pay12
  simp only [truncf_apply, maximumf_apply, mulf_apply, addf_apply, logistic_apply, tanh_apply, broadcast_apply, zero_word,
    quarterI, quarterF, quarterG, quarterO, rows0, rows1, mm_h, mm_out, bias2048_apply, bias512_apply, shapeCast_self]
  rfl

/-- A one-bit word widened to 32 bits and read as a signed integer is the bit. -/
theorem bit_toInt : ∀ c : BitVec 1, (c.setWidth 32).toInt = (c.toNat : Int) := by decide

/-- The threshold: the comparison's bit, widened and converted, is 0 or 1. -/
theorem pay1_at (v185 : FVec Ideal S64x512 .f32) (v186 : FVec Ideal S64x512 .f32) (p : Fin 64) (j : Fin 512) :
    k0_pay1 v185 v186 (ix2 p j) = bern (v186 (ix2 p j)) (v185 (ix2 p j)) := by
  unfold k0_pay1 bern
  show ((((Ideal.cmp .olt (v186 (ix2 p j)) (v185 (ix2 p j))).setWidth 32).toInt : ℝ) : EReal) = _
  rw [bit_toInt, Int.cast_natCast]

/-! ## The same payloads as ROWS, folded into the specification's cell functions

Stated as equations between rows so that the composition below only rewrites and never opens a cell: a pre-activation
row is referenced by all four of its gates, and a term opened down to scalars would repeat it four times per cell. -/

/-- A row plus a bias row. -/
def preact (a b : Row 2048) : Row 2048 := fun x => a x + b x
/-- A hidden row from an output gate row `o`, the forget-times-carry row `fc`, the input gate row `i`, the candidate row `g`. -/
def hFrom (o fc i g : Row 512) : Row 512 := fun x => max (Ideal.logistic (o x) * Ideal.tanh (fc x + i x * Ideal.tanh (g x))) 0

theorem fold_gates (xd : Row 2048) (h : Row 512) (W : Fin 2048 → Fin 512 → EReal) (b : Row 2048) :
    preact (fun x => xd x + lin W h x) b = gates xd h W b := rfl
theorem fold_hidden (A : Row 2048) (c : Row 512) :
    hFrom (gO A) (fun x => Ideal.logistic (gF A x) * c x) (fun x => Ideal.logistic (gI A x)) (gG A) = hOut A c := rfl

theorem pay3_row (p : Fin 64) : row2 (k0_pay3 (F := Ideal)) p = zrow := funext fun j => pay3_at p j
theorem pay2_row1 (v0 : FVec Ideal S64x4x2048 .f32) (v1 : FVec Ideal S64x4x1024 .f32) (v28 : FVec Ideal S2048x2048 .bf16) (v31 : FVec Ideal S1024x2048 .bf16) (p : Fin 64) :
    row2 (k0_pay2 (F := Ideal) v0 v1 v28 v31) ⟨64 + p.val, by omega⟩ = xproj (matT v28) (matT v31) (row3 v0 p 1) (row3 v1 p 1) :=
  funext fun j => pay2_at1 v0 v1 v28 v31 p j
theorem pay4_row (v0 : FVec Ideal S64x4x2048 .f32) (v1 : FVec Ideal S64x4x1024 .f32) (v28 : FVec Ideal S2048x2048 .bf16) (v31 : FVec Ideal S1024x2048 .bf16) (v38 : FVec Ideal S512x2048 .bf16) (p : Fin 64) :
    row2 (k0_pay4 (F := Ideal) v0 v1 v28 v31 v38) p
      = fun x => xproj (matT v28) (matT v31) (row3 v0 p 0) (row3 v1 p 0) x + lin (matT v38) zrow x :=
  funext fun j => pay4_at v0 v1 v28 v31 v38 p j
theorem pay5_row (v34 : FVec Ideal S256x2048 .f32) (v35 : FVec Ideal S64x512 .f32) (v41 : FVec Ideal S64x2048 .f32) (v42 : FVec Ideal S2048 .f32) (v66 : FVec Ideal S512x2048 .bf16) (v70 : FVec Ideal S2048 .f32) (p : Fin 64) :
    row2 (k0_pay5 v34 v35 v41 v42 v66 v70) p
      = hOut (gates (row2 v34 ⟨64 + p.val, by omega⟩) (hOut (preact (row2 v41 p) (vec v42)) (row2 v35 p)) (matT v66) (vec v70))
          (cOut (preact (row2 v41 p) (vec v42)) (row2 v35 p)) :=
  funext fun j => pay5_at v34 v35 v41 v42 v66 v70 p j
theorem pay7_row (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) :
    row2 (k0_pay7 v35 v90 v92 v95 v99 v120 v124 v128) p
      = gates (lin (matT v120) (hOut (gates (lin (matT v92) (row2 v90 p)) (row2 v35 p) (matT v95) (vec v99)) (row2 v35 p)))
          (row2 v35 p) (matT v124) (vec v128) :=
  funext fun j => pay7_at v35 v90 v92 v95 v99 v120 v124 v128 p j
theorem pay8_row (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) : row2 (k0_pay8 v35 v90 v92 v95 v99 v120 v124 v128) p = gG (row2 (k0_pay7 v35 v90 v92 v95 v99 v120 v124 v128) p) :=
  funext fun j => pay8_at v35 v90 v92 v95 v99 v120 v124 v128 p j
theorem pay9_row (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) : row2 (k0_pay9 v35 v90 v92 v95 v99 v120 v124 v128) p = gO (row2 (k0_pay7 v35 v90 v92 v95 v99 v120 v124 v128) p) :=
  funext fun j => pay9_at v35 v90 v92 v95 v99 v120 v124 v128 p j
theorem pay10_row (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) :
    row2 (k0_pay10 v35 v90 v92 v95 v99 v120 v124 v128) p = fun x => Ideal.logistic (gF (row2 (k0_pay7 v35 v90 v92 v95 v99 v120 v124 v128) p) x) * row2 v35 p x :=
  funext fun j => pay10_at v35 v90 v92 v95 v99 v120 v124 v128 p j
theorem pay11_row (v35 : FVec Ideal S64x512 .f32) (v90 : FVec Ideal S64x512 .bf16) (v92 : FVec Ideal S512x2048 .bf16) (v95 : FVec Ideal S512x2048 .bf16) (v99 : FVec Ideal S2048 .f32) (v120 : FVec Ideal S512x2048 .bf16) (v124 : FVec Ideal S512x2048 .bf16) (v128 : FVec Ideal S2048 .f32) (p : Fin 64) :
    row2 (k0_pay11 v35 v90 v92 v95 v99 v120 v124 v128) p = fun x => Ideal.logistic (gI (row2 (k0_pay7 v35 v90 v92 v95 v99 v120 v124 v128) p) x) :=
  funext fun j => pay11_at v35 v90 v92 v95 v99 v120 v124 v128 p j
theorem pay12_row (v35 : FVec Ideal S64x512 .f32) (v135 : FVec Ideal S64x512 .f32) (v136 : FVec Ideal S64x512 .f32) (v138 : FVec Ideal S64x512 .f32) (v139 : FVec Ideal S64x512 .f32) (v149 : FVec Ideal S512x2048 .bf16) (v153 : FVec Ideal S512x2048 .bf16) (v157 : FVec Ideal S2048 .f32) (v177 : FVec Ideal S512x512 .f32) (v180 : FVec Ideal S512 .f32) (p : Fin 64) :
    row2 (k0_pay12 v35 v135 v136 v138 v139 v149 v153 v157 v177 v180) p
      = fun j => max (lin (matT v177) (hOut (gates (lin (matT v149) (hFrom (row2 v136 p) (row2 v138 p) (row2 v139 p) (row2 v135 p)))
            (row2 v35 p) (matT v153) (vec v157)) (row2 v35 p)) j + vec v180 j) 0 :=
  funext fun j => pay12_at v35 v135 v136 v138 v139 v149 v153 v157 v177 v180 p j
theorem pay1_row (v185 : FVec Ideal S64x512 .f32) (v186 : FVec Ideal S64x512 .f32) (p : Fin 64) :
    row2 (k0_pay1 v185 v186) p = fun j => bern (row2 v186 p j) (row2 v185 p j) :=
  funext fun j => pay1_at v185 v186 p j

end Cert.KernelIdeal.Block

end
-- ==== Proof.KPay.lean ====
/-
  What the kernel's body stores, as one function of its eighteen operand blocks, and the statement that this is the
  LSTM stack's result for the block's 64 rows (`Cert.Lstm.Gblk`): row by row, each payload's row is rewritten into the
  specification's cell functions (the row lemmas beside the operation lemmas), innermost payload last, and the two
  sides are then the same composition of cells.
-/
import proofs.«126124_j10505490006716_2_alg».proof.Proof.KOps

noncomputable section

namespace Cert.KernelIdeal.Block

open Cert.KernelIdeal Cert.KernelIdeal.Gen Idealize.ShloMosaic Idealize.ShloMosaic.ValueIdx Cert.Lstm

/-- The stored block as a term over the operand blocks: the body's pure operations in program order. -/
def pay (x0 : Vec Ideal S64x4x2048 .f32) (x1 : Vec Ideal S64x4x1024 .f32) (x2 : Vec Ideal S64x512 .f32) (x3 : Vec Ideal S2048x2048 .bf16) (x4 : Vec Ideal S1024x2048 .bf16) (x5 : Vec Ideal S512x2048 .bf16) (x6 : Vec Ideal S2048 .f32) (x7 : Vec Ideal S512x2048 .bf16) (x8 : Vec Ideal S512x2048 .bf16) (x9 : Vec Ideal S2048 .f32) (x10 : Vec Ideal S512x2048 .bf16) (x11 : Vec Ideal S512x2048 .bf16) (x12 : Vec Ideal S2048 .f32) (x13 : Vec Ideal S512x2048 .bf16) (x14 : Vec Ideal S512x2048 .bf16) (x15 : Vec Ideal S2048 .f32) (x16 : Vec Ideal S512x512 .f32) (x17 : Vec Ideal S512 .f32) : Vec Ideal S64x512 .f32 :=
  k0_pay1 (k0_pay12 (k0_pay3 (F := Ideal)) (k0_pay8 (k0_pay3 (F := Ideal)) (k0_pay5 (k0_pay2 x0 x1 x3 x4) (k0_pay3 (F := Ideal)) (k0_pay4 x0 x1 x3 x4 x5) x6 x5 x6) (k0_pay6 x7) x8 x9 x10 x11 x12) (k0_pay9 (k0_pay3 (F := Ideal)) (k0_pay5 (k0_pay2 x0 x1 x3 x4) (k0_pay3 (F := Ideal)) (k0_pay4 x0 x1 x3 x4 x5) x6 x5 x6) (k0_pay6 x7) x8 x9 x10 x11 x12) (k0_pay10 (k0_pay3 (F := Ideal)) (k0_pay5 (k0_pay2 x0 x1 x3 x4) (k0_pay3 (F := Ideal)) (k0_pay4 x0 x1 x3 x4 x5) x6 x5 x6) (k0_pay6 x7) x8 x9 x10 x11 x12) (k0_pay11 (k0_pay3 (F := Ideal)) (k0_pay5 (k0_pay2 x0 x1 x3 x4) (k0_pay3 (F := Ideal)) (k0_pay4 x0 x1 x3 x4 x5) x6 x5 x6) (k0_pay6 x7) x8 x9 x10 x11 x12) x13 x14 x15 x16 x17) x2

/-- The stored block is the stack's result on the block's rows. -/
theorem pay_eq (x0 : Vec Ideal S64x4x2048 .f32) (x1 : Vec Ideal S64x4x1024 .f32) (x2 : Vec Ideal S64x512 .f32) (x3 : Vec Ideal S2048x2048 .bf16) (x4 : Vec Ideal S1024x2048 .bf16) (x5 : Vec Ideal S512x2048 .bf16) (x6 : Vec Ideal S2048 .f32) (x7 : Vec Ideal S512x2048 .bf16) (x8 : Vec Ideal S512x2048 .bf16) (x9 : Vec Ideal S2048 .f32) (x10 : Vec Ideal S512x2048 .bf16) (x11 : Vec Ideal S512x2048 .bf16) (x12 : Vec Ideal S2048 .f32) (x13 : Vec Ideal S512x2048 .bf16) (x14 : Vec Ideal S512x2048 .bf16) (x15 : Vec Ideal S2048 .f32) (x16 : Vec Ideal S512x512 .f32) (x17 : Vec Ideal S512 .f32) :
    pay x0 x1 x2 x3 x4 x5 x6 x7 x8 x9 x10 x11 x12 x13 x14 x15 x16 x17 = Cert.Lstm.Gblk (B := 64) x0 x1 x2 x3 x4 x5 x6 x7 x8 x9 x10 x11 x12 x13 x14 x15 x16 x17 := by
  funext i
  obtain ⟨p, j, rfl⟩ : ∃ (p : Fin 64) (j : Fin 512), i = ix2 p j := ⟨i 0, i 1, eq_ix2 i⟩
  show row2 (pay x0 x1 x2 x3 x4 x5 x6 x7 x8 x9 x10 x11 x12 x13 x14 x15 x16 x17) p j = _
  unfold pay
  rw [pay1_row, pay12_row, pay9_row, pay10_row, pay11_row, pay8_row, pay7_row, pay6_eq, pay5_row, pay4_row, pay3_row, pay2_row1,
    fold_gates, fold_hidden]
  rfl

end Cert.KernelIdeal.Block

end
-- ==== Proof.KBridge.lean ====
/-
  One entry of the result computed from a block of 64 batch rows is the same entry of the whole result array.

  The stack's result at (row, j) depends on its inputs only through that row's four time slices of state and goal,
  that row of the uniform numbers, and the weights.  So if a block's row r holds the array's row R in each of the
  three row-indexed inputs, and each weight operand of the block form — a transposed matrix, one of the two column
  ranges of the first cell's input weights, or a sum of two bias vectors — reads as the corresponding weight of the
  array form, then the block form's entry (r, j) is the array form's entry (R, j): both are the same expression in
  the same rows and the same weight functions.
-/
import proofs.«126124_j10505490006716_2_alg».proof.Proof.Spec

noncomputable section

namespace Cert.KernelIdeal.Final

open Cert.Lstm Idealize.ShloMosaic Idealize.ShloMosaic.ValueIdx

/-- The block form at an index `i` of the block is the array form at an index `i'` of the array, when `i'` names
    the same row of the inputs and the same column, and the weight operands agree as functions. -/
theorem block_entry_eq
    (st : A3 64 4 2048) (gl : A3 64 4 1024) (u : A2 64 512)
    (wsT : A2 2048 2048) (wgT : A2 1024 2048) (whh1T : A2 512 2048) (b1 : A1 2048)
    (wih2T whh2T : A2 512 2048) (b2 : A1 2048)
    (wih3T whh3T : A2 512 2048) (b3 : A1 2048)
    (wih4T whh4T : A2 512 2048) (b4 : A1 2048)
    (woutT : A2 512 512) (bo : A1 512)
    (State : A3 4096 4 2048) (Goal : A3 4096 4 1024) (Un : A2 4096 512)
    (Wih1 : A2 2048 3072) (Whh1 : A2 2048 512) (bih1 bhh1 : A1 2048)
    (Wih2 Whh2 : A2 2048 512) (bih2 bhh2 : A1 2048)
    (Wih3 Whh3 : A2 2048 512) (bih3 bhh3 : A1 2048)
    (Wih4 Whh4 : A2 2048 512) (bih4 bhh4 : A1 2048)
    (Wout : A2 512 512) (bout : A1 512)
    (i : (⟨2, ![64, 512]⟩ : Shape).Idx) (i' : (⟨2, ![4096, 512]⟩ : Shape).Idx)
    (hst : ∀ s : Fin 4, row3 st (i 0) s = row3 State (i' 0) s)
    (hgl : ∀ s : Fin 4, row3 gl (i 0) s = row3 Goal (i' 0) s)
    (hu : row2 u (i 0) = row2 Un (i' 0))
    (hj : (i 1 : Fin 512) = i' 1)
    (hws : matT wsT = colsLo Wih1) (hwg : matT wgT = colsHi Wih1) (hwhh1 : matT whh1T = mat Whh1) (hb1 : vec b1 = badd bih1 bhh1)
    (hwih2 : matT wih2T = mat Wih2) (hwhh2 : matT whh2T = mat Whh2) (hb2 : vec b2 = badd bih2 bhh2)
    (hwih3 : matT wih3T = mat Wih3) (hwhh3 : matT whh3T = mat Whh3) (hb3 : vec b3 = badd bih3 bhh3)
    (hwih4 : matT wih4T = mat Wih4) (hwhh4 : matT whh4T = mat Whh4) (hb4 : vec b4 = badd bih4 bhh4)
    (hwout : matT woutT = mat Wout) (hbo : vec bo = vec bout) :
    Gblk st gl u wsT wgT whh1T b1 wih2T whh2T b2 wih3T whh3T b3 wih4T whh4T b4 woutT bo i
      = G State Goal Un Wih1 Whh1 bih1 bhh1 Wih2 Whh2 bih2 bhh2 Wih3 Whh3 bih3 bhh3 Wih4 Whh4 bih4 bhh4 Wout bout i' := by
  unfold Gblk G
  rw [hst 0, hst 1, hgl 0, hgl 1, hu, hj, hws, hwg, hwhh1, hb1, hwih2, hwhh2, hb2, hwih3, hwhh3, hb3, hwih4, hwhh4, hb4, hwout, hbo]

end Cert.KernelIdeal.Final

end
-- ==== Proof.KHost.lean ====
/-
  The weight and bias arrays the kernel's body is handed, read at an index, as functions of the program's arguments.

  Before the one call the program prepares its operands: each recurrent and input weight matrix (outputs × inputs) is
  transposed to inputs × outputs and narrowed to the 16-bit format, the first cell's input weights being first cut into
  their first 2048 columns (the state's part) and their last 1024 (the goal's part); each cell's two bias vectors are
  added; the output layer's matrix is transposed.  On the extended reals a change of format is the identity, so entry
  (k, j) of a prepared matrix is entry (j, k) of the argument (column 2048 + k for the goal's part), and entry j of a
  prepared bias is the sum of the two arguments' entries j.
-/
import proofs.«126124_j10505490006716_2_alg».proof.Proof.Gen.KernelIdeal.Frame
import proofs.«126124_j10505490006716_2_alg».proof.Proof.Spec
import Idealize.ShloMosaic.PureOps.Ideal
import Idealize.ShloMosaic.Lib.ValueIdx
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.ValueIdx

/-! ## The layout operations at an index, at this program's shapes -/

/-- The transpose of a 2048 × 512 matrix at (k, j) is the matrix at (j, k). -/
theorem transpose_2048x512 (x : S2048x512.Idx → EReal) (h : S2048x512.Transposes [1, 0] S512x2048) (k : Fin 512) (j : Fin 2048) :
    transpose S512x2048 [1, 0] x h (ix2 k j) = x (ix2 j k) :=
  transpose_apply [1, 0] x h (ix2 k j) (ix2 j k) fun b => match b with | ⟨0, _⟩ => rfl | ⟨1, _⟩ => rfl

/-- The transpose of a 2048 × 2048 matrix at (k, j) is the matrix at (j, k). -/
theorem transpose_2048x2048 (x : S2048x2048.Idx → EReal) (h : S2048x2048.Transposes [1, 0] S2048x2048) (k j : Fin 2048) :
    transpose S2048x2048 [1, 0] x h (ix2 k j) = x (ix2 j k) :=
  transpose_apply [1, 0] x h (ix2 k j) (ix2 j k) fun b => match b with | ⟨0, _⟩ => rfl | ⟨1, _⟩ => rfl

/-- The transpose of a 2048 × 1024 matrix at (k, j) is the matrix at (j, k). -/
theorem transpose_2048x1024 (x : S2048x1024.Idx → EReal) (h : S2048x1024.Transposes [1, 0] S1024x2048) (k : Fin 1024) (j : Fin 2048) :
    transpose S1024x2048 [1, 0] x h (ix2 k j) = x (ix2 j k) :=
  transpose_apply [1, 0] x h (ix2 k j) (ix2 j k) fun b => match b with | ⟨0, _⟩ => rfl | ⟨1, _⟩ => rfl

/-- The transpose of a 512 × 512 matrix at (k, j) is the matrix at (j, k). -/
theorem transpose_512x512 (x : S512x512.Idx → EReal) (h : S512x512.Transposes [1, 0] S512x512) (k j : Fin 512) :
    transpose S512x512 [1, 0] x h (ix2 k j) = x (ix2 j k) :=
  transpose_apply [1, 0] x h (ix2 k j) (ix2 j k) fun b => match b with | ⟨0, _⟩ => rfl | ⟨1, _⟩ => rfl

/-- The first 2048 columns of a 2048 × 3072 matrix at (j, k) are the matrix at (j, k). -/
theorem slice_lo (x : S2048x3072.Idx → EReal) (h : S2048x3072.Slices ![0, 0] S2048x2048) (j k : Fin 2048) :
    extractStridedSlice S2048x2048 ![0, 0] x h (ix2 j k) = x (ix2 j ⟨k.val, by omega⟩) :=
  extractStridedSlice_apply ![0, 0] x h (ix2 j k) (ix2 j ⟨k.val, by omega⟩) fun a => match a with
    | ⟨0, _⟩ => by show j.val = 0 + j.val; omega
    | ⟨1, _⟩ => by show k.val = 0 + k.val; omega

/-- The last 1024 columns of a 2048 × 3072 matrix at (j, k) are the matrix at (j, 2048 + k). -/
theorem slice_hi (x : S2048x3072.Idx → EReal) (h : S2048x3072.Slices ![0, 2048] S2048x1024) (j : Fin 2048) (k : Fin 1024) :
    extractStridedSlice S2048x1024 ![0, 2048] x h (ix2 j k) = x (ix2 j ⟨2048 + k.val, by omega⟩) :=
  extractStridedSlice_apply ![0, 2048] x h (ix2 j k) (ix2 j ⟨2048 + k.val, by omega⟩) fun a => match a with
    | ⟨0, _⟩ => by show j.val = 0 + j.val; omega
    | ⟨1, _⟩ => by show 2048 + k.val = 2048 + k.val; rfl

/-! ## The prepared operands

Each is read off the program's operations before the call; the narrowing to the 16-bit format is the identity on the
extended reals, so it does not appear in the array's description. -/

variable (m : (ℓ : Loc nD τ sig) → Buf (Elt Ideal) ℓ)

/-- The state's part of the first cell's input weights, prepared: entry (k, j) is the argument's entry (j, k). -/
theorem host_v2 (c : Dev nD) (k j : Fin 2048) :
    (V m c main_v2 : S2048x2048.Idx → EReal) (ix2 k j) = (m ((c : Thread nD τ).loc main_arg3) : S2048x3072.Idx → EReal) (ix2 j ⟨k.val, by omega⟩) := by
  have e : @Eq (S2048x2048.Idx → EReal) (V m c main_v2) (transpose S2048x2048 [1, 0] (extractStridedSlice S2048x2048 ![0, 0] (m ((c : Thread nD τ).loc main_arg3) : S2048x3072.Idx → EReal) slices_S2048x3072_S2048x2048_0_0) transposes_S2048x2048_S2048x2048_1_0) := by
    dsimp only [Gen.V, Gen.hostOps0]; after_results <;> rfl
  refine (congrFun e (ix2 k j)).trans ?_
  refine (transpose_2048x2048 _ _ k j).trans ?_
  exact slice_lo _ _ j k

/-- The goal's part of the first cell's input weights, prepared: entry (k, j) is the argument's entry (j, 2048 + k). -/
theorem host_v5 (c : Dev nD) (k : Fin 1024) (j : Fin 2048) :
    (V m c main_v5 : S1024x2048.Idx → EReal) (ix2 k j) = (m ((c : Thread nD τ).loc main_arg3) : S2048x3072.Idx → EReal) (ix2 j ⟨2048 + k.val, by omega⟩) := by
  have e : @Eq (S1024x2048.Idx → EReal) (V m c main_v5) (transpose S1024x2048 [1, 0] (extractStridedSlice S2048x1024 ![0, 2048] (m ((c : Thread nD τ).loc main_arg3) : S2048x3072.Idx → EReal) slices_S2048x3072_S2048x1024_0_2048) transposes_S2048x1024_S1024x2048_1_0) := by
    dsimp only [Gen.V, Gen.hostOps0]; after_results <;> rfl
  refine (congrFun e (ix2 k j)).trans ?_
  refine (transpose_2048x1024 _ _ k j).trans ?_
  exact slice_hi _ _ j k

/-- A 2048 × 512 weight matrix, prepared: entry (k, j) is the argument's entry (j, k). -/
theorem host_v7 (c : Dev nD) (k : Fin 512) (j : Fin 2048) :
    (V m c main_v7 : S512x2048.Idx → EReal) (ix2 k j) = (m ((c : Thread nD τ).loc main_arg4) : S2048x512.Idx → EReal) (ix2 j k) := by
  have e : @Eq (S512x2048.Idx → EReal) (V m c main_v7) (transpose S512x2048 [1, 0] (m ((c : Thread nD τ).loc main_arg4) : S2048x512.Idx → EReal) transposes_S2048x512_S512x2048_1_0) := by
    dsimp only [Gen.V, Gen.hostOps0]; after_results <;> rfl
  exact (congrFun e (ix2 k j)).trans (transpose_2048x512 _ _ k j)

/-- A 2048 × 512 weight matrix, prepared: entry (k, j) is the argument's entry (j, k). -/
theorem host_v10 (c : Dev nD) (k : Fin 512) (j : Fin 2048) :
    (V m c main_v10 : S512x2048.Idx → EReal) (ix2 k j) = (m ((c : Thread nD τ).loc main_arg7) : S2048x512.Idx → EReal) (ix2 j k) := by
  have e : @Eq (S512x2048.Idx → EReal) (V m c main_v10) (transpose S512x2048 [1, 0] (m ((c : Thread nD τ).loc main_arg7) : S2048x512.Idx → EReal) transposes_S2048x512_S512x2048_1_0) := by
    dsimp only [Gen.V, Gen.hostOps0]; after_results <;> rfl
  exact (congrFun e (ix2 k j)).trans (transpose_2048x512 _ _ k j)

/-- A 2048 × 512 weight matrix, prepared: entry (k, j) is the argument's entry (j, k). -/
theorem host_v12 (c : Dev nD) (k : Fin 512) (j : Fin 2048) :
    (V m c main_v12 : S512x2048.Idx → EReal) (ix2 k j) = (m ((c : Thread nD τ).loc main_arg8) : S2048x512.Idx → EReal) (ix2 j k) := by
  have e : @Eq (S512x2048.Idx → EReal) (V m c main_v12) (transpose S512x2048 [1, 0] (m ((c : Thread nD τ).loc main_arg8) : S2048x512.Idx → EReal) transposes_S2048x512_S512x2048_1_0) := by
    dsimp only [Gen.V, Gen.hostOps0]; after_results <;> rfl
  exact (congrFun e (ix2 k j)).trans (transpose_2048x512 _ _ k j)

/-- A 2048 × 512 weight matrix, prepared: entry (k, j) is the argument's entry (j, k). -/
theorem host_v15 (c : Dev nD) (k : Fin 512) (j : Fin 2048) :
    (V m c main_v15 : S512x2048.Idx → EReal) (ix2 k j) = (m ((c : Thread nD τ).loc main_arg11) : S2048x512.Idx → EReal) (ix2 j k) := by
  have e : @Eq (S512x2048.Idx → EReal) (V m c main_v15) (transpose S512x2048 [1, 0] (m ((c : Thread nD τ).loc main_arg11) : S2048x512.Idx → EReal) transposes_S2048x512_S512x2048_1_0) := by
    dsimp only [Gen.V, Gen.hostOps0]; after_results <;> rfl
  exact (congrFun e (ix2 k j)).trans (transpose_2048x512 _ _ k j)

/-- A 2048 × 512 weight matrix, prepared: entry (k, j) is the argument's entry (j, k). -/
theorem host_v17 (c : Dev nD) (k : Fin 512) (j : Fin 2048) :
    (V m c main_v17 : S512x2048.Idx → EReal) (ix2 k j) = (m ((c : Thread nD τ).loc main_arg12) : S2048x512.Idx → EReal) (ix2 j k) := by
  have e : @Eq (S512x2048.Idx → EReal) (V m c main_v17) (transpose S512x2048 [1, 0] (m ((c : Thread nD τ).loc main_arg12) : S2048x512.Idx → EReal) transposes_S2048x512_S512x2048_1_0) := by
    dsimp only [Gen.V, Gen.hostOps0]; after_results <;> rfl
  exact (congrFun e (ix2 k j)).trans (transpose_2048x512 _ _ k j)

/-- A 2048 × 512 weight matrix, prepared: entry (k, j) is the argument's entry (j, k). -/
theorem host_v20 (c : Dev nD) (k : Fin 512) (j : Fin 2048) :
    (V m c main_v20 : S512x2048.Idx → EReal) (ix2 k j) = (m ((c : Thread nD τ).loc main_arg15) : S2048x512.Idx → EReal) (ix2 j k) := by
  have e : @Eq (S512x2048.Idx → EReal) (V m c main_v20) (transpose S512x2048 [1, 0] (m ((c : Thread nD τ).loc main_arg15) : S2048x512.Idx → EReal) transposes_S2048x512_S512x2048_1_0) := by
    dsimp only [Gen.V, Gen.hostOps0]; after_results <;> rfl
  exact (congrFun e (ix2 k j)).trans (transpose_2048x512 _ _ k j)

/-- A 2048 × 512 weight matrix, prepared: entry (k, j) is the argument's entry (j, k). -/
theorem host_v22 (c : Dev nD) (k : Fin 512) (j : Fin 2048) :
    (V m c main_v22 : S512x2048.Idx → EReal) (ix2 k j) = (m ((c : Thread nD τ).loc main_arg16) : S2048x512.Idx → EReal) (ix2 j k) := by
  have e : @Eq (S512x2048.Idx → EReal) (V m c main_v22) (transpose S512x2048 [1, 0] (m ((c : Thread nD τ).loc main_arg16) : S2048x512.Idx → EReal) transposes_S2048x512_S512x2048_1_0) := by
    dsimp only [Gen.V, Gen.hostOps0]; after_results <;> rfl
  exact (congrFun e (ix2 k j)).trans (transpose_2048x512 _ _ k j)

/-- A cell's bias, prepared: entry j is the sum of the two arguments' entries j. -/
theorem host_v8 (c : Dev nD) (j : Fin 2048) :
    (V m c main_v8 : S2048.Idx → EReal) (ix1 j) = Cert.Lstm.badd (m ((c : Thread nD τ).loc main_arg5) : Cert.Lstm.A1 2048) (m ((c : Thread nD τ).loc main_arg6) : Cert.Lstm.A1 2048) j := by
  have e : @Eq (S2048.Idx → EReal) (V m c main_v8) (addf (F := Ideal) (s := S2048) (φ := .f32) (m ((c : Thread nD τ).loc main_arg5)) (m ((c : Thread nD τ).loc main_arg6))) := by
    dsimp only [Gen.V, Gen.hostOps0]; after_results <;> rfl
  exact (congrFun e (ix1 j)).trans (addf_apply (s := S2048) (φ := .f32) (m ((c : Thread nD τ).loc main_arg5)) (m ((c : Thread nD τ).loc main_arg6)) (ix1 j))

/-- A cell's bias, prepared: entry j is the sum of the two arguments' entries j. -/
theorem host_v13 (c : Dev nD) (j : Fin 2048) :
    (V m c main_v13 : S2048.Idx → EReal) (ix1 j) = Cert.Lstm.badd (m ((c : Thread nD τ).loc main_arg9) : Cert.Lstm.A1 2048) (m ((c : Thread nD τ).loc main_arg10) : Cert.Lstm.A1 2048) j := by
  have e : @Eq (S2048.Idx → EReal) (V m c main_v13) (addf (F := Ideal) (s := S2048) (φ := .f32) (m ((c : Thread nD τ).loc main_arg9)) (m ((c : Thread nD τ).loc main_arg10))) := by
    dsimp only [Gen.V, Gen.hostOps0]; after_results <;> rfl
  exact (congrFun e (ix1 j)).trans (addf_apply (s := S2048) (φ := .f32) (m ((c : Thread nD τ).loc main_arg9)) (m ((c : Thread nD τ).loc main_arg10)) (ix1 j))

/-- A cell's bias, prepared: entry j is the sum of the two arguments' entries j. -/
theorem host_v18 (c : Dev nD) (j : Fin 2048) :
    (V m c main_v18 : S2048.Idx → EReal) (ix1 j) = Cert.Lstm.badd (m ((c : Thread nD τ).loc main_arg13) : Cert.Lstm.A1 2048) (m ((c : Thread nD τ).loc main_arg14) : Cert.Lstm.A1 2048) j := by
  have e : @Eq (S2048.Idx → EReal) (V m c main_v18) (addf (F := Ideal) (s := S2048) (φ := .f32) (m ((c : Thread nD τ).loc main_arg13)) (m ((c : Thread nD τ).loc main_arg14))) := by
    dsimp only [Gen.V, Gen.hostOps0]; after_results <;> rfl
  exact (congrFun e (ix1 j)).trans (addf_apply (s := S2048) (φ := .f32) (m ((c : Thread nD τ).loc main_arg13)) (m ((c : Thread nD τ).loc main_arg14)) (ix1 j))

/-- A cell's bias, prepared: entry j is the sum of the two arguments' entries j. -/
theorem host_v23 (c : Dev nD) (j : Fin 2048) :
    (V m c main_v23 : S2048.Idx → EReal) (ix1 j) = Cert.Lstm.badd (m ((c : Thread nD τ).loc main_arg17) : Cert.Lstm.A1 2048) (m ((c : Thread nD τ).loc main_arg18) : Cert.Lstm.A1 2048) j := by
  have e : @Eq (S2048.Idx → EReal) (V m c main_v23) (addf (F := Ideal) (s := S2048) (φ := .f32) (m ((c : Thread nD τ).loc main_arg17)) (m ((c : Thread nD τ).loc main_arg18))) := by
    dsimp only [Gen.V, Gen.hostOps0]; after_results <;> rfl
  exact (congrFun e (ix1 j)).trans (addf_apply (s := S2048) (φ := .f32) (m ((c : Thread nD τ).loc main_arg17)) (m ((c : Thread nD τ).loc main_arg18)) (ix1 j))

/-- The output layer's matrix, prepared: entry (k, j) is the argument's entry (j, k). -/
theorem host_v24 (c : Dev nD) (k j : Fin 512) :
    (V m c main_v24 : S512x512.Idx → EReal) (ix2 k j) = (m ((c : Thread nD τ).loc main_arg19) : S512x512.Idx → EReal) (ix2 j k) := by
  have e : @Eq (S512x512.Idx → EReal) (V m c main_v24) (transpose S512x512 [1, 0] (m ((c : Thread nD τ).loc main_arg19) : S512x512.Idx → EReal) transposes_S512x512_S512x512_1_0) := by
    dsimp only [Gen.V, Gen.hostOps0]; after_results <;> rfl
  exact (congrFun e (ix2 k j)).trans (transpose_512x512 _ _ k j)

end Cert.KernelIdeal.Final

end
-- ==== Proof.KBlocks.lean ====
/-
  What each of the kernel's eighteen operand blocks is at a grid point, in terms of the program's arguments.

  The grid has 64 points; point t works on batch rows 64t … 64t + 63.  For the three operands indexed by batch row
  (state, goal and the uniform numbers) the block at point t is those 64 rows of the argument: an entry of the block
  sits in the array, on each axis, at the block's index times the block's size plus its place inside the block, and
  the block's index is (t, 0, 0) (or (t, 0)).  Every weight and bias operand is one block — the whole prepared array,
  the same at every point, its block index zero on every axis — so its block is the prepared array itself, whose
  entries the preceding module reads off the arguments.  The last section says the same in the vocabulary of the
  specification: rows of a rank-3 or rank-2 array, a matrix read transposed, the two column ranges of the first
  cell's input weights, a sum of two bias vectors.
-/
import proofs.«126124_j10505490006716_2_alg».proof.Proof.Gen.KernelIdeal.Frame
import proofs.«126124_j10505490006716_2_alg».proof.Proof.KHost
import proofs.«126124_j10505490006716_2_alg».proof.Proof.Spec

noncomputable section

namespace Cert.KernelIdeal.Final

open Cert.KernelIdeal Cert.KernelIdeal.Gen Idealize.ShloMosaic Idealize.ShloMosaic.TcCoe Idealize.SL.Sem
open Idealize.ShloMosaic.ValueIdx Cert.Lstm

/-! ## The block indices, decided over the 64 grid points -/

/-- The state's block at point t has index (t, 0, 0). -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The goal's block at point t has index (t, 0, 0). -/
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The uniform numbers' block at point t has index (t, 0). -/
theorem index2 : ∀ t : Fin cfg0.N, win0_2.index t (0 : Fin 2) = t.val ∧ win0_2.index t (1 : Fin 2) = 0 :=
  (by decide +kernel : ∀ t : Fin grid0.N, _)
/-- The result's block at point t has index (t, 0). -/
theorem index18 : ∀ t : Fin cfg0.N, win0_18.index t (0 : Fin 2) = t.val ∧ win0_18.index t (1 : Fin 2) = 0 :=
  (by decide +kernel : ∀ t : Fin grid0.N, _)
/-- Operand 3 is one block: its index is (0, 0) at every point. -/
theorem index3 : ∀ t : Fin cfg0.N, win0_3.index t (0 : Fin 2) = 0 ∧ win0_3.index t (1 : Fin 2) = 0 :=
  (by decide +kernel : ∀ t : Fin grid0.N, _)
/-- Operand 4 is one block: its index is (0, 0) at every point. -/
theorem index4 : ∀ t : Fin cfg0.N, win0_4.index t (0 : Fin 2) = 0 ∧ win0_4.index t (1 : Fin 2) = 0 :=
  (by decide +kernel : ∀ t : Fin grid0.N, _)
/-- Operand 5 is one block: its index is (0, 0) at every point. -/
theorem index5 : ∀ t : Fin cfg0.N, win0_5.index t (0 : Fin 2) = 0 ∧ win0_5.index t (1 : Fin 2) = 0 :=
  (by decide +kernel : ∀ t : Fin grid0.N, _)
/-- Operand 6 is one block: its index is 0 at every point. -/
theorem index6 : ∀ t : Fin cfg0.N, win0_6.index t (0 : Fin 1) = 0 :=
  (by decide +kernel : ∀ t : Fin grid0.N, _)
/-- Operand 7 is one block: its index is (0, 0) at every point. -/
theorem index7 : ∀ t : Fin cfg0.N, win0_7.index t (0 : Fin 2) = 0 ∧ win0_7.index t (1 : Fin 2) = 0 :=
  (by decide +kernel : ∀ t : Fin grid0.N, _)
/-- Operand 8 is one block: its index is (0, 0) at every point. -/
theorem index8 : ∀ t : Fin cfg0.N, win0_8.index t (0 : Fin 2) = 0 ∧ win0_8.index t (1 : Fin 2) = 0 :=
  (by decide +kernel : ∀ t : Fin grid0.N, _)
/-- Operand 9 is one block: its index is 0 at every point. -/
theorem index9 : ∀ t : Fin cfg0.N, win0_9.index t (0 : Fin 1) = 0 :=
  (by decide +kernel : ∀ t : Fin grid0.N, _)
/-- Operand 10 is one block: its index is (0, 0) at every point. -/
theorem index10 : ∀ t : Fin cfg0.N, win0_10.index t (0 : Fin 2) = 0 ∧ win0_10.index t (1 : Fin 2) = 0 :=
  (by decide +kernel : ∀ t : Fin grid0.N, _)
/-- Operand 11 is one block: its index is (0, 0) at every point. -/
theorem index11 : ∀ t : Fin cfg0.N, win0_11.index t (0 : Fin 2) = 0 ∧ win0_11.index t (1 : Fin 2) = 0 :=
  (by decide +kernel : ∀ t : Fin grid0.N, _)
/-- Operand 12 is one block: its index is 0 at every point. -/
theorem index12 : ∀ t : Fin cfg0.N, win0_12.index t (0 : Fin 1) = 0 :=
  (by decide +kernel : ∀ t : Fin grid0.N, _)
/-- Operand 13 is one block: its index is (0, 0) at every point. -/
theorem index13 : ∀ t : Fin cfg0.N, win0_13.index t (0 : Fin 2) = 0 ∧ win0_13.index t (1 : Fin 2) = 0 :=
  (by decide +kernel : ∀ t : Fin grid0.N, _)
/-- Operand 14 is one block: its index is (0, 0) at every point. -/
theorem index14 : ∀ t : Fin cfg0.N, win0_14.index t (0 : Fin 2) = 0 ∧ win0_14.index t (1 : Fin 2) = 0 :=
  (by decide +kernel : ∀ t : Fin grid0.N, _)
/-- Operand 15 is one block: its index is 0 at every point. -/
theorem index15 : ∀ t : Fin cfg0.N, win0_15.index t (0 : Fin 1) = 0 :=
  (by decide +kernel : ∀ t : Fin grid0.N, _)
/-- Operand 16 is one block: its index is (0, 0) at every point. -/
theorem index16 : ∀ t : Fin cfg0.N, win0_16.index t (0 : Fin 2) = 0 ∧ win0_16.index t (1 : Fin 2) = 0 :=
  (by decide +kernel : ∀ t : Fin grid0.N, _)
/-- Operand 17 is one block: its index is 0 at every point. -/
theorem index17 : ∀ t : Fin cfg0.N, win0_17.index t (0 : Fin 1) = 0 :=
  (by decide +kernel : ∀ t : Fin grid0.N, _)

variable (m : (ℓ : Loc nD τ sig) → Buf (Elt Ideal) ℓ)

/-! ## The row-indexed operands: block t is rows 64t … 64t + 63 -/

/-- Entry (r, s, k) of the state's block at point t is entry (64t + r, s, k) of the state argument. -/
theorem state_block (c : Dev nD) (t : Fin cfg0.N) (r : Fin 64) (R : Fin 4096) (hR : R.val = 64 * t.val + r.val) (s : Fin 4) (k : Fin 2048) :
    (iblk m c 0 t : S64x4x2048.Idx → EReal) (ix3 r s k) = (m ((c : Thread nD τ).loc main_arg0) : S4096x4x2048.Idx → EReal) (ix3 R s k) := by
  obtain ⟨e0, e1, e2⟩ := index0 t
  unfold iblk
  rw [View.read_apply]
  show V m c main_arg0 _ = _
  rw [V_main_arg0 m c]
  refine congrArg (m ((c : Thread nD τ).loc main_arg0) : S4096x4x2048.Idx → EReal) ?_
  funext a; apply Fin.ext
  match a with
  | ⟨0, _⟩ => show win0_0.index t (0 : Fin 3) * 64 + 1 * r.val = R.val; rw [e0, hR]; omega
  | ⟨1, _⟩ => show win0_0.index t (1 : Fin 3) * 4 + 1 * s.val = s.val; rw [e1]; omega
  | ⟨2, _⟩ => show win0_0.index t (2 : Fin 3) * 2048 + 1 * k.val = k.val; rw [e2]; omega

/-- Entry (r, s, k) of the goal's block at point t is entry (64t + r, s, k) of the goal argument. -/
theorem goal_block (c : Dev nD) (t : Fin cfg0.N) (r : Fin 64) (R : Fin 4096) (hR : R.val = 64 * t.val + r.val) (s : Fin 4) (k : Fin 1024) :
    (iblk m c 1 t : S64x4x1024.Idx → EReal) (ix3 r s k) = (m ((c : Thread nD τ).loc main_arg1) : S4096x4x1024.Idx → EReal) (ix3 R s k) := by
  obtain ⟨e0, e1, e2⟩ := index1 t
  unfold iblk
  rw [View.read_apply]
  show V m c main_arg1 _ = _
  rw [V_main_arg1 m c]
  refine congrArg (m ((c : Thread nD τ).loc main_arg1) : S4096x4x1024.Idx → EReal) ?_
  funext a; apply Fin.ext
  match a with
  | ⟨0, _⟩ => show win0_1.index t (0 : Fin 3) * 64 + 1 * r.val = R.val; rw [e0, hR]; omega
  | ⟨1, _⟩ => show win0_1.index t (1 : Fin 3) * 4 + 1 * s.val = s.val; rw [e1]; omega
  | ⟨2, _⟩ => show win0_1.index t (2 : Fin 3) * 1024 + 1 * k.val = k.val; rw [e2]; omega

/-- Entry (r, k) of the uniform numbers' block at point t is entry (64t + r, k) of that argument. -/
theorem unif_block (c : Dev nD) (t : Fin cfg0.N) (r : Fin 64) (R : Fin 4096) (hR : R.val = 64 * t.val + r.val) (k : Fin 512) :
    (iblk m c 2 t : S64x512.Idx → EReal) (ix2 r k) = (m ((c : Thread nD τ).loc main_arg2) : S4096x512.Idx → EReal) (ix2 R k) := by
  obtain ⟨e0, e1⟩ := index2 t
  unfold iblk
  rw [View.read_apply]
  show V m c main_arg2 _ = _
  rw [V_main_arg2 m c]
  refine congrArg (m ((c : Thread nD τ).loc main_arg2) : S4096x512.Idx → EReal) ?_
  funext a; apply Fin.ext
  match a with
  | ⟨0, _⟩ => show win0_2.index t (0 : Fin 2) * 64 + 1 * r.val = R.val; rw [e0, hR]; omega
  | ⟨1, _⟩ => show win0_2.index t (1 : Fin 2) * 512 + 1 * k.val = k.val; rw [e1]; omega

/-! ## The weight and bias operands: the one block is the prepared array -/

/-- Operand 3's block at any point is the whole array the region finds. -/
theorem whole3 (c : Dev nD) (t : Fin cfg0.N) : (iblk m c 3 t : S2048x2048.Idx → EReal) = (V m c main_v2 : S2048x2048.Idx → EReal) := by
  obtain ⟨e0, e1⟩ := index3 t
  funext x
  unfold iblk
  rw [View.read_apply]
  show V m c main_v2 _ = V m c main_v2 x
  refine congrArg (V m c main_v2 : S2048x2048.Idx → EReal) ?_
  funext a; apply Fin.ext
  match a with
  | ⟨0, _⟩ => show win0_3.index t (0 : Fin 2) * 2048 + 1 * (x 0).val = (x 0).val; rw [e0]; omega
  | ⟨1, _⟩ => show win0_3.index t (1 : Fin 2) * 2048 + 1 * (x 1).val = (x 1).val; rw [e1]; omega

/-- Operand 4's block at any point is the whole array the region finds. -/
theorem whole4 (c : Dev nD) (t : Fin cfg0.N) : (iblk m c 4 t : S1024x2048.Idx → EReal) = (V m c main_v5 : S1024x2048.Idx → EReal) := by
  obtain ⟨e0, e1⟩ := index4 t
  funext x
  unfold iblk
  rw [View.read_apply]
  show V m c main_v5 _ = V m c main_v5 x
  refine congrArg (V m c main_v5 : S1024x2048.Idx → EReal) ?_
  funext a; apply Fin.ext
  match a with
  | ⟨0, _⟩ => show win0_4.index t (0 : Fin 2) * 1024 + 1 * (x 0).val = (x 0).val; rw [e0]; omega
  | ⟨1, _⟩ => show win0_4.index t (1 : Fin 2) * 2048 + 1 * (x 1).val = (x 1).val; rw [e1]; omega

/-- Operand 5's block at any point is the whole array the region finds. -/
theorem whole5 (c : Dev nD) (t : Fin cfg0.N) : (iblk m c 5 t : S512x2048.Idx → EReal) = (V m c main_v7 : S512x2048.Idx → EReal) := by
  obtain ⟨e0, e1⟩ := index5 t
  funext x
  unfold iblk
  rw [View.read_apply]
  show V m c main_v7 _ = V m c main_v7 x
  refine congrArg (V m c main_v7 : S512x2048.Idx → EReal) ?_
  funext a; apply Fin.ext
  match a with
  | ⟨0, _⟩ => show win0_5.index t (0 : Fin 2) * 512 + 1 * (x 0).val = (x 0).val; rw [e0]; omega
  | ⟨1, _⟩ => show win0_5.index t (1 : Fin 2) * 2048 + 1 * (x 1).val = (x 1).val; rw [e1]; omega

/-- Operand 6's block at any point is the whole array the region finds. -/
theorem whole6 (c : Dev nD) (t : Fin cfg0.N) : (iblk m c 6 t : S2048.Idx → EReal) = (V m c main_v8 : S2048.Idx → EReal) := by
  have e0 := index6 t
  funext x
  unfold iblk
  rw [View.read_apply]
  show V m c main_v8 _ = V m c main_v8 x
  refine congrArg (V m c main_v8 : S2048.Idx → EReal) ?_
  funext a; apply Fin.ext
  match a with
  | ⟨0, _⟩ => show win0_6.index t (0 : Fin 1) * 2048 + 1 * (x 0).val = (x 0).val; rw [e0]; omega

/-- Operand 7's block at any point is the whole array the region finds. -/
theorem whole7 (c : Dev nD) (t : Fin cfg0.N) : (iblk m c 7 t : S512x2048.Idx → EReal) = (V m c main_v10 : S512x2048.Idx → EReal) := by
  obtain ⟨e0, e1⟩ := index7 t
  funext x
  unfold iblk
  rw [View.read_apply]
  show V m c main_v10 _ = V m c main_v10 x
  refine congrArg (V m c main_v10 : S512x2048.Idx → EReal) ?_
  funext a; apply Fin.ext
  match a with
  | ⟨0, _⟩ => show win0_7.index t (0 : Fin 2) * 512 + 1 * (x 0).val = (x 0).val; rw [e0]; omega
  | ⟨1, _⟩ => show win0_7.index t (1 : Fin 2) * 2048 + 1 * (x 1).val = (x 1).val; rw [e1]; omega

/-- Operand 8's block at any point is the whole array the region finds. -/
theorem whole8 (c : Dev nD) (t : Fin cfg0.N) : (iblk m c 8 t : S512x2048.Idx → EReal) = (V m c main_v12 : S512x2048.Idx → EReal) := by
  obtain ⟨e0, e1⟩ := index8 t
  funext x
  unfold iblk
  rw [View.read_apply]
  show V m c main_v12 _ = V m c main_v12 x
  refine congrArg (V m c main_v12 : S512x2048.Idx → EReal) ?_
  funext a; apply Fin.ext
  match a with
  | ⟨0, _⟩ => show win0_8.index t (0 : Fin 2) * 512 + 1 * (x 0).val = (x 0).val; rw [e0]; omega
  | ⟨1, _⟩ => show win0_8.index t (1 : Fin 2) * 2048 + 1 * (x 1).val = (x 1).val; rw [e1]; omega

/-- Operand 9's block at any point is the whole array the region finds. -/
theorem whole9 (c : Dev nD) (t : Fin cfg0.N) : (iblk m c 9 t : S2048.Idx → EReal) = (V m c main_v13 : S2048.Idx → EReal) := by
  have e0 := index9 t
  funext x
  unfold iblk
  rw [View.read_apply]
  show V m c main_v13 _ = V m c main_v13 x
  refine congrArg (V m c main_v13 : S2048.Idx → EReal) ?_
  funext a; apply Fin.ext
  match a with
  | ⟨0, _⟩ => show win0_9.index t (0 : Fin 1) * 2048 + 1 * (x 0).val = (x 0).val; rw [e0]; omega

/-- Operand 10's block at any point is the whole array the region finds. -/
theorem whole10 (c : Dev nD) (t : Fin cfg0.N) : (iblk m c 10 t : S512x2048.Idx → EReal) = (V m c main_v15 : S512x2048.Idx → EReal) := by
  obtain ⟨e0, e1⟩ := index10 t
  funext x
  unfold iblk
  rw [View.read_apply]
  show V m c main_v15 _ = V m c main_v15 x
  refine congrArg (V m c main_v15 : S512x2048.Idx → EReal) ?_
  funext a; apply Fin.ext
  match a with
  | ⟨0, _⟩ => show win0_10.index t (0 : Fin 2) * 512 + 1 * (x 0).val = (x 0).val; rw [e0]; omega
  | ⟨1, _⟩ => show win0_10.index t (1 : Fin 2) * 2048 + 1 * (x 1).val = (x 1).val; rw [e1]; omega

/-- Operand 11's block at any point is the whole array the region finds. -/
theorem whole11 (c : Dev nD) (t : Fin cfg0.N) : (iblk m c 11 t : S512x2048.Idx → EReal) = (V m c main_v17 : S512x2048.Idx → EReal) := by
  obtain ⟨e0, e1⟩ := index11 t
  funext x
  unfold iblk
  rw [View.read_apply]
  show V m c main_v17 _ = V m c main_v17 x
  refine congrArg (V m c main_v17 : S512x2048.Idx → EReal) ?_
  funext a; apply Fin.ext
  match a with
  | ⟨0, _⟩ => show win0_11.index t (0 : Fin 2) * 512 + 1 * (x 0).val = (x 0).val; rw [e0]; omega
  | ⟨1, _⟩ => show win0_11.index t (1 : Fin 2) * 2048 + 1 * (x 1).val = (x 1).val; rw [e1]; omega

/-- Operand 12's block at any point is the whole array the region finds. -/
theorem whole12 (c : Dev nD) (t : Fin cfg0.N) : (iblk m c 12 t : S2048.Idx → EReal) = (V m c main_v18 : S2048.Idx → EReal) := by
  have e0 := index12 t
  funext x
  unfold iblk
  rw [View.read_apply]
  show V m c main_v18 _ = V m c main_v18 x
  refine congrArg (V m c main_v18 : S2048.Idx → EReal) ?_
  funext a; apply Fin.ext
  match a with
  | ⟨0, _⟩ => show win0_12.index t (0 : Fin 1) * 2048 + 1 * (x 0).val = (x 0).val; rw [e0]; omega

/-- Operand 13's block at any point is the whole array the region finds. -/
theorem whole13 (c : Dev nD) (t : Fin cfg0.N) : (iblk m c 13 t : S512x2048.Idx → EReal) = (V m c main_v20 : S512x2048.Idx → EReal) := by
  obtain ⟨e0, e1⟩ := index13 t
  funext x
  unfold iblk
  rw [View.read_apply]
  show V m c main_v20 _ = V m c main_v20 x
  refine congrArg (V m c main_v20 : S512x2048.Idx → EReal) ?_
  funext a; apply Fin.ext
  match a with
  | ⟨0, _⟩ => show win0_13.index t (0 : Fin 2) * 512 + 1 * (x 0).val = (x 0).val; rw [e0]; omega
  | ⟨1, _⟩ => show win0_13.index t (1 : Fin 2) * 2048 + 1 * (x 1).val = (x 1).val; rw [e1]; omega

/-- Operand 14's block at any point is the whole array the region finds. -/
theorem whole14 (c : Dev nD) (t : Fin cfg0.N) : (iblk m c 14 t : S512x2048.Idx → EReal) = (V m c main_v22 : S512x2048.Idx → EReal) := by
  obtain ⟨e0, e1⟩ := index14 t
  funext x
  unfold iblk
  rw [View.read_apply]
  show V m c main_v22 _ = V m c main_v22 x
  refine congrArg (V m c main_v22 : S512x2048.Idx → EReal) ?_
  funext a; apply Fin.ext
  match a with
  | ⟨0, _⟩ => show win0_14.index t (0 : Fin 2) * 512 + 1 * (x 0).val = (x 0).val; rw [e0]; omega
  | ⟨1, _⟩ => show win0_14.index t (1 : Fin 2) * 2048 + 1 * (x 1).val = (x 1).val; rw [e1]; omega

/-- Operand 15's block at any point is the whole array the region finds. -/
theorem whole15 (c : Dev nD) (t : Fin cfg0.N) : (iblk m c 15 t : S2048.Idx → EReal) = (V m c main_v23 : S2048.Idx → EReal) := by
  have e0 := index15 t
  funext x
  unfold iblk
  rw [View.read_apply]
  show V m c main_v23 _ = V m c main_v23 x
  refine congrArg (V m c main_v23 : S2048.Idx → EReal) ?_
  funext a; apply Fin.ext
  match a with
  | ⟨0, _⟩ => show win0_15.index t (0 : Fin 1) * 2048 + 1 * (x 0).val = (x 0).val; rw [e0]; omega

/-- Operand 16's block at any point is the whole array the region finds. -/
theorem whole16 (c : Dev nD) (t : Fin cfg0.N) : (iblk m c 16 t : S512x512.Idx → EReal) = (V m c main_v24 : S512x512.Idx → EReal) := by
  obtain ⟨e0, e1⟩ := index16 t
  funext x
  unfold iblk
  rw [View.read_apply]
  show V m c main_v24 _ = V m c main_v24 x
  refine congrArg (V m c main_v24 : S512x512.Idx → EReal) ?_
  funext a; apply Fin.ext
  match a with
  | ⟨0, _⟩ => show win0_16.index t (0 : Fin 2) * 512 + 1 * (x 0).val = (x 0).val; rw [e0]; omega
  | ⟨1, _⟩ => show win0_16.index t (1 : Fin 2) * 512 + 1 * (x 1).val = (x 1).val; rw [e1]; omega

/-- Operand 17's block at any point is the whole array the region finds. -/
theorem whole17 (c : Dev nD) (t : Fin cfg0.N) : (iblk m c 17 t : S512.Idx → EReal) = (V m c main_arg20 : S512.Idx → EReal) := by
  have e0 := index17 t
  funext x
  unfold iblk
  rw [View.read_apply]
  show V m c main_arg20 _ = V m c main_arg20 x
  refine congrArg (V m c main_arg20 : S512.Idx → EReal) ?_
  funext a; apply Fin.ext
  match a with
  | ⟨0, _⟩ => show win0_17.index t (0 : Fin 1) * 512 + 1 * (x 0).val = (x 0).val; rw [e0]; omega

/-! ## The same, in the specification's vocabulary -/

/-- Time slice s of row r of the state's block at point t is time slice s of row 64t + r of the state argument. -/
theorem state_rows (c : Dev nD) (t : Fin cfg0.N) (r : Fin 64) (R : Fin 4096) (hR : R.val = 64 * t.val + r.val) (s : Fin 4) :
    row3 (iblk m c 0 t : A3 64 4 2048) r s = row3 (m ((c : Thread nD τ).loc main_arg0) : A3 4096 4 2048) R s :=
  funext fun k => state_block m c t r R hR s k

/-- Time slice s of row r of the goal's block at point t is time slice s of row 64t + r of the goal argument. -/
theorem goal_rows (c : Dev nD) (t : Fin cfg0.N) (r : Fin 64) (R : Fin 4096) (hR : R.val = 64 * t.val + r.val) (s : Fin 4) :
    row3 (iblk m c 1 t : A3 64 4 1024) r s = row3 (m ((c : Thread nD τ).loc main_arg1) : A3 4096 4 1024) R s :=
  funext fun k => goal_block m c t r R hR s k

/-- Row r of the uniform numbers' block at point t is row 64t + r of that argument. -/
theorem unif_rows (c : Dev nD) (t : Fin cfg0.N) (r : Fin 64) (R : Fin 4096) (hR : R.val = 64 * t.val + r.val) :
    row2 (iblk m c 2 t : A2 64 512) r = row2 (m ((c : Thread nD τ).loc main_arg2) : A2 4096 512) R :=
  funext fun k => unif_block m c t r R hR k

/-- Operand 3, read transposed, is the first 2048 columns of the first cell's input weights. -/
theorem weights3 (c : Dev nD) (t : Fin cfg0.N) : matT (iblk m c 3 t : A2 2048 2048) = colsLo (m ((c : Thread nD τ).loc main_arg3) : A2 2048 3072) :=
  funext fun j => funext fun k => (congrFun (whole3 m c t) (ix2 k j)).trans (host_v2 m c k j)

/-- Operand 4, read transposed, is the last 1024 columns of the first cell's input weights. -/
theorem weights4 (c : Dev nD) (t : Fin cfg0.N) : matT (iblk m c 4 t : A2 1024 2048) = colsHi (m ((c : Thread nD τ).loc main_arg3) : A2 2048 3072) :=
  funext fun j => funext fun k => (congrFun (whole4 m c t) (ix2 k j)).trans (host_v5 m c k j)

/-- Operand 5, read transposed, is its weight argument. -/
theorem weights5 (c : Dev nD) (t : Fin cfg0.N) : matT (iblk m c 5 t : A2 512 2048) = mat (m ((c : Thread nD τ).loc main_arg4) : A2 2048 512) :=
  funext fun j => funext fun k => (congrFun (whole5 m c t) (ix2 k j)).trans (host_v7 m c k j)

/-- Operand 6 is the sum of its cell's two bias arguments. -/
theorem bias6 (c : Dev nD) (t : Fin cfg0.N) : vec (iblk m c 6 t : A1 2048) = badd (m ((c : Thread nD τ).loc main_arg5) : A1 2048) (m ((c : Thread nD τ).loc main_arg6) : A1 2048) :=
  funext fun j => (congrFun (whole6 m c t) (ix1 j)).trans (host_v8 m c j)

/-- Operand 7, read transposed, is its weight argument. -/
theorem weights7 (c : Dev nD) (t : Fin cfg0.N) : matT (iblk m c 7 t : A2 512 2048) = mat (m ((c : Thread nD τ).loc main_arg7) : A2 2048 512) :=
  funext fun j => funext fun k => (congrFun (whole7 m c t) (ix2 k j)).trans (host_v10 m c k j)

/-- Operand 8, read transposed, is its weight argument. -/
theorem weights8 (c : Dev nD) (t : Fin cfg0.N) : matT (iblk m c 8 t : A2 512 2048) = mat (m ((c : Thread nD τ).loc main_arg8) : A2 2048 512) :=
  funext fun j => funext fun k => (congrFun (whole8 m c t) (ix2 k j)).trans (host_v12 m c k j)

/-- Operand 9 is the sum of its cell's two bias arguments. -/
theorem bias9 (c : Dev nD) (t : Fin cfg0.N) : vec (iblk m c 9 t : A1 2048) = badd (m ((c : Thread nD τ).loc main_arg9) : A1 2048) (m ((c : Thread nD τ).loc main_arg10) : A1 2048) :=
  funext fun j => (congrFun (whole9 m c t) (ix1 j)).trans (host_v13 m c j)

/-- Operand 10, read transposed, is its weight argument. -/
theorem weights10 (c : Dev nD) (t : Fin cfg0.N) : matT (iblk m c 10 t : A2 512 2048) = mat (m ((c : Thread nD τ).loc main_arg11) : A2 2048 512) :=
  funext fun j => funext fun k => (congrFun (whole10 m c t) (ix2 k j)).trans (host_v15 m c k j)

/-- Operand 11, read transposed, is its weight argument. -/
theorem weights11 (c : Dev nD) (t : Fin cfg0.N) : matT (iblk m c 11 t : A2 512 2048) = mat (m ((c : Thread nD τ).loc main_arg12) : A2 2048 512) :=
  funext fun j => funext fun k => (congrFun (whole11 m c t) (ix2 k j)).trans (host_v17 m c k j)

/-- Operand 12 is the sum of its cell's two bias arguments. -/
theorem bias12 (c : Dev nD) (t : Fin cfg0.N) : vec (iblk m c 12 t : A1 2048) = badd (m ((c : Thread nD τ).loc main_arg13) : A1 2048) (m ((c : Thread nD τ).loc main_arg14) : A1 2048) :=
  funext fun j => (congrFun (whole12 m c t) (ix1 j)).trans (host_v18 m c j)

/-- Operand 13, read transposed, is its weight argument. -/
theorem weights13 (c : Dev nD) (t : Fin cfg0.N) : matT (iblk m c 13 t : A2 512 2048) = mat (m ((c : Thread nD τ).loc main_arg15) : A2 2048 512) :=
  funext fun j => funext fun k => (congrFun (whole13 m c t) (ix2 k j)).trans (host_v20 m c k j)

/-- Operand 14, read transposed, is its weight argument. -/
theorem weights14 (c : Dev nD) (t : Fin cfg0.N) : matT (iblk m c 14 t : A2 512 2048) = mat (m ((c : Thread nD τ).loc main_arg16) : A2 2048 512) :=
  funext fun j => funext fun k => (congrFun (whole14 m c t) (ix2 k j)).trans (host_v22 m c k j)

/-- Operand 15 is the sum of its cell's two bias arguments. -/
theorem bias15 (c : Dev nD) (t : Fin cfg0.N) : vec (iblk m c 15 t : A1 2048) = badd (m ((c : Thread nD τ).loc main_arg17) : A1 2048) (m ((c : Thread nD τ).loc main_arg18) : A1 2048) :=
  funext fun j => (congrFun (whole15 m c t) (ix1 j)).trans (host_v23 m c j)

/-- Operand 16, read transposed, is the output layer's weight argument. -/
theorem weights16 (c : Dev nD) (t : Fin cfg0.N) : matT (iblk m c 16 t : A2 512 512) = mat (m ((c : Thread nD τ).loc main_arg19) : A2 512 512) :=
  funext fun j => funext fun k => (congrFun (whole16 m c t) (ix2 k j)).trans (host_v24 m c k j)

/-- Operand 17 is the output layer's bias argument. -/
theorem bias17 (c : Dev nD) (t : Fin cfg0.N) : vec (iblk m c 17 t : A1 512) = vec (m ((c : Thread nD τ).loc main_arg20) : A1 512) := by
  have e : (V m c main_arg20 : S512.Idx → EReal) = (m ((c : Thread nD τ).loc main_arg20) : S512.Idx → EReal) := V_main_arg20 m c
  exact funext fun j => (congrFun (whole17 m c t) (ix1 j)).trans (congrFun e (ix1 j))

end Cert.KernelIdeal.Final

end
-- ==== Proof.KFinal.lean ====
/-
  From the 64 blocks to the whole result array, and the kernel's run with its result named by the specification.

  At grid point t the body stores, into the result's block t, the stack's result for the 64 batch rows it was handed;
  by the preceding modules those are rows 64t … 64t + 63 of the arguments and the weights are the arguments' own, so
  what point t writes back is block t — rows 64t … 64t + 63 — of the ONE array `Cert.Lstm.G` of the arguments.  The
  result's blocks are 64 rows by all 512 columns, block t at rows 64t …, so row R lies in the block of point R / 64:
  the 64 blocks cover the array, and after the run the result array is `G` of the arguments.  The arguments
  themselves are left as they were.
-/
import proofs.«126124_j10505490006716_2_alg».proof.Proof.Gen.KernelIdeal.Value
import proofs.«126124_j10505490006716_2_alg».proof.Proof.KPay
import proofs.«126124_j10505490006716_2_alg».proof.Proof.KBridge
import proofs.«126124_j10505490006716_2_alg».proof.Proof.KBlocks
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

/-! ## What the body stores is the stack's result on the block it was handed -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body loads each operand block whole and stores one whole block: what it leaves in the result's buffer is
    its stored value as a term over the operand blocks. -/
theorem stored_eq_pay (x0 : Vec Ideal S64x4x2048 .f32) (x1 : Vec Ideal S64x4x1024 .f32) (x2 : Vec Ideal S64x512 .f32) (x3 : Vec Ideal S2048x2048 .bf16) (x4 : Vec Ideal S1024x2048 .bf16) (x5 : Vec Ideal S512x2048 .bf16) (x6 : Vec Ideal S2048 .f32) (x7 : Vec Ideal S512x2048 .bf16) (x8 : Vec Ideal S512x2048 .bf16) (x9 : Vec Ideal S2048 .f32) (x10 : Vec Ideal S512x2048 .bf16) (x11 : Vec Ideal S512x2048 .bf16) (x12 : Vec Ideal S2048 .f32) (x13 : Vec Ideal S512x2048 .bf16) (x14 : Vec Ideal S512x2048 .bf16) (x15 : Vec Ideal S2048 .f32) (x16 : Vec Ideal S512x512 .f32) (x17 : Vec Ideal S512 .f32) :
    out0_18 x0 x1 x2 x3 x4 x5 x6 x7 x8 x9 x10 x11 x12 x13 x14 x15 x16 x17 = Block.pay x0 x1 x2 x3 x4 x5 x6 x7 x8 x9 x10 x11 x12 x13 x14 x15 x16 x17 := by
  unfold Gen.out0_18 Block.pay
  rw [View.canon_unit_zero zeros2]
  simp only [View.ld_unit_zero (S := S64x4x2048) zeros3, View.ld_unit_zero (S := S64x4x1024) zeros3,
    View.ld_unit_zero (S := S64x512) zeros2, View.ld_unit_zero (S := S2048x2048) zeros2,
    View.ld_unit_zero (S := S1024x2048) zeros2, View.ld_unit_zero (S := S512x2048) zeros2,
    View.ld_unit_zero (S := S2048) zeros1, View.ld_unit_zero (S := S512x512) zeros2, View.ld_unit_zero (S := S512) zeros1]

variable (m : (ℓ : Loc nD τ sig) → Buf (Elt Ideal) ℓ) (ρ : Dev nD → PrngReg)

/-! ## Block t of the result is rows 64t … 64t + 63 of the whole result -/

/-- The stack's result on the operand blocks of point t, at an index of the block, is the whole result of the
    arguments at the index 64t rows further down, same column. -/
theorem block_eq_array_entry (c : Dev nD) (t : Fin cfg0.N) (i : S64x512.Idx) (i' : S4096x512.Idx)
    (hR : (i' 0).val = 64 * t.val + (i 0).val) (hj : (i 1).val = (i' 1).val) :
    Cert.Lstm.Gblk (B := 64) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) i = Cert.Lstm.G (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) i' :=
  block_entry_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) i i'
    (fun s => state_rows m c t (i 0) (i' 0) hR s) (fun s => goal_rows m c t (i 0) (i' 0) hR s) (unif_rows m c t (i 0) (i' 0) hR)
    (Fin.ext hj)
    (weights3 m c t) (weights4 m c t) (weights5 m c t) (bias6 m c t) (weights7 m c t) (weights8 m c t) (bias9 m c t)
    (weights10 m c t) (weights11 m c t) (bias12 m c t) (weights13 m c t) (weights14 m c t) (bias15 m c t)
    (weights16 m c t) (bias17 m c t)

/-- What point t writes back is block t of the whole result of the arguments. -/
theorem flushed_eq (c : Dev nD) (t : Fin cfg0.N) :
    (dats m 0 c).flushed 18 t = ((cfg0.win 18).blk t).view.read (Elt Ideal) (Cert.Lstm.G (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  rw [Value.flushed18 m c t, stored_eq_pay (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t),
    Block.pay_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)]
  obtain ⟨e0, e1⟩ := index18 t
  funext y
  rw [View.read_apply]
  show Cert.Lstm.Gblk (B := 64) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((cfg0.win 18).xinj (grid0.coords t) y)
    = Cert.Lstm.G (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (((cfg0.win 18).blk t).view.emb y)
  refine block_eq_array_entry m c t _ _ ?_ ?_
  · show win0_18.index t (0 : Fin 2) * 64 + 1 * (y 0).val = 64 * t.val + (y 0).val
    rw [e0]; omega
  · show (y 1).val = win0_18.index t (1 : Fin 2) * 512 + 1 * (y 1).val
    rw [e1]; omega

/-! ## The blocks cover the array -/

/-- An index of the result array is in point t's block iff each coordinate is in the block's range on its axis. -/
theorem mem_blk (t : Fin cfg0.N) (i : S4096x512.Idx) :
    i ∈ ((cfg0.win 18).blk t).view.set ↔ ∀ a : Fin 2, win0_18.index t a * S64x512.size a ≤ (i a).val ∧ (i a).val < win0_18.index t a * S64x512.size a + S64x512.size a := by
  show i ∈ ((View.whole main_v25).slice (win0_18.rect t)).set ↔ _
  rw [View.set_slice_whole, Rect.mem_set_unit]
  exact Iff.rfl

/-- Row R of the result lies in the block of point R / 64, which writes its block back. -/
theorem cover (i : S4096x512.Idx) :
    ∃ t : Fin cfg0.N, (cfg0.win 18).flush t = true ∧ i ∈ ((cfg0.win 18).blk t).view.set := by
  have hi0 : (i 0).val < 4096 := (i 0).isLt
  have hi1 : (i 1).val < 512 := (i 1).isLt
  have hN : cfg0.N = 64 := N_0
  obtain ⟨t, ht⟩ : ∃ t : Fin cfg0.N, t.val = (i 0).val / 64 := ⟨⟨(i 0).val / 64, by rw [hN]; omega⟩, rfl⟩
  obtain ⟨e0, e1⟩ := index18 t
  refine ⟨t, flush0_18 t, ?_⟩
  rw [mem_blk]
  intro a
  match a with
  | ⟨0, _⟩ =>
    show win0_18.index t (0 : Fin 2) * 64 ≤ (i 0).val ∧ (i 0).val < win0_18.index t (0 : Fin 2) * 64 + 64
    rw [e0, ht]; omega
  | ⟨1, _⟩ =>
    show win0_18.index t (1 : Fin 2) * 512 ≤ (i 1).val ∧ (i 1).val < win0_18.index t (1 : Fin 2) * 512 + 512
    rw [e1]; omega

/-- After the run the result array is the stack's result of the arguments. -/
theorem final (c : Dev nD) :
    (dats m 0 c).arrAt 18 cfg0.N = Cert.Lstm.G (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (dats m 0 c).arrAt_eq_of_cover 18 (Cert.Lstm.G (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
    (fun t _ => flushed_eq m c t) (fun i => cover i)

/-! ## The run -/

/-- The kernel's run: the result array is the specification's function of the arguments, and the arguments are unchanged. -/
theorem run : θ_run defs (onTc (τ := τ) (main (F := Ideal))) ⟨m, fun _ => 0, ρ⟩ fun r => ∀ c : Dev nD,
      r.2.mem ((c : Thread nD τ).loc main_v25) = Cert.Lstm.G (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelIdeal.Final

end
-- ==== Proof.RefDots.lean ====
/-
  Matrix products of the reference program, entry by entry.

  Each of the three product shapes the program uses (a 3072-, a 512- and again a 512-term contraction) is, at
  the exact instance, the plain sum over the shared coordinate of the products of the two operands' entries.
  The sum is first indexed by the contraction's own index set; that set has one axis, so it is re-indexed by
  the natural numbers below the shared extent.
-/
import proofs.«126124_j10505490006716_2_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.ValueIdx

/-- An array of extended reals of shape `s`. -/
abbrev V (s : Shape) : Type := FVec Ideal s .f32

theorem dotA_lhs0 (i : S4096x2048.Idx) (q : dot_S4096x3072_S3072x2048_S4096x2048_1_0_0_1_n_n.contr.Idx) :
    (dot_S4096x3072_S3072x2048_S4096x2048_1_0_0_1_n_n.lhsIdx i q 0).val = (i 0).val := by
  unfold DotDims.lhsIdx
  rw [dif_neg (show ¬(0 : Fin S4096x3072.rank) ∈ dot_S4096x3072_S3072x2048_S4096x2048_1_0_0_1_n_n.lhsBatch by decide), dif_pos (show (0 : Fin S4096x3072.rank) ∈ dot_S4096x3072_S3072x2048_S4096x2048_1_0_0_1_n_n.lhsNonContracting by decide)]
  rfl
theorem dotA_lhs1 (i : S4096x2048.Idx) (q : dot_S4096x3072_S3072x2048_S4096x2048_1_0_0_1_n_n.contr.Idx) :
    (dot_S4096x3072_S3072x2048_S4096x2048_1_0_0_1_n_n.lhsIdx i q 1).val = (q ⟨0, by decide⟩).val :=
  dot_S4096x3072_S3072x2048_S4096x2048_1_0_0_1_n_n.lhsIdx_val_of_single rfl i q
theorem dotA_rhs0 (i : S4096x2048.Idx) (q : dot_S4096x3072_S3072x2048_S4096x2048_1_0_0_1_n_n.contr.Idx) :
    (dot_S4096x3072_S3072x2048_S4096x2048_1_0_0_1_n_n.rhsIdx i q 0).val = (q ⟨0, by decide⟩).val :=
  dot_S4096x3072_S3072x2048_S4096x2048_1_0_0_1_n_n.rhsIdx_val_of_single rfl i q
theorem dotA_rhs1 (i : S4096x2048.Idx) (q : dot_S4096x3072_S3072x2048_S4096x2048_1_0_0_1_n_n.contr.Idx) :
    (dot_S4096x3072_S3072x2048_S4096x2048_1_0_0_1_n_n.rhsIdx i q 1).val = (i 1).val := by
  unfold DotDims.rhsIdx
  rw [dif_neg (show ¬(1 : Fin S3072x2048.rank) ∈ dot_S4096x3072_S3072x2048_S4096x2048_1_0_0_1_n_n.rhsBatch by decide), dif_pos (show (1 : Fin S3072x2048.rank) ∈ dot_S4096x3072_S3072x2048_S4096x2048_1_0_0_1_n_n.rhsNonContracting by decide)]
  rfl

/-- Entry `(b, j)` of the product of a `[4096, 3072]` array with a `[3072, 2048]` array is the sum over the 3072 shared
    coordinates of the products of the entries. -/
theorem dotA_apply (l : V S4096x3072) (r : V S3072x2048) (b : Fin 4096) (j : Fin 2048) :
    Host.dotGeneral (F := Ideal) (φ₁ := .f32) (φ₂ := .f32) dot_S4096x3072_S3072x2048_S4096x2048_1_0_0_1_n_n none l r (ix2 b j) = ∑ k : Fin 3072, l (ix2 b k) * r (ix2 k j) := by
  simp only [Host.dotGeneral]
  rw [Ideal.dotGeneral_apply, ← Equiv.sum_comp (contrEquiv1 dot_S4096x3072_S3072x2048_S4096x2048_1_0_0_1_n_n 3072 rfl rfl).symm]
  refine Finset.sum_congr rfl fun k _ => ?_
  have hk := contrEquiv1_symm_val dot_S4096x3072_S3072x2048_S4096x2048_1_0_0_1_n_n 3072 rfl rfl k
  have el : dot_S4096x3072_S3072x2048_S4096x2048_1_0_0_1_n_n.lhsIdx (ix2 b j) ((contrEquiv1 dot_S4096x3072_S3072x2048_S4096x2048_1_0_0_1_n_n 3072 rfl rfl).symm k) = ix2 b k := funext fun a => Fin.ext (by
    match a with
    | ⟨0, _⟩ => exact dotA_lhs0 _ _
    | ⟨1, _⟩ => exact (dotA_lhs1 _ _).trans hk)
  have er : dot_S4096x3072_S3072x2048_S4096x2048_1_0_0_1_n_n.rhsIdx (ix2 b j) ((contrEquiv1 dot_S4096x3072_S3072x2048_S4096x2048_1_0_0_1_n_n 3072 rfl rfl).symm k) = ix2 k j := funext fun a => Fin.ext (by
    match a with
    | ⟨0, _⟩ => exact (dotA_rhs0 _ _).trans hk
    | ⟨1, _⟩ => exact dotA_rhs1 _ _)
  rw [el, er]

theorem dotB_lhs0 (i : S4096x2048.Idx) (q : dot_S4096x512_S512x2048_S4096x2048_1_0_0_1_n_n.contr.Idx) :
    (dot_S4096x512_S512x2048_S4096x2048_1_0_0_1_n_n.lhsIdx i q 0).val = (i 0).val := by
  unfold DotDims.lhsIdx
  rw [dif_neg (show ¬(0 : Fin S4096x512.rank) ∈ dot_S4096x512_S512x2048_S4096x2048_1_0_0_1_n_n.lhsBatch by decide), dif_pos (show (0 : Fin S4096x512.rank) ∈ dot_S4096x512_S512x2048_S4096x2048_1_0_0_1_n_n.lhsNonContracting by decide)]
  rfl
theorem dotB_lhs1 (i : S4096x2048.Idx) (q : dot_S4096x512_S512x2048_S4096x2048_1_0_0_1_n_n.contr.Idx) :
    (dot_S4096x512_S512x2048_S4096x2048_1_0_0_1_n_n.lhsIdx i q 1).val = (q ⟨0, by decide⟩).val :=
  dot_S4096x512_S512x2048_S4096x2048_1_0_0_1_n_n.lhsIdx_val_of_single rfl i q
theorem dotB_rhs0 (i : S4096x2048.Idx) (q : dot_S4096x512_S512x2048_S4096x2048_1_0_0_1_n_n.contr.Idx) :
    (dot_S4096x512_S512x2048_S4096x2048_1_0_0_1_n_n.rhsIdx i q 0).val = (q ⟨0, by decide⟩).val :=
  dot_S4096x512_S512x2048_S4096x2048_1_0_0_1_n_n.rhsIdx_val_of_single rfl i q
theorem dotB_rhs1 (i : S4096x2048.Idx) (q : dot_S4096x512_S512x2048_S4096x2048_1_0_0_1_n_n.contr.Idx) :
    (dot_S4096x512_S512x2048_S4096x2048_1_0_0_1_n_n.rhsIdx i q 1).val = (i 1).val := by
  unfold DotDims.rhsIdx
  rw [dif_neg (show ¬(1 : Fin S512x2048.rank) ∈ dot_S4096x512_S512x2048_S4096x2048_1_0_0_1_n_n.rhsBatch by decide), dif_pos (show (1 : Fin S512x2048.rank) ∈ dot_S4096x512_S512x2048_S4096x2048_1_0_0_1_n_n.rhsNonContracting by decide)]
  rfl

/-- Entry `(b, j)` of the product of a `[4096, 512]` array with a `[512, 2048]` array is the sum over the 512 shared
    coordinates of the products of the entries. -/
theorem dotB_apply (l : V S4096x512) (r : V S512x2048) (b : Fin 4096) (j : Fin 2048) :
    Host.dotGeneral (F := Ideal) (φ₁ := .f32) (φ₂ := .f32) dot_S4096x512_S512x2048_S4096x2048_1_0_0_1_n_n none l r (ix2 b j) = ∑ k : Fin 512, l (ix2 b k) * r (ix2 k j) := by
  simp only [Host.dotGeneral]
  rw [Ideal.dotGeneral_apply, ← Equiv.sum_comp (contrEquiv1 dot_S4096x512_S512x2048_S4096x2048_1_0_0_1_n_n 512 rfl rfl).symm]
  refine Finset.sum_congr rfl fun k _ => ?_
  have hk := contrEquiv1_symm_val dot_S4096x512_S512x2048_S4096x2048_1_0_0_1_n_n 512 rfl rfl k
  have el : dot_S4096x512_S512x2048_S4096x2048_1_0_0_1_n_n.lhsIdx (ix2 b j) ((contrEquiv1 dot_S4096x512_S512x2048_S4096x2048_1_0_0_1_n_n 512 rfl rfl).symm k) = ix2 b k := funext fun a => Fin.ext (by
    match a with
    | ⟨0, _⟩ => exact dotB_lhs0 _ _
    | ⟨1, _⟩ => exact (dotB_lhs1 _ _).trans hk)
  have er : dot_S4096x512_S512x2048_S4096x2048_1_0_0_1_n_n.rhsIdx (ix2 b j) ((contrEquiv1 dot_S4096x512_S512x2048_S4096x2048_1_0_0_1_n_n 512 rfl rfl).symm k) = ix2 k j := funext fun a => Fin.ext (by
    match a with
    | ⟨0, _⟩ => exact (dotB_rhs0 _ _).trans hk
    | ⟨1, _⟩ => exact dotB_rhs1 _ _)
  rw [el, er]

theorem dotC_lhs0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem dotC_lhs1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem dotC_rhs0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem dotC_rhs1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- Entry `(b, j)` of the product of a `[4096, 512]` array with a `[512, 512]` array is the sum over the 512 shared
    coordinates of the products of the entries. -/
theorem dotC_apply (l : V S4096x512) (r : V S512x512) (b : Fin 4096) (j : Fin 512) :
    Host.dotGeneral (F := Ideal) (φ₁ := .f32) (φ₂ := .f32) dot_S4096x512_S512x512_S4096x512_1_0_0_1_n_n none l r (ix2 b j) = ∑ k : Fin 512, l (ix2 b k) * r (ix2 k j) := by
  simp only [Host.dotGeneral]
  rw [Ideal.dotGeneral_apply, ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 b j) ((contrEquiv1 dot_S4096x512_S512x512_S4096x512_1_0_0_1_n_n 512 rfl rfl).symm k) = ix2 b k := funext fun a => Fin.ext (by
    match a with
    | ⟨0, _⟩ => exact dotC_lhs0 _ _
    | ⟨1, _⟩ => exact (dotC_lhs1 _ _).trans hk)
  have er : dot_S4096x512_S512x512_S4096x512_1_0_0_1_n_n.rhsIdx (ix2 b j) ((contrEquiv1 dot_S4096x512_S512x512_S4096x512_1_0_0_1_n_n 512 rfl rfl).symm k) = ix2 k j := funext fun a => Fin.ext (by
    match a with
    | ⟨0, _⟩ => exact (dotC_rhs0 _ _).trans hk
    | ⟨1, _⟩ => exact dotC_rhs1 _ _)
  rw [el, er]

end Cert.RefSide

end
-- ==== Proof.RefOps.lean ====
/-
  The reference program's array operations, read one batch row at a time.

  The program works on whole arrays with 4096 rows. Every operation it uses either acts entry by entry
  (sums, products, the logistic function spelled as 1 / (1 + exp (-x)), tanh, the maximum with 0) or moves
  entries without changing them (the four quarter slices of a pre-activation array, the transposes of the
  weight matrices, the broadcast of a bias row to all batch rows, the time slices of the concatenated
  input), or is a matrix product. So row `b` of each intermediate array is a function of row `b` of its
  operands alone, and that function is the one the row-wise description of the LSTM cell names: the gates,
  the new carry, the new hidden row, the clamp at 0. This module defines each group of operations once,
  over arbitrary operand arrays, and proves its row-wise reading.
-/
import proofs.«126124_j10505490006716_2_alg».proof.Proof.RefDots
import proofs.«126124_j10505490006716_2_alg».proof.Proof.Spec

noncomputable section

open scoped BigOperators

namespace Cert.RefSide

open Cert.ReferenceIdeal Cert.ReferenceIdeal.Gen Idealize.ShloMosaic Idealize.ShloMosaic.ValueIdx Cert.Lstm

/-! ## The constants one and zero -/

/-- The single-precision word `0x3F800000` denotes the number one. -/
theorem one_f32 : Ideal.ofBits .f32 0x3F800000#32 = 1 := by
  simp [Ideal.ofBits, Ideal.ieee, -EReal.coe_mul]; norm_num

/-- The array all of whose entries are one, and the one all of whose entries are zero. -/
def ones : V S4096x512 := broadcastInDim S4096x512 ![] bcast_S_S4096x512 (constant (F := Ideal) S_ .f32 0x3F800000#32)
def zeros : V S4096x512 := broadcastInDim S4096x512 ![] bcast_S_S4096x512 (constant (F := Ideal) S_ .f32 0x00000000#32)

theorem ones_apply (i : S4096x512.Idx) : ones i = 1 := by
  unfold ones
  rw [broadcastInDim_apply _ bcast_S_S4096x512 _ i (fun a => a.elim0) (fun a => a.elim0), constant_apply, one_f32]
theorem zeros_apply (i : S4096x512.Idx) : zeros i = 0 := by
  unfold zeros
  rw [broadcastInDim_apply _ bcast_S_S4096x512 _ i (fun a => a.elim0) (fun a => a.elim0), constant_apply, Ideal.ofBits_zero_f32]
theorem zeros_row (b : Fin 4096) : row2 (a := 4096) (n := 512) zeros b = zrow := funext fun _ => zeros_apply _

/-! ## Entry-by-entry operations -/

/-- `1 / (1 + exp (-x))` entry by entry: the logistic function. -/
def sig (x : V S4096x512) : V S4096x512 := Host.divf ones (addf ones (Host.exp (Host.negf x)))
theorem sig_apply (x : V S4096x512) (i : S4096x512.Idx) : sig x i = Ideal.logistic (x i) := by
  show Ideal.div (ones i) (ones i + Ideal.exp (-(x i))) = Ideal.logistic (x i)
  rw [ones_apply]; rfl

/-- The maximum with zero, entry by entry. -/
def relu (x : V S4096x512) : V S4096x512 := maximumf x zeros
theorem relu_apply (x : V S4096x512) (i : S4096x512.Idx) : relu x i = max (x i) 0 := by
  show max (x i) (zeros i) = _
  rw [zeros_apply]

/-! ## The four quarters of a pre-activation array -/

def qI (a : V S4096x2048) : V S4096x512 :=
  extractStridedSlice S4096x512 ![0, 0] a slices_S4096x2048_S4096x512_0_0
theorem qI_apply (a : V S4096x2048) (b : Fin 4096) (j : Fin 512) :
    qI a (ix2 b j) = gI (row2 (a := 4096) (n := 2048) a b) j :=
  extractStridedSlice_apply ![0, 0] a slices_S4096x2048_S4096x512_0_0 (ix2 b j) (ix2 b ⟨j.val, by omega⟩)
    (fun c => match c with
      | ⟨0, _⟩ => by show b.val = 0 + b.val; omega
      | ⟨1, _⟩ => by show j.val = 0 + j.val; omega)

def qF (a : V S4096x2048) : V S4096x512 :=
  extractStridedSlice S4096x512 ![0, 512] a slices_S4096x2048_S4096x512_0_512
theorem qF_apply (a : V S4096x2048) (b : Fin 4096) (j : Fin 512) :
    qF a (ix2 b j) = gF (row2 (a := 4096) (n := 2048) a b) j :=
  extractStridedSlice_apply ![0, 512] a slices_S4096x2048_S4096x512_0_512 (ix2 b j) (ix2 b ⟨512 + j.val, by omega⟩)
    (fun c => match c with
      | ⟨0, _⟩ => by show b.val = 0 + b.val; omega
      | ⟨1, _⟩ => by show 512 + j.val = 512 + j.val; omega)

def qG (a : V S4096x2048) : V S4096x512 :=
  extractStridedSlice S4096x512 ![0, 1024] a slices_S4096x2048_S4096x512_0_1024
theorem qG_apply (a : V S4096x2048) (b : Fin 4096) (j : Fin 512) :
    qG a (ix2 b j) = gG (row2 (a := 4096) (n := 2048) a b) j :=
  extractStridedSlice_apply ![0, 1024] a slices_S4096x2048_S4096x512_0_1024 (ix2 b j) (ix2 b ⟨1024 + j.val, by omega⟩)
    (fun c => match c with
      | ⟨0, _⟩ => by show b.val = 0 + b.val; omega
      | ⟨1, _⟩ => by show 1024 + j.val = 1024 + j.val; omega)

def qO (a : V S4096x2048) : V S4096x512 :=
  extractStridedSlice S4096x512 ![0, 1536] a slices_S4096x2048_S4096x512_0_1536
theorem qO_apply (a : V S4096x2048) (b : Fin 4096) (j : Fin 512) :
    qO a (ix2 b j) = gO (row2 (a := 4096) (n := 2048) a b) j :=
  extractStridedSlice_apply ![0, 1536] a slices_S4096x2048_S4096x512_0_1536 (ix2 b j) (ix2 b ⟨1536 + j.val, by omega⟩)
    (fun c => match c with
      | ⟨0, _⟩ => by show b.val = 0 + b.val; omega
      | ⟨1, _⟩ => by show 1536 + j.val = 1536 + j.val; omega)

/-! ## The cell's carry and hidden arrays -/

/-- The new carry array `σ(f)·c + σ(i)·tanh g` from a pre-activation array and the old carry array. -/
def carry (a : V S4096x2048) (c : V S4096x512) : V S4096x512 :=
  addf (mulf (sig (qF a)) c) (mulf (sig (qI a)) (Host.tanh (qG a)))
theorem carry_apply (a : V S4096x2048) (c : V S4096x512) (b : Fin 4096) (j : Fin 512) :
    carry a c (ix2 b j) = cNew (row2 (a := 4096) (n := 2048) a b) (row2 (a := 4096) (n := 512) c b) j := by
  show sig (qF a) (ix2 b j) * c (ix2 b j) + sig (qI a) (ix2 b j) * Ideal.tanh (qG a (ix2 b j)) = _
  rw [sig_apply, sig_apply, qF_apply, qI_apply, qG_apply]
  rfl

/-- The new hidden array `σ(o)·tanh c'`. -/
def hidden (a : V S4096x2048) (c : V S4096x512) : V S4096x512 :=
  mulf (sig (qO a)) (Host.tanh (carry a c))
theorem hidden_apply (a : V S4096x2048) (c : V S4096x512) (b : Fin 4096) (j : Fin 512) :
    hidden a c (ix2 b j) = hNew (row2 (a := 4096) (n := 2048) a b) (row2 (a := 4096) (n := 512) c b) j := by
  show sig (qO a) (ix2 b j) * Ideal.tanh (carry a c (ix2 b j)) = _
  rw [sig_apply, qO_apply, carry_apply]
  rfl

/-- Row `b` of the clamped hidden array, and of the clamped carry array, are the rows a cell hands on. -/
theorem hOut_row (a : V S4096x2048) (c : V S4096x512) (b : Fin 4096) :
    row2 (a := 4096) (n := 512) (relu (hidden a c)) b = hOut (row2 (a := 4096) (n := 2048) a b) (row2 (a := 4096) (n := 512) c b) := by
  funext j
  show relu (hidden a c) (ix2 b j) = _
  rw [relu_apply, hidden_apply]
  rfl
theorem cOut_row (a : V S4096x2048) (c : V S4096x512) (b : Fin 4096) :
    row2 (a := 4096) (n := 512) (relu (carry a c)) b = cOut (row2 (a := 4096) (n := 2048) a b) (row2 (a := 4096) (n := 512) c b) := by
  funext j
  show relu (carry a c) (ix2 b j) = _
  rw [relu_apply, carry_apply]
  rfl

/-! ## Transposed weights and broadcast biases -/

def trA (W : V S2048x3072) : V S3072x2048 := transpose S3072x2048 [1, 0] W transposes_S2048x3072_S3072x2048_1_0
theorem trA_apply (W : V S2048x3072) (k : Fin 3072) (j : Fin 2048) : trA W (ix2 k j) = W (ix2 j k) :=
  transpose_apply [1, 0] W transposes_S2048x3072_S3072x2048_1_0 (ix2 k j) (ix2 j k) (fun c => match c with
    | ⟨0, _⟩ => rfl
    | ⟨1, _⟩ => rfl)
def trB (W : V S2048x512) : V S512x2048 := transpose S512x2048 [1, 0] W transposes_S2048x512_S512x2048_1_0
theorem trB_apply (W : V S2048x512) (k : Fin 512) (j : Fin 2048) : trB W (ix2 k j) = W (ix2 j k) :=
  transpose_apply [1, 0] W transposes_S2048x512_S512x2048_1_0 (ix2 k j) (ix2 j k) (fun c => match c with
    | ⟨0, _⟩ => rfl
    | ⟨1, _⟩ => rfl)
def trC (W : V S512x512) : V S512x512 := transpose S512x512 [1, 0] W transposes_S512x512_S512x512_1_0
theorem trC_apply (W : V S512x512) (k : Fin 512) (j : Fin 512) : trC W (ix2 k j) = W (ix2 j k) :=
  transpose_apply [1, 0] W transposes_S512x512_S512x512_1_0 (ix2 k j) (ix2 j k) (fun c => match c with
    | ⟨0, _⟩ => rfl
    | ⟨1, _⟩ => rfl)

/-- The sum of a cell's two bias vectors, repeated on every batch row. -/
def biasArr (x y : V S2048) : V S4096x2048 :=
  broadcastInDim S4096x2048 ![0, 1] bcast_S1x2048_S4096x2048_0_1 (broadcastInDim S1x2048 ![1] bcast_S2048_S1x2048_1 (addf x y))
theorem biasArr_apply (x y : V S2048) (b : Fin 4096) (j : Fin 2048) : biasArr x y (ix2 b j) = badd x y j := by
  unfold biasArr
  rw [broadcastInDim_apply _ bcast_S1x2048_S4096x2048_0_1 _ (ix2 b j) (ix2 (0 : Fin 1) j) (fun a => match a with
        | ⟨0, _⟩ => by show 0 = if (1 : Nat) = 1 then 0 else b.val; rw [if_pos rfl]
        | ⟨1, _⟩ => by show j.val = if (2048 : Nat) = 1 then 0 else j.val; rw [if_neg (by decide)]),
      broadcastInDim_apply _ bcast_S2048_S1x2048_1 _ (ix2 (0 : Fin 1) j) (ix1 j) (fun a => match a with
        | ⟨0, _⟩ => by show j.val = if (2048 : Nat) = 1 then 0 else j.val; rw [if_neg (by decide)])]
  rfl

/-- The output layer's bias vector, repeated on every batch row. -/
def outBias (v : V S512) : V S4096x512 :=
  broadcastInDim S4096x512 ![0, 1] bcast_S1x512_S4096x512_0_1 (broadcastInDim S1x512 ![1] bcast_S512_S1x512_1 v)
theorem outBias_apply (v : V S512) (b : Fin 4096) (j : Fin 512) : outBias v (ix2 b j) = vec v j := by
  unfold outBias
  rw [broadcastInDim_apply _ bcast_S1x512_S4096x512_0_1 _ (ix2 b j) (ix2 (0 : Fin 1) j) (fun a => match a with
        | ⟨0, _⟩ => by show 0 = if (1 : Nat) = 1 then 0 else b.val; rw [if_pos rfl]
        | ⟨1, _⟩ => by show j.val = if (512 : Nat) = 1 then 0 else j.val; rw [if_neg (by decide)]),
      broadcastInDim_apply _ bcast_S512_S1x512_1 _ (ix2 (0 : Fin 1) j) (ix1 j) (fun a => match a with
        | ⟨0, _⟩ => by show j.val = if (512 : Nat) = 1 then 0 else j.val; rw [if_neg (by decide)])]
  rfl

/-! ## Pre-activations -/

/-- A hidden array times a transposed input-weight matrix: row `b` is the linear map of the weights on row `b`. -/
def linArr (h : V S4096x512) (W : V S2048x512) : V S4096x2048 :=
  Host.dotGeneral (F := Ideal) (φ₁ := .f32) (φ₂ := .f32) dot_S4096x512_S512x2048_S4096x2048_1_0_0_1_n_n none h (trB W)
theorem linArr_apply (h : V S4096x512) (W : V S2048x512) (b : Fin 4096) (j : Fin 2048) :
    linArr h W (ix2 b j) = lin (mat W) (row2 (a := 4096) (n := 512) h b) j := by
  unfold linArr
  rw [dotB_apply]
  refine Finset.sum_congr rfl fun k _ => ?_
  rw [trB_apply]; rfl
theorem linArr_row (h : V S4096x512) (W : V S2048x512) (b : Fin 4096) :
    row2 (a := 4096) (n := 2048) (linArr h W) b = lin (mat W) (row2 (a := 4096) (n := 512) h b) :=
  funext fun j => linArr_apply h W b j

/-- The pre-activation array `(xdot + h · Whhᵀ) + (bih + bhh)`. -/
def gatesArr (xd : V S4096x2048) (h : V S4096x512) (Whh : V S2048x512) (bi bh : V S2048) : V S4096x2048 :=
  addf (addf xd (linArr h Whh)) (biasArr bi bh)
theorem gatesArr_row (xd : V S4096x2048) (h : V S4096x512) (Whh : V S2048x512) (bi bh : V S2048) (b : Fin 4096) :
    row2 (a := 4096) (n := 2048) (gatesArr xd h Whh bi bh) b
      = gates (row2 (a := 4096) (n := 2048) xd b) (row2 (a := 4096) (n := 512) h b) (mat Whh) (badd bi bh) := by
  funext j
  show xd (ix2 b j) + linArr h Whh (ix2 b j) + biasArr bi bh (ix2 b j) = _
  rw [linArr_apply, biasArr_apply]
  rfl

/-! ## The first cell's input: state and goal side by side -/

/-- State and goal joined along the last axis: 2048 state entries, then 1024 goal entries. -/
def cat (x0 : V S4096x4x2048) (x1 : V S4096x4x1024) : V S4096x4x3072 :=
  concatenate S4096x4x3072 2 [⟨S4096x4x2048, x0⟩, ⟨S4096x4x1024, x1⟩] concatenates_S4096x4x2048_S4096x4x1024_S4096x4x3072_d2
theorem cat_lo (x0 : V S4096x4x2048) (x1 : V S4096x4x1024) (b : Fin 4096) (t : Fin 4) (k : Fin 2048) :
    cat x0 x1 (ix3 b t ⟨k.val, by omega⟩) = x0 (ix3 b t k) :=
  concatenate_pair_apply_left 2 x0 x1 concatenates_S4096x4x2048_S4096x4x1024_S4096x4x3072_d2 (ix3 b t ⟨k.val, by omega⟩) rfl (ix3 b t k)
    (fun c => match c with
      | ⟨0, _⟩ => rfl
      | ⟨1, _⟩ => rfl
      | ⟨2, _⟩ => rfl)
theorem cat_hi (x0 : V S4096x4x2048) (x1 : V S4096x4x1024) (b : Fin 4096) (t : Fin 4) (k : Fin 1024) :
    cat x0 x1 (ix3 b t ⟨2048 + k.val, by omega⟩) = x1 (ix3 b t k) :=
  concatenate_pair_apply_right 2 x0 x1 concatenates_S4096x4x2048_S4096x4x1024_S4096x4x3072_d2 (ix3 b t ⟨2048 + k.val, by omega⟩) rfl rfl (ix3 b t k)
    (fun c hc => match c, hc with
      | ⟨0, _⟩, _ => rfl
      | ⟨1, _⟩, _ => rfl
      | ⟨2, _⟩, hc => absurd rfl hc)
    (by show k.val + 2048 = 2048 + k.val; omega)

/-- The concatenated input at time 0, one row of 3072 entries per batch row. -/
def xt0 (x0 : V S4096x4x2048) (x1 : V S4096x4x1024) : V S4096x3072 :=
  shapeCast _ (extractStridedSlice S4096x1x3072 ![0, 0, 0] (cat x0 x1) slices_S4096x4x3072_S4096x1x3072_0_0_0)
    shapeCasts_S4096x1x3072_S4096x3072
theorem xt0_apply (x0 : V S4096x4x2048) (x1 : V S4096x4x1024) (b : Fin 4096) (k : Fin 3072) :
    xt0 x0 x1 (ix2 b k) = cat x0 x1 (ix3 b (0 : Fin 4) k) := by
  unfold xt0
  rw [shapeCast_apply _ shapeCasts_S4096x1x3072_S4096x3072 (ix2 b k) (ix3 b (0 : Fin 1) k)
        (by rewrite [Shape.rowMajor_val_three, Shape.rowMajor_val_two]
            show (b.val * 1 + 0) * 3072 + k.val = b.val * 3072 + k.val; omega)]
  exact extractStridedSlice_apply ![0, 0, 0] (cat x0 x1) slices_S4096x4x3072_S4096x1x3072_0_0_0 (ix3 b (0 : Fin 1) k) (ix3 b (0 : Fin 4) k)
    (fun c => match c with
      | ⟨0, _⟩ => by show b.val = 0 + b.val; omega
      | ⟨1, _⟩ => by show 0 = 0 + 0; rfl
      | ⟨2, _⟩ => by show k.val = 0 + k.val; omega)

/-- The first cell's input projection at time 0: one batch row of it is `xproj` of that row's state and goal slices. -/
def xprojArr0 (x0 : V S4096x4x2048) (x1 : V S4096x4x1024) (x3 : V S2048x3072) : V S4096x2048 :=
  Host.dotGeneral (F := Ideal) (φ₁ := .f32) (φ₂ := .f32) dot_S4096x3072_S3072x2048_S4096x2048_1_0_0_1_n_n none (xt0 x0 x1) (trA x3)
theorem xprojArr0_row (x0 : V S4096x4x2048) (x1 : V S4096x4x1024) (x3 : V S2048x3072) (b : Fin 4096) :
    row2 (a := 4096) (n := 2048) (xprojArr0 x0 x1 x3) b
      = xproj (colsLo x3) (colsHi x3) (row3 (a := 4096) (T := 4) (n := 2048) x0 b 0) (row3 (a := 4096) (T := 4) (n := 1024) x1 b 0) := by
  funext j
  show Host.dotGeneral (F := Ideal) (φ₁ := .f32) (φ₂ := .f32) dot_S4096x3072_S3072x2048_S4096x2048_1_0_0_1_n_n none (xt0 x0 x1) (trA x3) (ix2 b j) = _
  rw [dotA_apply, sum_split]
  refine congrArg₂ (· + ·) (Finset.sum_congr rfl fun k _ => ?_) (Finset.sum_congr rfl fun k _ => ?_)
  · rw [xt0_apply, cat_lo, trA_apply]; rfl
  · rw [xt0_apply, cat_hi, trA_apply]; rfl

/-- The concatenated input at time 1, one row of 3072 entries per batch row. -/
def xt1 (x0 : V S4096x4x2048) (x1 : V S4096x4x1024) : V S4096x3072 :=
  shapeCast _ (extractStridedSlice S4096x1x3072 ![0, 1, 0] (cat x0 x1) slices_S4096x4x3072_S4096x1x3072_0_1_0)
    shapeCasts_S4096x1x3072_S4096x3072
theorem xt1_apply (x0 : V S4096x4x2048) (x1 : V S4096x4x1024) (b : Fin 4096) (k : Fin 3072) :
    xt1 x0 x1 (ix2 b k) = cat x0 x1 (ix3 b (1 : Fin 4) k) := by
  unfold xt1
  rw [shapeCast_apply _ shapeCasts_S4096x1x3072_S4096x3072 (ix2 b k) (ix3 b (0 : Fin 1) k)
        (by rewrite [Shape.rowMajor_val_three, Shape.rowMajor_val_two]
            show (b.val * 1 + 0) * 3072 + k.val = b.val * 3072 + k.val; omega)]
  exact extractStridedSlice_apply ![0, 1, 0] (cat x0 x1) slices_S4096x4x3072_S4096x1x3072_0_1_0 (ix3 b (0 : Fin 1) k) (ix3 b (1 : Fin 4) k)
    (fun c => match c with
      | ⟨0, _⟩ => by show b.val = 0 + b.val; omega
      | ⟨1, _⟩ => by show 1 = 1 + 0; rfl
      | ⟨2, _⟩ => by show k.val = 0 + k.val; omega)

/-- The first cell's input projection at time 1: one batch row of it is `xproj` of that row's state and goal slices. -/
def xprojArr1 (x0 : V S4096x4x2048) (x1 : V S4096x4x1024) (x3 : V S2048x3072) : V S4096x2048 :=
  Host.dotGeneral (F := Ideal) (φ₁ := .f32) (φ₂ := .f32) dot_S4096x3072_S3072x2048_S4096x2048_1_0_0_1_n_n none (xt1 x0 x1) (trA x3)
theorem xprojArr1_row (x0 : V S4096x4x2048) (x1 : V S4096x4x1024) (x3 : V S2048x3072) (b : Fin 4096) :
    row2 (a := 4096) (n := 2048) (xprojArr1 x0 x1 x3) b
      = xproj (colsLo x3) (colsHi x3) (row3 (a := 4096) (T := 4) (n := 2048) x0 b 1) (row3 (a := 4096) (T := 4) (n := 1024) x1 b 1) := by
  funext j
  show Host.dotGeneral (F := Ideal) (φ₁ := .f32) (φ₂ := .f32) dot_S4096x3072_S3072x2048_S4096x2048_1_0_0_1_n_n none (xt1 x0 x1) (trA x3) (ix2 b j) = _
  rw [dotA_apply, sum_split]
  refine congrArg₂ (· + ·) (Finset.sum_congr rfl fun k _ => ?_) (Finset.sum_congr rfl fun k _ => ?_)
  · rw [xt1_apply, cat_lo, trA_apply]; rfl
  · rw [xt1_apply, cat_hi, trA_apply]; rfl

/-! ## The output layer and the threshold -/

/-- `max (h · Woutᵀ + bout) 0`. -/
def probs (h : V S4096x512) (W : V S512x512) (v : V S512) : V S4096x512 :=
  relu (addf (Host.dotGeneral (F := Ideal) (φ₁ := .f32) (φ₂ := .f32) dot_S4096x512_S512x512_S4096x512_1_0_0_1_n_n none h (trC W)) (outBias v))
theorem probs_apply (h : V S4096x512) (W : V S512x512) (v : V S512) (b : Fin 4096) (j : Fin 512) :
    probs h W v (ix2 b j) = max (lin (mat W) (row2 (a := 4096) (n := 512) h b) j + vec v j) 0 := by
  unfold probs
  rw [relu_apply]
  show max (Host.dotGeneral (F := Ideal) (φ₁ := .f32) (φ₂ := .f32) dot_S4096x512_S512x512_S4096x512_1_0_0_1_n_n none h (trC W) (ix2 b j) + outBias v (ix2 b j)) 0 = _
  rw [dotC_apply, outBias_apply]
  refine congrArg (fun s => max (s + vec v j) 0) (Finset.sum_congr rfl fun k _ => ?_)
  rw [trC_apply]; rfl

/-- The comparison `u < p` entry by entry, as the number 0 or 1. -/
def thresh (u p : V S4096x512) : V S4096x512 := uitofp .f32 (cmpf .olt u p)
theorem thresh_apply (u p : V S4096x512) (i : S4096x512.Idx) : thresh u p i = bern (u i) (p i) := rfl

end Cert.RefSide

end
-- ==== Proof.RefStages.lean ====
/-
  The reference program's stages, one batch row at a time.

  The program's operations are grouped into the first cell at times 0 and 1, then the second, third and
  fourth cells, then the output layer. Each group is, text for text, one of the generic array operations
  whose row-wise reading is already proved: a pre-activation array, then the clamped hidden and carry arrays
  built from it. Chaining these readings gives row `b` of every stage as the row-wise LSTM recurrence applied
  to row `b` of the inputs: the pre-activations `a0, a1` of the first cell at the two times, its hidden row
  `h1` after time 1, and the pre-activations `a2, a3, a4` of the later cells, each started from zero state.
-/
import proofs.«126124_j10505490006716_2_alg».proof.Proof.RefReadP
import proofs.«126124_j10505490006716_2_alg».proof.Proof.RefOps

noncomputable section

open scoped BigOperators

namespace Cert.RefSide

open Cert.ReferenceIdeal Cert.ReferenceIdeal.Gen Idealize.ShloMosaic Idealize.ShloMosaic.ValueIdx Cert.Lstm

variable (x0 : V S4096x4x2048) (x1 : V S4096x4x1024) (x2 : V S4096x512) (x3 : V S2048x3072) (x4 : V S2048x512) (x5 x6 : V S2048)
  (x7 x8 : V S2048x512) (x9 x10 : V S2048) (x11 x12 : V S2048x512) (x13 x14 : V S2048) (x15 x16 : V S2048x512) (x17 x18 : V S2048)
  (x19 : V S512x512) (x20 : V S512) (b : Fin 4096)

/-! ## The row-wise recurrence on batch row `b` -/

/-- The first cell's pre-activations at time 0 (zero hidden row). -/
def a0 : Row 2048 :=
  gates (xproj (colsLo x3) (colsHi x3) (row3 (a := 4096) (T := 4) (n := 2048) x0 b 0) (row3 (a := 4096) (T := 4) (n := 1024) x1 b 0)) zrow (mat x4) (badd x5 x6)
/-- The first cell's pre-activations at time 1, from the hidden row of time 0. -/
def a1 : Row 2048 :=
  gates (xproj (colsLo x3) (colsHi x3) (row3 (a := 4096) (T := 4) (n := 2048) x0 b 1) (row3 (a := 4096) (T := 4) (n := 1024) x1 b 1)) (hOut (a0 x0 x1 x3 x4 x5 x6 b) zrow) (mat x4) (badd x5 x6)
/-- The first cell's hidden row after time 1; the carry it starts from is the one of time 0. -/
def h1 : Row 512 := hOut (a1 x0 x1 x3 x4 x5 x6 b) (cOut (a0 x0 x1 x3 x4 x5 x6 b) zrow)
/-- The second, third and fourth cells' pre-activations, each from the hidden row below it and zero state. -/
def a2 : Row 2048 := gates (lin (mat x7) (h1 x0 x1 x3 x4 x5 x6 b)) zrow (mat x8) (badd x9 x10)
def a3 : Row 2048 := gates (lin (mat x11) (hOut (a2 x0 x1 x3 x4 x5 x6 x7 x8 x9 x10 b) zrow)) zrow (mat x12) (badd x13 x14)
def a4 : Row 2048 := gates (lin (mat x15) (hOut (a3 x0 x1 x3 x4 x5 x6 x7 x8 x9 x10 x11 x12 x13 x14 b) zrow)) zrow (mat x16) (badd x17 x18)

/-! ## Each group of operations is one generic array operation -/

theorem v1_eq : ReadP.val_main_v1 (F := Ideal) = zeros := rfl
theorem v12_eq : ReadP.val_main_v12 (F := Ideal) x0 x1 x3 x4 x5 x6 = gatesArr (xprojArr0 x0 x1 x3) (ReadP.val_main_v1 (F := Ideal)) x4 x5 x6 := rfl
theorem v41_eq : ReadP.val_main_v41 (F := Ideal) x0 x1 x3 x4 x5 x6 = relu (hidden (ReadP.val_main_v12 (F := Ideal) x0 x1 x3 x4 x5 x6) (ReadP.val_main_v1 (F := Ideal))) := rfl
theorem v42_eq : ReadP.val_main_v42 (F := Ideal) x0 x1 x3 x4 x5 x6 = relu (carry (ReadP.val_main_v12 (F := Ideal) x0 x1 x3 x4 x5 x6) (ReadP.val_main_v1 (F := Ideal))) := rfl
theorem v53_eq : ReadP.val_main_v53 (F := Ideal) x0 x1 x3 x4 x5 x6 = gatesArr (xprojArr1 x0 x1 x3) (ReadP.val_main_v41 (F := Ideal) x0 x1 x3 x4 x5 x6) x4 x5 x6 := rfl
theorem v82_eq : ReadP.val_main_v82 (F := Ideal) x0 x1 x3 x4 x5 x6 = relu (hidden (ReadP.val_main_v53 (F := Ideal) x0 x1 x3 x4 x5 x6) (ReadP.val_main_v42 (F := Ideal) x0 x1 x3 x4 x5 x6)) := rfl
theorem v92_eq : ReadP.val_main_v92 (F := Ideal) x0 x1 x3 x4 x5 x6 x7 x8 x9 x10 = gatesArr (linArr (ReadP.val_main_v82 (F := Ideal) x0 x1 x3 x4 x5 x6) x7) (ReadP.val_main_v1 (F := Ideal)) x8 x9 x10 := rfl
theorem v121_eq : ReadP.val_main_v121 (F := Ideal) x0 x1 x3 x4 x5 x6 x7 x8 x9 x10 = relu (hidden (ReadP.val_main_v92 (F := Ideal) x0 x1 x3 x4 x5 x6 x7 x8 x9 x10) (ReadP.val_main_v1 (F := Ideal))) := rfl
theorem v172_eq : ReadP.val_main_v172 (F := Ideal) x0 x1 x3 x4 x5 x6 x7 x8 x9 x10 x11 x12 x13 x14 = gatesArr (linArr (ReadP.val_main_v121 (F := Ideal) x0 x1 x3 x4 x5 x6 x7 x8 x9 x10) x11) (ReadP.val_main_v1 (F := Ideal)) x12 x13 x14 := rfl
theorem v201_eq : ReadP.val_main_v201 (F := Ideal) x0 x1 x3 x4 x5 x6 x7 x8 x9 x10 x11 x12 x13 x14 = relu (hidden (ReadP.val_main_v172 (F := Ideal) x0 x1 x3 x4 x5 x6 x7 x8 x9 x10 x11 x12 x13 x14) (ReadP.val_main_v1 (F := Ideal))) := rfl
theorem v252_eq : ReadP.val_main_v252 (F := Ideal) x0 x1 x3 x4 x5 x6 x7 x8 x9 x10 x11 x12 x13 x14 x15 x16 x17 x18 = gatesArr (linArr (ReadP.val_main_v201 (F := Ideal) x0 x1 x3 x4 x5 x6 x7 x8 x9 x10 x11 x12 x13 x14) x15) (ReadP.val_main_v1 (F := Ideal)) x16 x17 x18 := rfl
theorem v281_eq : ReadP.val_main_v281 (F := Ideal) x0 x1 x3 x4 x5 x6 x7 x8 x9 x10 x11 x12 x13 x14 x15 x16 x17 x18 = relu (hidden (ReadP.val_main_v252 (F := Ideal) x0 x1 x3 x4 x5 x6 x7 x8 x9 x10 x11 x12 x13 x14 x15 x16 x17 x18) (ReadP.val_main_v1 (F := Ideal))) := rfl
theorem v288_eq : ReadP.val_main_v288 (F := Ideal) x0 x1 x3 x4 x5 x6 x7 x8 x9 x10 x11 x12 x13 x14 x15 x16 x17 x18 x19 x20 = probs (ReadP.val_main_v281 (F := Ideal) x0 x1 x3 x4 x5 x6 x7 x8 x9 x10 x11 x12 x13 x14 x15 x16 x17 x18) x19 x20 := rfl
theorem v290_eq : ReadP.val_main_v290 (F := Ideal) x0 x1 x2 x3 x4 x5 x6 x7 x8 x9 x10 x11 x12 x13 x14 x15 x16 x17 x18 x19 x20 = thresh x2 (ReadP.val_main_v288 (F := Ideal) x0 x1 x3 x4 x5 x6 x7 x8 x9 x10 x11 x12 x13 x14 x15 x16 x17 x18 x19 x20) := rfl

/-! ## Row `b` of each stage -/

theorem v1_row : row2 (a := 4096) (n := 512) (ReadP.val_main_v1 (F := Ideal)) b = zrow := by
  rw [v1_eq]; exact zeros_row b

theorem v12_row : row2 (a := 4096) (n := 2048) (ReadP.val_main_v12 (F := Ideal) x0 x1 x3 x4 x5 x6) b = a0 x0 x1 x3 x4 x5 x6 b := by
  rw [v12_eq, gatesArr_row, xprojArr0_row, v1_row]; rfl
theorem v41_row : row2 (a := 4096) (n := 512) (ReadP.val_main_v41 (F := Ideal) x0 x1 x3 x4 x5 x6) b = hOut (a0 x0 x1 x3 x4 x5 x6 b) zrow := by
  rw [v41_eq, hOut_row, v12_row, v1_row]
theorem v42_row : row2 (a := 4096) (n := 512) (ReadP.val_main_v42 (F := Ideal) x0 x1 x3 x4 x5 x6) b = cOut (a0 x0 x1 x3 x4 x5 x6 b) zrow := by
  rw [v42_eq, cOut_row, v12_row, v1_row]
theorem v53_row : row2 (a := 4096) (n := 2048) (ReadP.val_main_v53 (F := Ideal) x0 x1 x3 x4 x5 x6) b = a1 x0 x1 x3 x4 x5 x6 b := by
  rw [v53_eq, gatesArr_row, xprojArr1_row, v41_row]; rfl
theorem v82_row : row2 (a := 4096) (n := 512) (ReadP.val_main_v82 (F := Ideal) x0 x1 x3 x4 x5 x6) b = h1 x0 x1 x3 x4 x5 x6 b := by
  rw [v82_eq, hOut_row, v53_row, v42_row]; rfl
theorem v92_row : row2 (a := 4096) (n := 2048) (ReadP.val_main_v92 (F := Ideal) x0 x1 x3 x4 x5 x6 x7 x8 x9 x10) b = a2 x0 x1 x3 x4 x5 x6 x7 x8 x9 x10 b := by
  rw [v92_eq, gatesArr_row, linArr_row, v82_row, v1_row]; rfl
theorem v121_row : row2 (a := 4096) (n := 512) (ReadP.val_main_v121 (F := Ideal) x0 x1 x3 x4 x5 x6 x7 x8 x9 x10) b = hOut (a2 x0 x1 x3 x4 x5 x6 x7 x8 x9 x10 b) zrow := by
  rw [v121_eq, hOut_row, v92_row, v1_row]
theorem v172_row : row2 (a := 4096) (n := 2048) (ReadP.val_main_v172 (F := Ideal) x0 x1 x3 x4 x5 x6 x7 x8 x9 x10 x11 x12 x13 x14) b = a3 x0 x1 x3 x4 x5 x6 x7 x8 x9 x10 x11 x12 x13 x14 b := by
  rw [v172_eq, gatesArr_row, linArr_row, v121_row, v1_row]; rfl
theorem v201_row : row2 (a := 4096) (n := 512) (ReadP.val_main_v201 (F := Ideal) x0 x1 x3 x4 x5 x6 x7 x8 x9 x10 x11 x12 x13 x14) b = hOut (a3 x0 x1 x3 x4 x5 x6 x7 x8 x9 x10 x11 x12 x13 x14 b) zrow := by
  rw [v201_eq, hOut_row, v172_row, v1_row]
theorem v252_row : row2 (a := 4096) (n := 2048) (ReadP.val_main_v252 (F := Ideal) x0 x1 x3 x4 x5 x6 x7 x8 x9 x10 x11 x12 x13 x14 x15 x16 x17 x18) b = a4 x0 x1 x3 x4 x5 x6 x7 x8 x9 x10 x11 x12 x13 x14 x15 x16 x17 x18 b := by
  rw [v252_eq, gatesArr_row, linArr_row, v201_row, v1_row]; rfl
theorem v281_row : row2 (a := 4096) (n := 512) (ReadP.val_main_v281 (F := Ideal) x0 x1 x3 x4 x5 x6 x7 x8 x9 x10 x11 x12 x13 x14 x15 x16 x17 x18) b = hOut (a4 x0 x1 x3 x4 x5 x6 x7 x8 x9 x10 x11 x12 x13 x14 x15 x16 x17 x18 b) zrow := by
  rw [v281_eq, hOut_row, v252_row, v1_row]

/-- The fourth cell's hidden row, as the specification spells it. -/
theorem h4_eq : hOut (a4 x0 x1 x3 x4 x5 x6 x7 x8 x9 x10 x11 x12 x13 x14 x15 x16 x17 x18 b) zrow
    = h4 (row3 (a := 4096) (T := 4) (n := 2048) x0 b 0) (row3 (a := 4096) (T := 4) (n := 2048) x0 b 1) (row3 (a := 4096) (T := 4) (n := 1024) x1 b 0) (row3 (a := 4096) (T := 4) (n := 1024) x1 b 1)
        (colsLo x3) (colsHi x3) (mat x4) (badd x5 x6) (mat x7) (mat x8) (badd x9 x10)
        (mat x11) (mat x12) (badd x13 x14) (mat x15) (mat x16) (badd x17 x18) := rfl

end Cert.RefSide

end
-- ==== Proof.RefEq.lean ====
/-
  The reference program computes the stacked LSTM step of the specification.

  Entry `(b, j)` of the program's result is the threshold `u < p` at that entry, where `p` is the output layer
  applied to row `b` of the fourth cell's hidden array; that row is the row-wise recurrence on row `b` of the
  inputs, which is what the specification's result array says entry by entry.
-/
import proofs.«126124_j10505490006716_2_alg».proof.Proof.RefStages

noncomputable section

namespace Cert.RefSide

open Cert.ReferenceIdeal Cert.ReferenceIdeal.Gen Idealize.ShloMosaic Idealize.ShloMosaic.ValueIdx Cert.Lstm

theorem ref_eq (x0 : (⟨S4096x4x2048, .f32⟩ : BufTy).Contents (Elt Ideal)) (x1 : (⟨S4096x4x1024, .f32⟩ : BufTy).Contents (Elt Ideal)) (x2 : (⟨S4096x512, .f32⟩ : BufTy).Contents (Elt Ideal)) (x3 : (⟨S2048x3072, .f32⟩ : BufTy).Contents (Elt Ideal)) (x4 : (⟨S2048x512, .f32⟩ : BufTy).Contents (Elt Ideal)) (x5 x6 : (⟨S2048, .f32⟩ : BufTy).Contents (Elt Ideal)) (x7 x8 : (⟨S2048x512, .f32⟩ : BufTy).Contents (Elt Ideal)) (x9 x10 : (⟨S2048, .f32⟩ : BufTy).Contents (Elt Ideal)) (x11 x12 : (⟨S2048x512, .f32⟩ : BufTy).Contents (Elt Ideal)) (x13 x14 : (⟨S2048, .f32⟩ : BufTy).Contents (Elt Ideal)) (x15 x16 : (⟨S2048x512, .f32⟩ : BufTy).Contents (Elt Ideal)) (x17 x18 : (⟨S2048, .f32⟩ : BufTy).Contents (Elt Ideal)) (x19 : (⟨S512x512, .f32⟩ : BufTy).Contents (Elt Ideal)) (x20 : (⟨S512, .f32⟩ : BufTy).Contents (Elt Ideal)) :
    Cert.ReferenceIdeal.ReadP.val_main_v290 (F := Ideal) x0 x1 x2 x3 x4 x5 x6 x7 x8 x9 x10 x11 x12 x13 x14 x15 x16 x17 x18 x19 x20
      = Cert.Lstm.G (B := 4096) x0 x1 x2 x3 x4 x5 x6 x7 x8 x9 x10 x11 x12 x13 x14 x15 x16 x17 x18 x19 x20 := by
  funext i
  obtain ⟨b, j, rfl⟩ : ∃ (b : Fin 4096) (j : Fin 512), i = ix2 b j := ⟨i 0, i 1, eq_ix2 i⟩
  rw [v290_eq, thresh_apply, v288_eq, probs_apply, v281_row, h4_eq]
  rfl

end Cert.RefSide

end
-- ==== Proof.lean ====
/-
  A Pallas kernel for four time steps of a stack of LSTM cells followed by a thresholded output layer, against its
  jnp reference, on 4096 batch rows.

  Per batch row both programs compute the same thing on the extended reals (`Proof/Spec.lean`): the first cell at
  times 0 and 1 on `[state_τ ; goal_τ]`, then the second, third and fourth cells once each from zero state (the later
  steps of the first cell do not reach the result), `p = max (h₄ · Woutᵀ + bout) 0`, and `u < p` as 0 or 1.  A cell is
  `a = (xdot + h · Whhᵀ) + (bih + bhh)`, `c' = σ(a_f)·c + σ(a_i)·tanh a_g`, `h' = σ(a_o)·tanh c'`, both clamped at 0.
  The differences between the two texts all vanish on the extended reals without any use of finiteness: the kernel's
  bf16 operands are format changes (the identity); it multiplies pre-transposed weights, which is the reference's
  contraction against the weight's second axis; its one sigmoid operation is by definition the reference's
  `1 / (1 + exp (-x))`; and it computes the first cell's input projection as a 2048-term sum over the state plus a
  1024-term sum over the goal, where the reference sums over the 3072 concatenated entries — one sum split in two
  (`Cert.Lstm.sum_split`, an identity of the additive commutative monoid).

  The kernel side: each grid point stores the block of 64 rows `Cert.Lstm.Gblk` of its operand blocks
  (`Proof/KOps.lean`, `Proof/KPay.lean`); the operand arrays are the arguments' transposes, column halves and bias sums,
  and the 64 blocks tile the result, so the result array is `Cert.Lstm.G` of the arguments (`Proof/KFinal.lean`).  The
  reference side: its last stage read row by row is the same `G` (`Proof/RefEq.lean`).  The three frames are the
  programs' runs with the result forgotten; the idealization rewrote nothing, so `preserves` is `True`.
-/
import proofs.«126124_j10505490006716_2_alg».proof.Defs
import proofs.«126124_j10505490006716_2_alg».proof.Proof.Gen.Kernel
import proofs.«126124_j10505490006716_2_alg».proof.Proof.Gen.Kernel.Skeleton
import proofs.«126124_j10505490006716_2_alg».proof.Proof.Gen.Kernel.Launch
import proofs.«126124_j10505490006716_2_alg».proof.Proof.Gen.Kernel.Points
import proofs.«126124_j10505490006716_2_alg».proof.Proof.Gen.Kernel.Frame
import proofs.«126124_j10505490006716_2_alg».proof.Proof.Gen.KernelIdeal
import proofs.«126124_j10505490006716_2_alg».proof.Proof.Gen.KernelIdeal.Skeleton
import proofs.«126124_j10505490006716_2_alg».proof.Proof.Gen.KernelIdeal.Launch
import proofs.«126124_j10505490006716_2_alg».proof.Proof.Gen.KernelIdeal.Points
import proofs.«126124_j10505490006716_2_alg».proof.Proof.Gen.KernelIdeal.Frame
import proofs.«126124_j10505490006716_2_alg».proof.Proof.Gen.ReferenceIdeal
import proofs.«126124_j10505490006716_2_alg».proof.Proof.Gen.Pre_finite_inputs
import proofs.«126124_j10505490006716_2_alg».proof.Proof.Gen.KernelIdeal.Value
import proofs.«126124_j10505490006716_2_alg».proof.Proof.KFinal
import proofs.«126124_j10505490006716_2_alg».proof.Proof.RefEq
import proofs.«126124_j10505490006716_2_alg».proof.Proof.RefRunP
import Idealize.ShloMosaic.Adequacy
import Idealize.ShloMosaic.Init

noncomputable section

namespace Cert.Proof

open Idealize.ShloMosaic Idealize.ShloMosaic.TcCoe Idealize.SL.Sem

/-- The kernel as printed terminates without fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result array at the stack's function `G` of the arguments: the kernel's by its 64 blocks,
    the reference's by its last stage, from memories that agree on the arguments. -/
theorem algebraic : Cert.algebraic_KernelIdeal_ReferenceIdeal := by
  intro m ρ m' ρ' _ hagree
  refine ⟨fun c => Cert.Lstm.G (B := 4096) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19, h20⟩ := hagree c
  rw [Cert.RefSide.ref_eq, h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
